-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S4x128x130 : Shape := ⟨3, ![4, 128, 130]⟩
abbrev S4x128 : Shape := ⟨2, ![4, 128]⟩
abbrev S4 : Shape := ⟨1, ![4]⟩
abbrev S40x128 : Shape := ⟨2, ![40, 128]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S4x128x130 : S_.BroadcastsInDim S4x128x130 (![] : Fin 0 → Fin S4x128x130.rank)
  reducesTo_S4x128x130_S_d0_1_2 : S4x128x130.ReducesTo [0, 1, 2] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x128 .f32) (main_arg9 : FVec F S40 .f32) (main_v33 : IVec S_ 1) : IVec S_ 1 :=
  let main_v34 : FVec F S40x128 .f32 := Host.absf main_arg8
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S4x128 .f32) (main_arg6 : FVec F S4x128 .f32) (main_arg7 : FVec F S4 .f32) (main_arg8 : FVec F S40x128 .f32) (main_arg9 : FVec F S40 .f32) (main_v13 : IVec S_ 1) (main_v16 : IVec S4x128x130 1) : IVec S_ 1 :=
  let main_c_5 : IVec S_ 1 := constantI S_ 1 1#1
  let main_v17 : IVec S_ 1 := (fun x v => Host.reduce IntOp.andi x v reducesTo_S4x128x130_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S128x256 .f32) (main_arg3 : FVec F S128 .f32) (main_arg4 : FVec F S4x128x130 .f32) (main_arg5 : FVec F S4x128 .f32) (main_arg6 : FVec F S4x128 .f32) (main_arg7 : FVec F S4 .f32) (main_arg8 : FVec F S40x128 .f32) (main_arg9 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x130 .f32 := Host.absf main_arg4
  let main_cst_4 : FVec F S_ .f32 := constant S_ .f32 0x7F800000#32
  let main_v15 : FVec F S4x128x130 .f32 := broadcastInDim S4x128x130 ![] bcast_S_S4x128x130 main_cst_4
  let main_v16 : IVec S4x128x130 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S4x128x130 : Shape := ⟨3, ![4, 128, 130]⟩
abbrev S4x128 : Shape := ⟨2, ![4, 128]⟩
abbrev S4 : Shape := ⟨1, ![4]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4x128x128 : Shape := ⟨3, ![4, 128, 128]⟩
abbrev S128x128 : Shape := ⟨2, ![128, 128]⟩
abbrev S4x128x1 : Shape := ⟨3, ![4, 128, 1]⟩
abbrev S1x128x128 : Shape := ⟨3, ![1, 128, 128]⟩
abbrev S1x128 : Shape := ⟨2, ![1, 128]⟩
abbrev S1x40 : Shape := ⟨2, ![1, 40]⟩
abbrev S4x1 : Shape := ⟨2, ![4, 1]⟩
abbrev S100000x40 : Shape := ⟨2, ![100000, 40]⟩
abbrev S2000x256 : Shape := ⟨2, ![2000, 256]⟩
abbrev S2000x1 : Shape := ⟨2, ![2000, 1]⟩
abbrev S2000x40 : Shape := ⟨2, ![2000, 40]⟩
abbrev S256x128 : Shape := ⟨2, ![256, 128]⟩
abbrev S2000x128 : Shape := ⟨2, ![2000, 128]⟩
abbrev S1x1 : Shape := ⟨2, ![1, 1]⟩
abbrev S128x40 : Shape := ⟨2, ![128, 40]⟩

abbrev nBuf : Space → Nat
  | .hbm => 112
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S4x128x130, .f32⟩
  | .hbm, ⟨5, _⟩ => ⟨S4x128, .f32⟩
  | .hbm, ⟨6, _⟩ => ⟨S4x128, .f32⟩
  | .hbm, ⟨7, _⟩ => ⟨S4, .f32⟩
  | .hbm, ⟨8, _⟩ => ⟨S40x128, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S_, .f32⟩
  | .hbm, ⟨25, _⟩ => ⟨S1600000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000, .f32⟩
  | .hbm, ⟨62, _⟩ => ⟨S1600000, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S100000, .f32⟩
  | .hbm, ⟨72, _⟩ => ⟨S100000x1, .f32⟩
  | .hbm, ⟨73, _⟩ => ⟨S4x128x128, .f32⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S4x128x128, .i1⟩
  | .hbm, ⟨81, _⟩ => ⟨S_, .f32⟩
  | .hbm, ⟨82, _⟩ => ⟨S4x128x128, .f32⟩
  | .hbm, ⟨83, _⟩ => ⟨S4x128x128, .f32⟩
  | .hbm, ⟨84, _⟩ => ⟨S4x128x128, .f32⟩
  | .hbm, ⟨85, _⟩ => ⟨S4x128x128, .f32⟩
  | .hbm, ⟨86, _⟩ => ⟨S4x128x1, .f32⟩
  | .hbm, ⟨87, _⟩ => ⟨S4x128, .f32⟩
  | .hbm, ⟨88, _⟩ => ⟨S4x128x128, .f32⟩
  | .hbm, ⟨89, _⟩ => ⟨S_, .f32⟩
  | .hbm, ⟨90, _⟩ => ⟨S4x128, .f32⟩
  | .hbm, ⟨91, _⟩ => ⟨S4x128, .f32⟩
  | .hbm, ⟨92, _⟩ => ⟨S4x128x1, .f32⟩
  | .hbm, ⟨93, _⟩ => ⟨S4x128, .f32⟩
  | .hbm, ⟨94, _⟩ => ⟨S4x128, .f32⟩
  | .hbm, ⟨95, _⟩ => ⟨S128x128, .i32⟩
  | .hbm, ⟨96, _⟩ => ⟨S128x128, .i32⟩
  | .hbm, ⟨97, _⟩ => ⟨S_, .i32⟩
  | .hbm, ⟨98, _⟩ => ⟨S128x128, .i32⟩
  | .hbm, ⟨99, _⟩ => ⟨S128x128, .i32⟩
  | .hbm, ⟨100, _⟩ => ⟨S128x128, .i1⟩
  | .hbm, ⟨101, _⟩ => ⟨S128x128, .f32⟩
  | .hbm, ⟨102, _⟩ => ⟨S1x128x128, .f32⟩
  | .hbm, ⟨103, _⟩ => ⟨S4x128x1, .f32⟩
  | .hbm, ⟨104, _⟩ => ⟨S4x128x128, .f32⟩
  | .hbm, ⟨105, _⟩ => ⟨S4x128x128, .f32⟩
  | .hbm, ⟨106, _⟩ => ⟨S4x128x128, .f32⟩
  | .hbm, ⟨107, _⟩ => ⟨S4x128x128, .f32⟩
  | .hbm, ⟨108, _⟩ => ⟨S1x128, .f32⟩
  | .hbm, ⟨109, _⟩ => ⟨S1x40, .f32⟩
  | .hbm, ⟨110, _⟩ => ⟨S4x1, .f32⟩
  | .hbm, ⟨111, _⟩ => ⟨S100000x40, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S128x256, .f32⟩
  | .local _ .vmem, ⟨5, _⟩ => ⟨S1x128, .f32⟩
  | .local _ .vmem, ⟨6, _⟩ => ⟨S4x128x128, .f32⟩
  | .local _ .vmem, ⟨7, _⟩ => ⟨S4x128, .f32⟩
  | .local _ .vmem, ⟨8, _⟩ => ⟨S4x128, .f32⟩
  | .local _ .vmem, ⟨9, _⟩ => ⟨S4x1, .f32⟩
  | .local _ .vmem, ⟨10, _⟩ => ⟨S40x128, .f32⟩
  | .local _ .vmem, ⟨11, _⟩ => ⟨S1x40, .f32⟩
  | .local _ .vmem, ⟨12, _⟩ => ⟨S2000x40, .f32⟩
  | .local _ .vmem, ⟨13, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_call1_v0 : Ref sig .tc := ⟨.hbm, 40, rfl⟩
abbrev main_v20 : Ref sig .tc := ⟨.hbm, 41, rfl⟩
abbrev main_cst_7 : Ref sig .tc := ⟨.hbm, 42, rfl⟩
abbrev main_v21 : Ref sig .tc := ⟨.hbm, 43, rfl⟩
abbrev main_c_8 : Ref sig .tc := ⟨.hbm, 44, rfl⟩
abbrev main_v22 : Ref sig .tc := ⟨.hbm, 45, rfl⟩
abbrev main_v23 : Ref sig .tc := ⟨.hbm, 46, rfl⟩
abbrev main_c_9 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_10 : Ref sig .tc := ⟨.hbm, 53, rfl⟩
abbrev main_v29 : Ref sig .tc := ⟨.hbm, 54, rfl⟩
abbrev main_v30 : Ref sig .tc := ⟨.hbm, 55, rfl⟩
abbrev main_c_11 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_12 : Ref sig .tc := ⟨.hbm, 63, rfl⟩
abbrev main_v37 : Ref sig .tc := ⟨.hbm, 64, rfl⟩
abbrev main_v38 : Ref sig .tc := ⟨.hbm, 65, rfl⟩
abbrev main_c_13 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call2_v0 : Ref sig .tc := ⟨.hbm, 74, rfl⟩
abbrev main_call2_c : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_cst : Ref sig .tc := ⟨.hbm, 81, rfl⟩
abbrev main_call2_v6 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_14 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_15 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x40 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  slices_S4x128x130_S4x128x128_0_0_0 : S4x128x130.Slices ![0, 0, 0] S4x128x128
  bcast_S_S128x128 : S_.BroadcastsInDim S128x128 (![] : Fin 0 → Fin S128x128.rank)
  bcast_S128x128_S4x128x128_1_2 : S128x128.BroadcastsInDim S4x128x128 (![1, 2] : Fin 2 → Fin S4x128x128.rank)
  bcast_S_S4x128x128 : S_.BroadcastsInDim S4x128x128 (![] : Fin 0 → Fin S4x128x128.rank)
  transposes_S4x128x128_S4x128x128_0_2_1 : S4x128x128.Transposes [0, 2, 1] S4x128x128
  slices_S4x128x130_S4x128x1_0_0_128 : S4x128x130.Slices ![0, 0, 128] S4x128x1
  shapeCasts_S4x128x1_S4x128 : S4x128x1.ShapeCasts S4x128
  reducesTo_S4x128x128_S4x128_d2 : S4x128x128.ReducesTo [2] S4x128
  h_S_ : 0 < S_.numel
  slices_S4x128x130_S4x128x1_0_0_129 : S4x128x130.Slices ![0, 0, 129] S4x128x1
  bcast_S128x128_S1x128x128_1_2 : S128x128.BroadcastsInDim S1x128x128 (![1, 2] : Fin 2 → Fin S1x128x128.rank)
  bcast_S4x128_S4x128x1_0_1 : S4x128.BroadcastsInDim S4x128x1 (![0, 1] : Fin 2 → Fin S4x128x1.rank)
  bcast_S4x128x1_S4x128x128_0_1_2 : S4x128x1.BroadcastsInDim S4x128x128 (![0, 1, 2] : Fin 3 → Fin S4x128x128.rank)
  bcast_S1x128x128_S4x128x128_0_1_2 : S1x128x128.BroadcastsInDim S4x128x128 (![0, 1, 2] : Fin 3 → Fin S4x128x128.rank)
  shapeCasts_S128_S1x128 : S128.ShapeCasts S1x128
  shapeCasts_S40_S1x40 : S40.ShapeCasts S1x40
  shapeCasts_S4_S4x1 : S4.ShapeCasts S4x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  transposes_S128x128_p1_0_S128x128 : S128x128.Transposes [1, 0] S128x128
  inb_S4x128_S1x128_0_0 : ∀ a, (![0, 0] : Fin 2 → Nat) a + S1x128.size a ≤ S4x128.size a
  shapeCasts_S1x128_S128 : S1x128.ShapeCasts S128
  broadcasts_S2000x1_S2000x128 : S2000x1.Broadcasts S2000x128
  inb_S4x1_S1x1_0_0 : ∀ a, (![0, 0] : Fin 2 → Nat) a + S1x1.size a ≤ S4x1.size a
  h_S1x1 : 0 < S1x1.numel
  inpos_S1x1_p0_0 : ∀ a, (![0, 0] : Fin 2 → Nat) a < S1x1.size a
  inb_S4x128x128_S1x128x128_1_0_0 : ∀ a, (![1, 0, 0] : Fin 3 → Nat) a + S1x128x128.size a ≤ S4x128x128.size a
  inb_S4x128_S1x128_1_0 : ∀ a, (![1, 0] : Fin 2 → Nat) a + S1x128.size a ≤ S4x128.size a
  inb_S4x1_S1x1_1_0 : ∀ a, (![1, 0] : Fin 2 → Nat) a + S1x1.size a ≤ S4x1.size a
  inb_S4x128x128_S1x128x128_2_0_0 : ∀ a, (![2, 0, 0] : Fin 3 → Nat) a + S1x128x128.size a ≤ S4x128x128.size a
  inb_S4x128_S1x128_2_0 : ∀ a, (![2, 0] : Fin 2 → Nat) a + S1x128.size a ≤ S4x128.size a
  inb_S4x1_S1x1_2_0 : ∀ a, (![2, 0] : Fin 2 → Nat) a + S1x1.size a ≤ S4x1.size a
  inb_S4x128x128_S1x128x128_3_0_0 : ∀ a, (![3, 0, 0] : Fin 3 → Nat) a + S1x128x128.size a ≤ S4x128x128.size a
  inb_S4x128_S1x128_3_0 : ∀ a, (![3, 0] : Fin 2 → Nat) a + S1x128.size a ≤ S4x128.size a
  inb_S4x1_S1x1_3_0 : ∀ a, (![3, 0] : Fin 2 → Nat) a + S1x1.size a ≤ S4x1.size a
  inb_S40x128_S40x128_0_0 : ∀ a, (![0, 0] : Fin 2 → Nat) a + S40x128.size a ≤ S40x128.size a
  h_S40x128 : 0 < S40x128.numel
  transposes_S40x128_p1_0_S128x40 : S40x128.Transposes [1, 0] S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x128.size a ≤ S4x128x128.size a
  hwx0_4 : ∀ i : grid0.Coords, EltTy.bits .f32 = 32 ∨ (Rect.block (s := S4x128x128) S4x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x128.size a ≤ S4x128.size a
  hwx0_5 : ∀ i : grid0.Coords, EltTy.bits .f32 = 32 ∨ (Rect.block (s := S4x128) S4x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x128.size a ≤ S4x128.size a
  hwx0_6 : ∀ i : grid0.Coords, EltTy.bits .f32 = 32 ∨ (Rect.block (s := S4x128) S4x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1.size a ≤ S4x1.size a
  hwx0_7 : ∀ i : grid0.Coords, EltTy.bits .f32 = 32 ∨ (Rect.block (s := S4x1) S4x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S40x128.size a ≤ S40x128.size a
  hwx0_8 : ∀ i : grid0.Coords, EltTy.bits .f32 = 32 ∨ (Rect.block (s := S40x128) S40x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x40.size a ≤ S1x40.size a
  hwx0_9 : ∀ i : grid0.Coords, EltTy.bits .f32 = 32 ∨ (Rect.block (s := S1x40) S1x40.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x40.size a ≤ S100000x40.size a
  hwx0_10 : ∀ i : grid0.Coords, EltTy.bits .f32 = 32 ∨ (Rect.block (s := S100000x40) S2000x40.size (cc0_transform_10 i) (hinb0_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v69) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v68) S4x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v71) S4x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S40x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v70) S1x40.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v72) S2000x40.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S4x128x130 : Shape := ⟨3, ![4, 128, 130]⟩
abbrev S4x128 : Shape := ⟨2, ![4, 128]⟩
abbrev S4 : Shape := ⟨1, ![4]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S256x128 : Shape := ⟨2, ![256, 128]⟩
abbrev S100000x128 : Shape := ⟨2, ![100000, 128]⟩
abbrev S1x128 : Shape := ⟨2, ![1, 128]⟩
abbrev S1x128x130 : Shape := ⟨3, ![1, 128, 130]⟩
abbrev S128x130 : Shape := ⟨2, ![128, 130]⟩
abbrev S128x128 : Shape := ⟨2, ![128, 128]⟩
abbrev S128x1 : Shape := ⟨2, ![128, 1]⟩
abbrev S100000x1 : Shape := ⟨2, ![100000, 1]⟩
abbrev S1 : Shape := ⟨1, ![1]⟩
abbrev S128x40 : Shape := ⟨2, ![128, 40]⟩
abbrev S100000x40 : Shape := ⟨2, ![100000, 40]⟩
abbrev S1x40 : Shape := ⟨2, ![1, 40]⟩

abbrev nBuf : Space → Nat
  | .hbm => 344
  | .vmem => 0
  | .smem => 0
  | _ => 0

abbrev hbmTy0_0 (i : Nat) : BufTy := match i % 128 with
  | 0 => ⟨S100000x256, .f32⟩
  | 1 => ⟨S2x1600000, .i32⟩
  | 2 => ⟨S128x256, .f32⟩
  | 3 => ⟨S128, .f32⟩
  | 4 => ⟨S4x128x130, .f32⟩
  | 5 => ⟨S4x128, .f32⟩
  | 6 => ⟨S4x128, .f32⟩
  | 7 => ⟨S4, .f32⟩
  | 8 => ⟨S40x128, .f32⟩
  | 9 => ⟨S40, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S100000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S_, .f32⟩
  | 25 => ⟨S1600000, .f32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .i1⟩
  | 33 => ⟨S_, .f32⟩
  | 34 => ⟨S_, .f32⟩
  | 35 => ⟨S100000, .f32⟩
  | 36 => ⟨S100000, .f32⟩
  | 37 => ⟨S_, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .f32⟩
  | 45 => ⟨S100000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000, .f32⟩
  | 64 => ⟨S1600000, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S100000, .f32⟩
  | 74 => ⟨S256x128, .f32⟩
  | 75 => ⟨S100000x128, .f32⟩
  | 76 => ⟨S1x128, .f32⟩
  | 77 => ⟨S100000x128, .f32⟩
  | 78 => ⟨S100000x128, .f32⟩
  | 79 => ⟨S1x128x130, .f32⟩
  | 80 => ⟨S128x130, .f32⟩
  | 81 => ⟨S128x128, .f32⟩
  | 82 => ⟨S128x128, .i32⟩
  | 83 => ⟨S_, .i32⟩
  | 84 => ⟨S128x128, .i32⟩
  | 85 => ⟨S128x128, .i32⟩
  | 86 => ⟨S128x128, .i32⟩
  | 87 => ⟨S128x128, .i1⟩
  | 88 => ⟨S_, .f32⟩
  | 89 => ⟨S128x128, .f32⟩
  | 90 => ⟨S128x128, .f32⟩
  | 91 => ⟨S128x128, .f32⟩
  | 92 => ⟨S128x128, .f32⟩
  | 93 => ⟨S128x1, .f32⟩
  | 94 => ⟨S128, .f32⟩
  | 95 => ⟨S128x128, .f32⟩
  | 96 => ⟨S_, .f32⟩
  | 97 => ⟨S128, .f32⟩
  | 98 => ⟨S128, .f32⟩
  | 99 => ⟨S128x1, .f32⟩
  | 100 => ⟨S128, .f32⟩
  | 101 => ⟨S128, .f32⟩
  | 102 => ⟨S_, .f32⟩
  | 103 => ⟨S128, .f32⟩
  | 104 => ⟨S128x128, .i32⟩
  | 105 => ⟨S128x128, .i32⟩
  | 106 => ⟨S_, .i32⟩
  | 107 => ⟨S128x128, .i32⟩
  | 108 => ⟨S128x128, .i32⟩
  | 109 => ⟨S128x128, .i1⟩
  | 110 => ⟨S128x1, .f32⟩
  | 111 => ⟨S_, .f32⟩
  | 112 => ⟨S128x128, .f32⟩
  | 113 => ⟨S128x128, .f32⟩
  | 114 => ⟨S128x128, .f32⟩
  | 115 => ⟨S128x128, .f32⟩
  | 116 => ⟨S128x128, .f32⟩
  | 117 => ⟨S100000x128, .f32⟩
  | 118 => ⟨S1x128, .f32⟩
  | 119 => ⟨S128, .f32⟩
  | 120 => ⟨S1x128, .f32⟩
  | 121 => ⟨S100000x128, .f32⟩
  | 122 => ⟨S100000x128, .f32⟩
  | 123 => ⟨S100000x1, .f32⟩
  | 124 => ⟨S100000x128, .f32⟩
  | 125 => ⟨S100000x128, .f32⟩
  | 126 => ⟨S1x128, .f32⟩
  | 127 => ⟨S128, .f32⟩
  | _ => ⟨S100000x256, .f32⟩

abbrev hbmTy0_1 (i : Nat) : BufTy := match i % 128 with
  | 0 => ⟨S1x128, .f32⟩
  | 1 => ⟨S100000x128, .f32⟩
  | 2 => ⟨S100000x128, .f32⟩
  | 3 => ⟨S1, .f32⟩
  | 4 => ⟨S_, .f32⟩
  | 5 => ⟨S100000x128, .f32⟩
  | 6 => ⟨S100000x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S1x128x130, .f32⟩
  | 17 => ⟨S128x130, .f32⟩
  | 18 => ⟨S128x128, .f32⟩
  | 19 => ⟨S128x128, .i32⟩
  | 20 => ⟨S_, .i32⟩
  | 21 => ⟨S128x128, .i32⟩
  | 22 => ⟨S128x128, .i32⟩
  | 23 => ⟨S128x128, .i32⟩
  | 24 => ⟨S128x128, .i1⟩
  | 25 => ⟨S_, .f32⟩
  | 26 => ⟨S128x128, .f32⟩
  | 27 => ⟨S128x128, .f32⟩
  | 28 => ⟨S128x128, .f32⟩
  | 29 => ⟨S128x128, .f32⟩
  | 30 => ⟨S128x1, .f32⟩
  | 31 => ⟨S128, .f32⟩
  | 32 => ⟨S128x128, .f32⟩
  | 33 => ⟨S_, .f32⟩
  | 34 => ⟨S128, .f32⟩
  | 35 => ⟨S128, .f32⟩
  | 36 => ⟨S128x1, .f32⟩
  | 37 => ⟨S128, .f32⟩
  | 38 => ⟨S128, .f32⟩
  | 39 => ⟨S_, .f32⟩
  | 40 => ⟨S128, .f32⟩
  | 41 => ⟨S128x128, .i32⟩
  | 42 => ⟨S128x128, .i32⟩
  | 43 => ⟨S_, .i32⟩
  | 44 => ⟨S128x128, .i32⟩
  | 45 => ⟨S128x128, .i32⟩
  | 46 => ⟨S128x128, .i1⟩
  | 47 => ⟨S128x1, .f32⟩
  | 48 => ⟨S_, .f32⟩
  | 49 => ⟨S128x128, .f32⟩
  | 50 => ⟨S128x128, .f32⟩
  | 51 => ⟨S128x128, .f32⟩
  | 52 => ⟨S128x128, .f32⟩
  | 53 => ⟨S128x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S100000x1, .f32⟩
  | 61 => ⟨S100000x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S1, .f32⟩
  | 69 => ⟨S_, .f32⟩
  | 70 => ⟨S100000x128, .f32⟩
  | 71 => ⟨S100000x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000x128, .f32⟩
  | 81 => ⟨S1x128x130, .f32⟩
  | 82 => ⟨S128x130, .f32⟩
  | 83 => ⟨S128x128, .f32⟩
  | 84 => ⟨S128x128, .i32⟩
  | 85 => ⟨S_, .i32⟩
  | 86 => ⟨S128x128, .i32⟩
  | 87 => ⟨S128x128, .i32⟩
  | 88 => ⟨S128x128, .i32⟩
  | 89 => ⟨S128x128, .i1⟩
  | 90 => ⟨S_, .f32⟩
  | 91 => ⟨S128x128, .f32⟩
  | 92 => ⟨S128x128, .f32⟩
  | 93 => ⟨S128x128, .f32⟩
  | 94 => ⟨S128x128, .f32⟩
  | 95 => ⟨S128x1, .f32⟩
  | 96 => ⟨S128, .f32⟩
  | 97 => ⟨S128x128, .f32⟩
  | 98 => ⟨S_, .f32⟩
  | 99 => ⟨S128, .f32⟩
  | 100 => ⟨S128, .f32⟩
  | 101 => ⟨S128x1, .f32⟩
  | 102 => ⟨S128, .f32⟩
  | 103 => ⟨S128, .f32⟩
  | 104 => ⟨S_, .f32⟩
  | 105 => ⟨S128, .f32⟩
  | 106 => ⟨S128x128, .i32⟩
  | 107 => ⟨S128x128, .i32⟩
  | 108 => ⟨S_, .i32⟩
  | 109 => ⟨S128x128, .i32⟩
  | 110 => ⟨S128x128, .i32⟩
  | 111 => ⟨S128x128, .i1⟩
  | 112 => ⟨S128x1, .f32⟩
  | 113 => ⟨S_, .f32⟩
  | 114 => ⟨S128x128, .f32⟩
  | 115 => ⟨S128x128, .f32⟩
  | 116 => ⟨S128x128, .f32⟩
  | 117 => ⟨S128x128, .f32⟩
  | 118 => ⟨S128x128, .f32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S100000x1, .f32⟩
  | 126 => ⟨S100000x128, .f32⟩
  | 127 => ⟨S100000x128, .f32⟩
  | _ => ⟨S100000x256, .f32⟩

abbrev hbmTy0_2 (i : Nat) : BufTy := match i % 128 with
  | 0 => ⟨S1x128, .f32⟩
  | 1 => ⟨S128, .f32⟩
  | 2 => ⟨S1x128, .f32⟩
  | 3 => ⟨S100000x128, .f32⟩
  | 4 => ⟨S100000x128, .f32⟩
  | 5 => ⟨S1, .f32⟩
  | 6 => ⟨S_, .f32⟩
  | 7 => ⟨S100000x128, .f32⟩
  | 8 => ⟨S100000x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x128, .f32⟩
  | 18 => ⟨S1x128x130, .f32⟩
  | 19 => ⟨S128x130, .f32⟩
  | 20 => ⟨S128x128, .f32⟩
  | 21 => ⟨S128x128, .i32⟩
  | 22 => ⟨S_, .i32⟩
  | 23 => ⟨S128x128, .i32⟩
  | 24 => ⟨S128x128, .i32⟩
  | 25 => ⟨S128x128, .i32⟩
  | 26 => ⟨S128x128, .i1⟩
  | 27 => ⟨S_, .f32⟩
  | 28 => ⟨S128x128, .f32⟩
  | 29 => ⟨S128x128, .f32⟩
  | 30 => ⟨S128x128, .f32⟩
  | 31 => ⟨S128x128, .f32⟩
  | 32 => ⟨S128x1, .f32⟩
  | 33 => ⟨S128, .f32⟩
  | 34 => ⟨S128x128, .f32⟩
  | 35 => ⟨S_, .f32⟩
  | 36 => ⟨S128, .f32⟩
  | 37 => ⟨S128, .f32⟩
  | 38 => ⟨S128x1, .f32⟩
  | 39 => ⟨S128, .f32⟩
  | 40 => ⟨S128, .f32⟩
  | 41 => ⟨S_, .f32⟩
  | 42 => ⟨S128, .f32⟩
  | 43 => ⟨S128x128, .i32⟩
  | 44 => ⟨S128x128, .i32⟩
  | 45 => ⟨S_, .i32⟩
  | 46 => ⟨S128x128, .i32⟩
  | 47 => ⟨S128x128, .i32⟩
  | 48 => ⟨S128x128, .i1⟩
  | 49 => ⟨S128x1, .f32⟩
  | 50 => ⟨S_, .f32⟩
  | 51 => ⟨S128x128, .f32⟩
  | 52 => ⟨S128x128, .f32⟩
  | 53 => ⟨S128x128, .f32⟩
  | 54 => ⟨S128x128, .f32⟩
  | 55 => ⟨S128x128, .f32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S100000x1, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S1, .f32⟩
  | 71 => ⟨S_, .f32⟩
  | 72 => ⟨S100000x128, .f32⟩
  | 73 => ⟨S100000x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S128x40, .f32⟩
  | 84 => ⟨S100000x40, .f32⟩
  | 85 => ⟨S1x40, .f32⟩
  | 86 => ⟨S100000x40, .f32⟩
  | 87 => ⟨S100000x40, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_c_8 : Ref sig .tc := ⟨.hbm, 46, rfl⟩
abbrev main_v22 : Ref sig .tc := ⟨.hbm, 47, rfl⟩
abbrev main_v23 : Ref sig .tc := ⟨.hbm, 48, rfl⟩
abbrev main_c_9 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_10 : Ref sig .tc := ⟨.hbm, 55, rfl⟩
abbrev main_v29 : Ref sig .tc := ⟨.hbm, 56, rfl⟩
abbrev main_v30 : Ref sig .tc := ⟨.hbm, 57, rfl⟩
abbrev main_c_11 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_12 : Ref sig .tc := ⟨.hbm, 65, rfl⟩
abbrev main_v37 : Ref sig .tc := ⟨.hbm, 66, rfl⟩
abbrev main_v38 : Ref sig .tc := ⟨.hbm, 67, rfl⟩
abbrev main_c_13 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call2_v0 : Ref sig .tc := ⟨.hbm, 82, rfl⟩
abbrev main_call2_c : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_cst : Ref sig .tc := ⟨.hbm, 88, rfl⟩
abbrev main_call2_v5 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_14 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call3_cst : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_c : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_v6 : Ref sig .tc := ⟨.hbm, 110, rfl⟩
abbrev main_call3_cst_0 : Ref sig .tc := ⟨.hbm, 111, rfl⟩
abbrev main_call3_call0_v0 : Ref sig .tc := ⟨.hbm, 112, rfl⟩
abbrev main_call3_call0_v1 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_call4_cst : Ref sig .tc := ⟨.hbm, 137, rfl⟩
abbrev main_call4_v0 : Ref sig .tc := ⟨.hbm, 138, rfl⟩
abbrev main_v86 : Ref sig .tc := ⟨.hbm, 139, rfl⟩
abbrev main_cst_15 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_call5_v0 : Ref sig .tc := ⟨.hbm, 147, rfl⟩
abbrev main_call5_c : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_cst : Ref sig .tc := ⟨.hbm, 153, rfl⟩
abbrev main_call5_v5 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_cst_16 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_call6_cst : Ref sig .tc := ⟨.hbm, 167, rfl⟩
abbrev main_call6_v0 : Ref sig .tc := ⟨.hbm, 168, rfl⟩
abbrev main_call6_v1 : Ref sig .tc := ⟨.hbm, 169, rfl⟩
abbrev main_call6_v2 : Ref sig .tc := ⟨.hbm, 170, rfl⟩
abbrev main_call6_c : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_call6_v6 : Ref sig .tc := ⟨.hbm, 175, rfl⟩
abbrev main_call6_cst_0 : Ref sig .tc := ⟨.hbm, 176, rfl⟩
abbrev main_call6_call0_v0 : Ref sig .tc := ⟨.hbm, 177, rfl⟩
abbrev main_call6_call0_v1 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_call7_cst : Ref sig .tc := ⟨.hbm, 202, rfl⟩
abbrev main_call7_v0 : Ref sig .tc := ⟨.hbm, 203, rfl⟩
abbrev main_v127 : Ref sig .tc := ⟨.hbm, 204, rfl⟩
abbrev main_cst_17 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_call8_v0 : Ref sig .tc := ⟨.hbm, 212, rfl⟩
abbrev main_call8_c : Ref sig .tc := ⟨.hbm, 213, rfl⟩
abbrev main_call8_v1 : Ref sig .tc := ⟨.hbm, 214, rfl⟩
abbrev main_call8_v2 : Ref sig .tc := ⟨.hbm, 215, rfl⟩
abbrev main_call8_v3 : Ref sig .tc := ⟨.hbm, 216, rfl⟩
abbrev main_call8_v4 : Ref sig .tc := ⟨.hbm, 217, rfl⟩
abbrev main_call8_cst : Ref sig .tc := ⟨.hbm, 218, rfl⟩
abbrev main_call8_v5 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_cst_18 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_call9_cst : Ref sig .tc := ⟨.hbm, 232, rfl⟩
abbrev main_call9_v0 : Ref sig .tc := ⟨.hbm, 233, rfl⟩
abbrev main_call9_v1 : Ref sig .tc := ⟨.hbm, 234, rfl⟩
abbrev main_call9_v2 : Ref sig .tc := ⟨.hbm, 235, rfl⟩
abbrev main_call9_c : Ref sig .tc := ⟨.hbm, 236, rfl⟩
abbrev main_call9_v3 : Ref sig .tc := ⟨.hbm, 237, rfl⟩
abbrev main_call9_v4 : Ref sig .tc := ⟨.hbm, 238, rfl⟩
abbrev main_call9_v5 : Ref sig .tc := ⟨.hbm, 239, rfl⟩
abbrev main_call9_v6 : Ref sig .tc := ⟨.hbm, 240, rfl⟩
abbrev main_call9_cst_0 : Ref sig .tc := ⟨.hbm, 241, rfl⟩
abbrev main_call9_call0_v0 : Ref sig .tc := ⟨.hbm, 242, rfl⟩
abbrev main_call9_call0_v1 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_call10_cst : Ref sig .tc := ⟨.hbm, 267, rfl⟩
abbrev main_call10_v0 : Ref sig .tc := ⟨.hbm, 268, rfl⟩
abbrev main_v168 : Ref sig .tc := ⟨.hbm, 269, rfl⟩
abbrev main_cst_19 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_call11_v0 : Ref sig .tc := ⟨.hbm, 277, rfl⟩
abbrev main_call11_c : Ref sig .tc := ⟨.hbm, 278, rfl⟩
abbrev main_call11_v1 : Ref sig .tc := ⟨.hbm, 279, rfl⟩
abbrev main_call11_v2 : Ref sig .tc := ⟨.hbm, 280, rfl⟩
abbrev main_call11_v3 : Ref sig .tc := ⟨.hbm, 281, rfl⟩
abbrev main_call11_v4 : Ref sig .tc := ⟨.hbm, 282, rfl⟩
abbrev main_call11_cst : Ref sig .tc := ⟨.hbm, 283, rfl⟩
abbrev main_call11_v5 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_cst_20 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_call12_cst : Ref sig .tc := ⟨.hbm, 297, rfl⟩
abbrev main_call12_v0 : Ref sig .tc := ⟨.hbm, 298, rfl⟩
abbrev main_call12_v1 : Ref sig .tc := ⟨.hbm, 299, rfl⟩
abbrev main_call12_v2 : Ref sig .tc := ⟨.hbm, 300, rfl⟩
abbrev main_call12_c : Ref sig .tc := ⟨.hbm, 301, rfl⟩
abbrev main_call12_v3 : Ref sig .tc := ⟨.hbm, 302, rfl⟩
abbrev main_call12_v4 : Ref sig .tc := ⟨.hbm, 303, rfl⟩
abbrev main_call12_v5 : Ref sig .tc := ⟨.hbm, 304, rfl⟩
abbrev main_call12_v6 : Ref sig .tc := ⟨.hbm, 305, rfl⟩
abbrev main_call12_cst_0 : Ref sig .tc := ⟨.hbm, 306, rfl⟩
abbrev main_call12_call0_v0 : Ref sig .tc := ⟨.hbm, 307, rfl⟩
abbrev main_call12_call0_v1 : Ref sig .tc := ⟨.hbm, 308, rfl⟩
abbrev main_v186 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_v196 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_v200 : Ref sig .tc := ⟨.hbm, 323, rfl⟩
abbrev main_v201 : Ref sig .tc := ⟨.hbm, 324, rfl⟩
abbrev main_v202 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_call13_cst : Ref sig .tc := ⟨.hbm, 332, rfl⟩
abbrev main_call13_v0 : Ref sig .tc := ⟨.hbm, 333, rfl⟩
abbrev main_v209 : Ref sig .tc := ⟨.hbm, 334, rfl⟩
abbrev main_cst_21 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_v214 : Ref sig .tc := ⟨.hbm, 340, rfl⟩
abbrev main_v215 : Ref sig .tc := ⟨.hbm, 341, rfl⟩
abbrev main_v216 : Ref sig .tc := ⟨.hbm, 342, rfl⟩
abbrev main_v217 : Ref sig .tc := ⟨.hbm, 343, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x130_S1x128x130_0_0_0 : S4x128x130.Slices ![0, 0, 0] S1x128x130
  shapeCasts_S1x128x130_S128x130 : S1x128x130.ShapeCasts S128x130
  slices_S128x130_S128x128_0_0 : S128x130.Slices ![0, 0] S128x128
  bcast_S_S128x128 : S_.BroadcastsInDim S128x128 (![] : Fin 0 → Fin S128x128.rank)
  transposes_S128x128_S128x128_1_0 : S128x128.Transposes [1, 0] S128x128
  slices_S128x130_S128x1_0_128 : S128x130.Slices ![0, 128] S128x1
  shapeCasts_S128x1_S128 : S128x1.ShapeCasts S128
  reducesTo_S128x128_S128_d1 : S128x128.ReducesTo [1] S128
  h_S_ : 0 < S_.numel
  slices_S128x130_S128x1_0_129 : S128x130.Slices ![0, 129] S128x1
  pads_S128_S128_000 : S128.Pads (![0] : Fin 1 → Nat) ![0] ![0] S128
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  slices_S4x128_S1x128_0_0 : S4x128.Slices ![0, 0] S1x128
  shapeCasts_S1x128_S128 : S1x128.ShapeCasts S128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4_S1_0 : S4.Slices ![0] S1
  shapeCasts_S1_S_ : S1.ShapeCasts S_
  bcast_S_S100000x128 : S_.BroadcastsInDim S100000x128 (![] : Fin 0 → Fin S100000x128.rank)
  slices_S4x128x130_S1x128x130_1_0_0 : S4x128x130.Slices ![1, 0, 0] S1x128x130
  slices_S4x128_S1x128_1_0 : S4x128.Slices ![1, 0] S1x128
  slices_S4_S1_1 : S4.Slices ![1] S1
  slices_S4x128x130_S1x128x130_2_0_0 : S4x128x130.Slices ![2, 0, 0] S1x128x130
  slices_S4x128_S1x128_2_0 : S4x128.Slices ![2, 0] S1x128
  slices_S4_S1_2 : S4.Slices ![2] S1
  slices_S4x128x130_S1x128x130_3_0_0 : S4x128x130.Slices ![3, 0, 0] S1x128x130
  slices_S4x128_S1x128_3_0 : S4x128.Slices ![3, 0] S1x128
  slices_S4_S1_3 : S4.Slices ![3] S1
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  What the network computes, row by row, over the extended reals.

  A node's feature row `x` (256 entries) is encoded by a dense layer into 128 hidden entries `h0`; four
  update steps follow, each `h ↦ h + 0.1 · max (c · (h·Wᵀ + wb) − (h ∘ ext + β · h0), 0)` with the node's own
  aggregation coefficient `c`; a last dense layer decodes the 128 entries into 40. A dense layer is
  `j ↦ (∑ k, h k · W j k) + b j`. Every node's row depends on the other nodes only through `c`.

  The four step matrices are built from a raw `128 × 130` block each: the strict upper triangle of its first 128
  columns, made symmetric by adding its transpose, plus a diagonal `raw[·,128] · (row sum of absolute values) + raw[·,129]`.
-/
import Idealize.ShloMosaic.PureOps.Ideal
import Idealize.ShloMosaic.Lib.ValueIdx

noncomputable section

namespace Cert.Gnn.Spec

open Idealize.ShloMosaic Idealize.ShloMosaic.ValueIdx

/-- The step size, the single-precision number nearest to one tenth, as both programs write it. -/
def tenth : EReal := Ideal.ofBits .f32 0x3DCCCCCD#32

/-- A dense layer at output entry `j`: the row against row `j` of the matrix, plus the bias. -/
def dense {K N : ℕ} (h : Fin K → EReal) (W : Fin N → Fin K → EReal) (b : Fin N → EReal) (j : Fin N) : EReal :=
  (∑ k : Fin K, h k * W j k) + b j

/-- One update step of a node's hidden row `h`, given the encoded row `h0` and the node's coefficient `c`. -/
def step (c β : EReal) (W : Fin 128 → Fin 128 → EReal) (wb ext h0 h : Fin 128 → EReal) (j : Fin 128) : EReal :=
  h j + tenth * max (c * dense h W wb j - (h j * ext j + β * h0 j)) 0

/-- The weights, as families of extended reals. -/
structure Wts where
  encW : Fin 128 → Fin 256 → EReal
  encb : Fin 128 → EReal
  W : Fin 4 → Fin 128 → Fin 128 → EReal
  wb : Fin 4 → Fin 128 → EReal
  ext : Fin 4 → Fin 128 → EReal
  β : Fin 4 → EReal
  decW : Fin 40 → Fin 128 → EReal
  decb : Fin 40 → EReal

/-- The encoded row. -/
def h0 (p : Wts) (x : Fin 256 → EReal) : Fin 128 → EReal := dense x p.encW p.encb

/-- Step `l` with the weights of layer `l`. -/
def lay (p : Wts) (c : EReal) (l : Fin 4) (e h : Fin 128 → EReal) : Fin 128 → EReal :=
  step c (p.β l) (p.W l) (p.wb l) (p.ext l) e h

/-- A node's 40 outputs from its feature row and its coefficient. -/
def rowOut (p : Wts) (x : Fin 256 → EReal) (c : EReal) : Fin 40 → EReal :=
  dense (lay p c 3 (h0 p x) (lay p c 2 (h0 p x) (lay p c 1 (h0 p x) (lay p c 0 (h0 p x) (h0 p x))))) p.decW p.decb

/-! ## The step matrices from the raw blocks -/

/-- The strict upper triangle of the first 128 columns of block `l`: zero on and below the diagonal. -/
def up (WR : Fin 4 → Fin 128 → Fin 130 → EReal) (l : Fin 4) (a b : Fin 128) : EReal :=
  if b.val ≤ a.val then 0 else WR l a ⟨b.val, by have := b.isLt; omega⟩

/-- The triangle plus its transpose. -/
def sym (WR : Fin 4 → Fin 128 → Fin 130 → EReal) (l : Fin 4) (a b : Fin 128) : EReal := up WR l a b + up WR l b a

/-- The diagonal entry of row `a`: column 128 times the row's sum of absolute values, plus column 129. -/
def diagv (WR : Fin 4 → Fin 128 → Fin 130 → EReal) (l : Fin 4) (a : Fin 128) : EReal :=
  WR l a ⟨128, by norm_num⟩ * (∑ b : Fin 128, max (sym WR l a b) (-(sym WR l a b))) + WR l a ⟨129, by norm_num⟩

/-- The step matrix of layer `l`. -/
def weff (WR : Fin 4 → Fin 128 → Fin 130 → EReal) (l : Fin 4) (a b : Fin 128) : EReal :=
  sym WR l a b + if a = b then diagv WR l a else 0

/-! ## The result array -/

/-- The weights read out of the argument arrays. -/
def wts (EW : (⟨2, ![128, 256]⟩ : Shape).Idx → EReal) (EB : (⟨1, ![128]⟩ : Shape).Idx → EReal)
    (WR : (⟨3, ![4, 128, 130]⟩ : Shape).Idx → EReal) (WB EXT : (⟨2, ![4, 128]⟩ : Shape).Idx → EReal)
    (BETA : (⟨1, ![4]⟩ : Shape).Idx → EReal) (DW : (⟨2, ![40, 128]⟩ : Shape).Idx → EReal)
    (DB : (⟨1, ![40]⟩ : Shape).Idx → EReal) : Wts where
  encW := fun a b => EW (ix2 a b)
  encb := fun a => EB (ix1 a)
  W := weff fun l a b => WR (ix3 l a b)
  wb := fun l a => WB (ix2 l a)
  ext := fun l a => EXT (ix2 l a)
  β := fun l => BETA (ix1 l)
  decW := fun a b => DW (ix2 a b)
  decb := fun a => DB (ix1 a)

/-- Output entry `(R, j)`: node `R`'s row of the features and its coefficient through `rowOut`. -/
def Grow (p : Wts) (X : (⟨2, ![100000, 256]⟩ : Shape).Idx → EReal) (C : (⟨1, ![100000]⟩ : Shape).Idx → EReal)
    (R : Fin 100000) (j : Fin 40) : EReal :=
  rowOut p (fun k => X (ix2 R k)) (C (ix1 R)) j

/-- The whole result array. -/
def G (p : Wts) (X : (⟨2, ![100000, 256]⟩ : Shape).Idx → EReal) (C : (⟨1, ![100000]⟩ : Shape).Idx → EReal) :
    (⟨2, ![100000, 40]⟩ : Shape).Idx → EReal :=
  fun i => Grow p X C ⟨(i 0).val, idx2_lt0 i⟩ ⟨(i 1).val, idx2_lt1 i⟩

theorem G_ix2 (p : Wts) (X : (⟨2, ![100000, 256]⟩ : Shape).Idx → EReal) (C : (⟨1, ![100000]⟩ : Shape).Idx → EReal)
    (R : Fin 100000) (j : Fin 40) : G p X C (ix2 R j) = Grow p X C R j := rfl

end Cert.Gnn.Spec

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.KerPay.lean ====
/-
  The kernel body's arithmetic read at an index, over the extended reals.

  The body works on a tile of 2000 node rows. Its dense layers are products of the tile (narrowed to a shorter float
  format, which changes nothing here) with a transposed weight matrix into a zero accumulator, plus a bias row repeated
  down the tile; an update step multiplies the tile row-wise by the column of the rows' coefficients, subtracts the
  damping terms, clips at zero, scales by the step size and adds the previous rows. Read at row `r`, entry `j`, each of
  these is the row-level function of Spec.lean applied to row `r` of the tile.
-/
import proofs.«110196_j66305705116250_1_alg».proof.Proof.Gen.KernelIdeal.Skeleton
import proofs.«110196_j66305705116250_1_alg».proof.Proof.Spec
import proofs.«110196_j66305705116250_1_alg».proof.Proof.LibPlainProduct
import proofs.«110196_j66305705116250_1_alg».proof.Proof.LibColumn
import Idealize.ShloMosaic.Lib.ValueIdx
import Idealize.ShloMosaic.Lib.ValueLayout
import Idealize.ShloMosaic.Lib.Pipeline.Value
import Idealize.ShloMosaic.Lib.IdealHost

noncomputable section

namespace Cert.Gnn.KerPay

open Cert.KernelIdeal Cert.KernelIdeal.Gen Idealize.ShloMosaic Idealize.ShloMosaic.ValueIdx Cert.Gnn

/-- The three product records of the body are the plain `m × k` by `k × n` product. -/
theorem dot_enc : dot_S2000x256_S256x128_S2000x128_1_0_0_1_n_n = DotDims.plain 2000 256 128 := rfl
theorem dot_hid : dot_S2000x128_S128x128_S2000x128_1_0_0_1_n_n = DotDims.plain 2000 128 128 := rfl
theorem dot_dec : dot_S2000x128_S128x40_S2000x40_1_0_0_1_n_n = DotDims.plain 2000 128 40 := rfl

/-- A product of a tile with a transposed matrix into a zero accumulator, plus a bias row repeated down the tile, read
    at `(r, j)`: the dense layer of row `r`. -/
theorem dense_at {K N : ℕ} (d : DotDims ⟨2, ![2000, K]⟩ ⟨2, ![K, N]⟩ ⟨2, ![2000, N]⟩) (hd : d = DotDims.plain 2000 K N)
    (h : FVec Ideal ⟨2, ![2000, K]⟩ .f32) (W : FVec Ideal ⟨2, ![N, K]⟩ .f32) (b : FVec Ideal ⟨2, ![1, N]⟩ .f32)
    (hb1 hb2) (ht : (⟨2, ![N, K]⟩ : Shape).Transposes [1, 0] ⟨2, ![K, N]⟩)
    (hbr : (⟨2, ![1, N]⟩ : Shape).Broadcasts ⟨2, ![2000, N]⟩) (r : Fin 2000) (j : Fin N) :
    addf (matmul d none (truncf .bf16 h hb1) (transpose ⟨2, ![K, N]⟩ [1, 0] (truncf .bf16 W hb2) ht)
        (constant ⟨2, ![2000, N]⟩ .f32 0x00000000#32)) (broadcastTo ⟨2, ![2000, N]⟩ b hbr) (ix2 r j)
      = Spec.dense (fun k => h (ix2 r k)) (fun a k => W (ix2 a k)) (fun a => b (ix2 (0 : Fin 1) a)) j := by
  rw [addf_apply, PlainProduct.matmul_at d hd, constant_apply, Ideal.ofBits_zero_f32, zero_add,
    broadcastTo_1b_ab_apply]
  unfold Spec.dense
  refine congrArg (· + b (ix2 (0 : Fin 1) j)) ?_
  refine Finset.sum_congr rfl fun k _ => ?_
  rw [transpose_ix2_apply]
  rfl

/-! ## One update step on a tile -/

/-- The body's update of a tile before the clip: the coefficient column times the dense layer of the tile, minus the
    damping `h ∘ ext + β · h0`. `W`, `wb`, `ext`, `β` are the layer's slices as the body loads them. -/
def kOut (h h0 : FVec Ideal S2000x128 .f32) (c : FVec Ideal S2000x1 .f32) (W : Vec Ideal S1x128x128 .f32)
    (wb ext : Vec Ideal S1x128 .f32) (β : Vec Ideal S1x1 .f32) : FVec Ideal S2000x128 .f32 :=
  subf (mulf (broadcastTo S2000x128 c broadcasts_S2000x1_S2000x128)
      (addf (matmul dot_S2000x128_S128x128_S2000x128_1_0_0_1_n_n none (truncf .bf16 h bitsLt_bf16_f32)
          (transpose S128x128 [1, 0] (truncf .bf16 (shapeCast S128x128 W shapeCasts_S1x128x128_S128x128) bitsLt_bf16_f32)
            transposes_S128x128_p1_0_S128x128)
          (constant S2000x128 .f32 0x00000000#32))
        (broadcastTo S2000x128 (shapeCast S1x128 (shapeCast S128 wb shapeCasts_S1x128_S128) shapeCasts_S128_S1x128)
          broadcasts_S1x128_S2000x128)))
    (addf (mulf h (broadcastTo S2000x128 (shapeCast S1x128 (shapeCast S128 ext shapeCasts_S1x128_S128) shapeCasts_S128_S1x128)
          broadcasts_S1x128_S2000x128))
      (mulf (broadcast S2000x128 (extractAt ![0, 0] β inpos_S1x1_p0_0)) h0))

/-- The clip at zero, the step size and the previous rows. -/
def kNext (h out : FVec Ideal S2000x128 .f32) : FVec Ideal S2000x128 .f32 :=
  addf h (mulf (broadcast S2000x128 (Scalar.ofBits (F := Ideal) .f32 0x3DCCCCCD#32))
    (maximumf out (broadcast S2000x128 (Scalar.ofBits (F := Ideal) .f32 0x00000000#32))))

/-- The one entry of a `[1, 1]` array. -/
theorem extract00 (β : Vec Ideal S1x1 .f32) (h : ∀ a, (![0, 0] : Fin 2 → ℕ) a < S1x1.size a) :
    extractAt ![0, 0] β h = β (ix2 (0 : Fin 1) (0 : Fin 1)) :=
  congrArg β (funext fun a => Fin.ext (by match a with | ⟨0, _⟩ => rfl | ⟨1, _⟩ => rfl))

/-- One step on a tile whose row `r` is `hr` (previous) and `er` (encoded), read at `(r, j)`: the row-level step. -/
theorem step_at (h h0 : FVec Ideal S2000x128 .f32) (c : FVec Ideal S2000x1 .f32) (W : Vec Ideal S1x128x128 .f32)
    (wb ext : Vec Ideal S1x128 .f32) (β : Vec Ideal S1x1 .f32) (r : Fin 2000) (hr er : Fin 128 → EReal)
    (hh : ∀ k, h (ix2 r k) = hr k) (he : ∀ k, h0 (ix2 r k) = er k) (j : Fin 128) :
    kNext h (kOut h h0 c W wb ext β) (ix2 r j)
      = Spec.step (c (ix2 r (0 : Fin 1))) (β (ix2 (0 : Fin 1) (0 : Fin 1))) (fun a k => W (ix3 (0 : Fin 1) a k))
          (fun a => wb (ix2 (0 : Fin 1) a)) (fun a => ext (ix2 (0 : Fin 1) a)) er hr j := by
  unfold kNext kOut Spec.step
  rw [addf_apply, mulf_apply, maximumf_apply, subf_apply, mulf_apply, addf_apply (mulf h _), mulf_apply, mulf_apply,
    broadcast_apply, broadcast_apply, broadcast_apply, ColumnIdx.broadcastTo_a1_ab_apply, broadcastTo_1b_ab_apply,
    shapeCast_shapeCast, shapeCast_shapeCast, dense_at _ dot_hid, hh j, he j, extract00]
  have hW : (fun (a : Fin 128) (k : Fin 128) => shapeCast S128x128 W shapeCasts_S1x128x128_S128x128 (ix2 a k))
      = fun a k => W (ix3 (0 : Fin 1) a k) :=
    funext fun a => funext fun k => shapeCast_1ab_ab_apply W _ a k
  have hrow : (fun k : Fin 128 => h (ix2 r k)) = hr := funext hh
  rw [hW, hrow]
  show hr j + Ideal.ofBits .f32 0x3DCCCCCD#32 * max _ (Ideal.ofBits .f32 0x00000000#32) = _
  rw [Ideal.ofBits_zero_f32]
  rfl

/-! ## The whole body -/

/-- The decoding layer on the last tile. -/
def kDec (h : FVec Ideal S2000x128 .f32) (v128 : Vec Ideal S40x128 .f32) (v133 : Vec Ideal S1x40 .f32) : FVec Ideal S2000x40 .f32 :=
  addf (matmul dot_S2000x128_S128x40_S2000x40_1_0_0_1_n_n none (truncf .bf16 h bitsLt_bf16_f32)
      (transpose S128x40 [1, 0] (truncf .bf16 v128 bitsLt_bf16_f32) transposes_S40x128_p1_0_S128x40)
      (constant S2000x40 .f32 0x00000000#32))
    (broadcastTo S2000x40 (shapeCast S1x40 v133 shapeCasts_S1x40_S1x40) broadcasts_S1x40_S2000x40)

/-- What the body stores, from the values it loads: the feature tile `v0`, the encoder `v2`, `v6`, the coefficient column
    `v10`, each layer's slices `w`, `b`, `e`, `β`, and the decoder `v128`, `v133`. -/
def kPay (v0 : Vec Ideal S2000x256 .f32) (v2 : Vec Ideal S128x256 .f32) (v6 : Vec Ideal S1x128 .f32) (v10 : Vec Ideal S2000x1 .f32)
    (w0 : Vec Ideal S1x128x128 .f32) (b0 e0 : Vec Ideal S1x128 .f32) (β0 : Vec Ideal S1x1 .f32)
    (w1 : Vec Ideal S1x128x128 .f32) (b1 e1 : Vec Ideal S1x128 .f32) (β1 : Vec Ideal S1x1 .f32)
    (w2 : Vec Ideal S1x128x128 .f32) (b2 e2 : Vec Ideal S1x128 .f32) (β2 : Vec Ideal S1x1 .f32)
    (w3 : Vec Ideal S1x128x128 .f32) (b3 e3 : Vec Ideal S1x128 .f32) (β3 : Vec Ideal S1x1 .f32)
    (v128 : Vec Ideal S40x128 .f32) (v133 : Vec Ideal S1x40 .f32) : FVec Ideal S2000x40 .f32 :=
  k0_pay1
    (k0_pay8 (k0_pay2 v0 v2 v6) (k0_pay3 v10)
      (k0_pay5 (k0_pay2 v0 v2 v6) (k0_pay3 v10) (k0_pay4 v0 v2 v6 v10 w0 b0 e0 β0) (Scalar.ofBits .f32 0x3DCCCCCD#32) w1 b1 e1 β1)
      (k0_pay6 (k0_pay2 v0 v2 v6) (k0_pay3 v10) (k0_pay4 v0 v2 v6 v10 w0 b0 e0 β0) (Scalar.ofBits .f32 0x3DCCCCCD#32) w1 b1 e1 β1 w2)
      (k0_pay7 b2) e2 β2)
    (k0_pay9 (k0_pay2 v0 v2 v6) (k0_pay3 v10)
      (k0_pay5 (k0_pay2 v0 v2 v6) (k0_pay3 v10) (k0_pay4 v0 v2 v6 v10 w0 b0 e0 β0) (Scalar.ofBits .f32 0x3DCCCCCD#32) w1 b1 e1 β1)
      (k0_pay6 (k0_pay2 v0 v2 v6) (k0_pay3 v10) (k0_pay4 v0 v2 v6 v10 w0 b0 e0 β0) (Scalar.ofBits .f32 0x3DCCCCCD#32) w1 b1 e1 β1 w2)
      (k0_pay7 b2) e2 β2 w3 b3 e3 β3)
    (Scalar.ofBits .f32 0x00000000#32) v128 v133

/-- The stored value is the decoding of the fourth step's tile, each step taken from the one before. -/
theorem kPay_eq (v0 : Vec Ideal S2000x256 .f32) (v2 : Vec Ideal S128x256 .f32) (v6 : Vec Ideal S1x128 .f32) (v10 : Vec Ideal S2000x1 .f32)
    (w0 : Vec Ideal S1x128x128 .f32) (b0 e0 : Vec Ideal S1x128 .f32) (β0 : Vec Ideal S1x1 .f32)
    (w1 : Vec Ideal S1x128x128 .f32) (b1 e1 : Vec Ideal S1x128 .f32) (β1 : Vec Ideal S1x1 .f32)
    (w2 : Vec Ideal S1x128x128 .f32) (b2 e2 : Vec Ideal S1x128 .f32) (β2 : Vec Ideal S1x1 .f32)
    (w3 : Vec Ideal S1x128x128 .f32) (b3 e3 : Vec Ideal S1x128 .f32) (β3 : Vec Ideal S1x1 .f32)
    (v128 : Vec Ideal S40x128 .f32) (v133 : Vec Ideal S1x40 .f32)
    (T0 T1 T2 T3 : FVec Ideal S2000x128 .f32) (hT0 : T0 = k0_pay2 v0 v2 v6)
    (hT1 : T1 = kNext T0 (kOut T0 T0 (k0_pay3 v10) w0 b0 e0 β0)) (hT2 : T2 = kNext T1 (kOut T1 T0 (k0_pay3 v10) w1 b1 e1 β1))
    (hT3 : T3 = kNext T2 (kOut T2 T0 (k0_pay3 v10) w2 b2 e2 β2)) :
    kPay v0 v2 v6 v10 w0 b0 e0 β0 w1 b1 e1 β1 w2 b2 e2 β2 w3 b3 e3 β3 v128 v133
      = kDec (kNext T3 (kOut T3 T0 (k0_pay3 v10) w3 b3 e3 β3)) v128 v133 := by
  subst hT0 hT1 hT2 hT3
  rfl

/-- The stored value at `(r, j)`: the row-level network of Spec.lean on row `r` of the feature tile and the row's
    coefficient, with the weights `p` the loaded slices hold. -/
theorem kPay_at (p : Spec.Wts) (v0 : Vec Ideal S2000x256 .f32) (v2 : Vec Ideal S128x256 .f32) (v6 : Vec Ideal S1x128 .f32) (v10 : Vec Ideal S2000x1 .f32)
    (w0 : Vec Ideal S1x128x128 .f32) (b0 e0 : Vec Ideal S1x128 .f32) (β0 : Vec Ideal S1x1 .f32)
    (w1 : Vec Ideal S1x128x128 .f32) (b1 e1 : Vec Ideal S1x128 .f32) (β1 : Vec Ideal S1x1 .f32)
    (w2 : Vec Ideal S1x128x128 .f32) (b2 e2 : Vec Ideal S1x128 .f32) (β2 : Vec Ideal S1x1 .f32)
    (w3 : Vec Ideal S1x128x128 .f32) (b3 e3 : Vec Ideal S1x128 .f32) (β3 : Vec Ideal S1x1 .f32)
    (v128 : Vec Ideal S40x128 .f32) (v133 : Vec Ideal S1x40 .f32)
    (hEW : (fun a k => v2 (ix2 a k)) = p.encW) (hEB : (fun a => v6 (ix2 (0 : Fin 1) a)) = p.encb)
    (hW0 : (fun a k => w0 (ix3 (0 : Fin 1) a k)) = p.W 0) (hb0 : (fun a => b0 (ix2 (0 : Fin 1) a)) = p.wb 0)
    (he0 : (fun a => e0 (ix2 (0 : Fin 1) a)) = p.ext 0) (hβ0 : β0 (ix2 (0 : Fin 1) (0 : Fin 1)) = p.β 0)
    (hW1 : (fun a k => w1 (ix3 (0 : Fin 1) a k)) = p.W 1) (hb1 : (fun a => b1 (ix2 (0 : Fin 1) a)) = p.wb 1)
    (he1 : (fun a => e1 (ix2 (0 : Fin 1) a)) = p.ext 1) (hβ1 : β1 (ix2 (0 : Fin 1) (0 : Fin 1)) = p.β 1)
    (hW2 : (fun a k => w2 (ix3 (0 : Fin 1) a k)) = p.W 2) (hb2 : (fun a => b2 (ix2 (0 : Fin 1) a)) = p.wb 2)
    (he2 : (fun a => e2 (ix2 (0 : Fin 1) a)) = p.ext 2) (hβ2 : β2 (ix2 (0 : Fin 1) (0 : Fin 1)) = p.β 2)
    (hW3 : (fun a k => w3 (ix3 (0 : Fin 1) a k)) = p.W 3) (hb3 : (fun a => b3 (ix2 (0 : Fin 1) a)) = p.wb 3)
    (he3 : (fun a => e3 (ix2 (0 : Fin 1) a)) = p.ext 3) (hβ3 : β3 (ix2 (0 : Fin 1) (0 : Fin 1)) = p.β 3)
    (hDW : (fun a k => v128 (ix2 a k)) = p.decW) (hDB : (fun a => v133 (ix2 (0 : Fin 1) a)) = p.decb)
    (r : Fin 2000) (j : Fin 40) :
    kPay v0 v2 v6 v10 w0 b0 e0 β0 w1 b1 e1 β1 w2 b2 e2 β2 w3 b3 e3 β3 v128 v133 (ix2 r j)
      = Spec.rowOut p (fun k => v0 (ix2 r k)) (v10 (ix2 r (0 : Fin 1))) j := by
  rw [kPay_eq v0 v2 v6 v10 w0 b0 e0 β0 w1 b1 e1 β1 w2 b2 e2 β2 w3 b3 e3 β3 v128 v133 _ _ _ _ rfl rfl rfl rfl]
  have hC : k0_pay3 v10 (ix2 r (0 : Fin 1)) = v10 (ix2 r (0 : Fin 1)) := by
    unfold k0_pay3; rw [shapeCast_self]
  -- the encoded row
  have h0 : ∀ k, k0_pay2 v0 v2 v6 (ix2 r k) = Spec.h0 p (fun k => v0 (ix2 r k)) k := fun k => by
    unfold k0_pay2 Spec.h0
    rw [shapeCast_self, dense_at _ dot_enc, hEW, hEB]
  -- the four steps
  have h1 := fun k => (step_at _ _ (k0_pay3 v10) w0 b0 e0 β0 r _ _ h0 h0 k).trans (by rw [hC, hW0, hb0, he0, hβ0]; rfl :
    _ = Spec.lay p (v10 (ix2 r (0 : Fin 1))) 0 (Spec.h0 p fun k => v0 (ix2 r k)) (Spec.h0 p fun k => v0 (ix2 r k)) k)
  have h2 := fun k => (step_at _ _ (k0_pay3 v10) w1 b1 e1 β1 r _ _ h1 h0 k).trans (by rw [hC, hW1, hb1, he1, hβ1]; rfl :
    _ = Spec.lay p (v10 (ix2 r (0 : Fin 1))) 1 (Spec.h0 p fun k => v0 (ix2 r k)) _ k)
  have h3 := fun k => (step_at _ _ (k0_pay3 v10) w2 b2 e2 β2 r _ _ h2 h0 k).trans (by rw [hC, hW2, hb2, he2, hβ2]; rfl :
    _ = Spec.lay p (v10 (ix2 r (0 : Fin 1))) 2 (Spec.h0 p fun k => v0 (ix2 r k)) _ k)
  have h4 := fun k => (step_at _ _ (k0_pay3 v10) w3 b3 e3 β3 r _ _ h3 h0 k).trans (by rw [hC, hW3, hb3, he3, hβ3]; rfl :
    _ = Spec.lay p (v10 (ix2 r (0 : Fin 1))) 3 (Spec.h0 p fun k => v0 (ix2 r k)) _ k)
  unfold kDec Spec.rowOut
  rw [shapeCast_self, dense_at _ dot_dec, hDW, hDB, funext h4]

end Cert.Gnn.KerPay

end
-- ==== Proof.KerBlocks.lean ====
/-
  The kernel's tiles as parts of the arrays, and what one grid point writes back.

  The grid has 50 points; point `t` works on node rows `2000 t … 2000 t + 1999`: its feature tile and its coefficient
  column are those rows of their arrays, every weight window is its whole array at every point, and the point's output
  tile is written back to the same rows of the result. Read at row `r`, entry `j` of the tile, the stored value is the
  row-level network of Spec.lean on row `2000 t + r`.
-/
import proofs.«110196_j66305705116250_1_alg».proof.Proof.Gen.KernelIdeal.Value
import proofs.«110196_j66305705116250_1_alg».proof.Proof.KerPay
import proofs.«110196_j66305705116250_1_alg».proof.Proof.Spec
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Gnn.KerBlocks

open Cert.KernelIdeal Cert.KernelIdeal.Gen Cert.KernelIdeal.Value Cert.Gnn

variable (m : (ℓ : Loc nD τ sig) → Buf (Elt Ideal) ℓ) (ρ : Dev nD → PrngReg)

theorem hz2 : (![0, 0] : Fin 2 → Nat) = fun _ => 0 := funext fun a => by fin_cases a <;> rfl

/-- Where each window's block sits at point `t`: the two row-tiled inputs and the output at block row `t`, every
    other window at block zero on every axis (decided over the 50 points). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_10.index t (0 : Fin 2) = t.val ∧ win0_10.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Row `r` of window 0's block at point `t` is row `2000 t + r` of the array the window stages. -/
theorem read_blk0 (c : Dev nD) (A : Buf (Elt Ideal) ((c : Thread nD τ).loc main_arg0)) (t : Fin cfg0.N) (r : Fin 2000) (k : Fin 256)
    (R : Fin 100000) (hR : R.val = 2000 * t.val + r.val) :
    (((cfg0.win 0).blk t).view.read (Elt Ideal) A : Vec Ideal S2000x256 .f32) (ix2 r k) = (A : S100000x256.Idx → EReal) (ix2 R k) := by
  have hi := (idx_facts t).1
  rw [View.read_apply]
  refine congrArg A (funext fun a => Fin.ext ?_)
  match a with
  | ⟨0, _⟩ => show win0_0.index t (0 : Fin 2) * 2000 + 1 * r.val = R.val; rw [hi.1, hR]; omega
  | ⟨1, _⟩ => show win0_0.index t (1 : Fin 2) * 256 + 1 * k.val = k.val; rw [hi.2]; omega

/-- Row `r` of window 1's block at point `t` is row `2000 t + r` of the column array it stages. -/
theorem read_blk1 (c : Dev nD) (A : Buf (Elt Ideal) ((c : Thread nD τ).loc main_v44)) (t : Fin cfg0.N) (r : Fin 2000) (u : Fin 1)
    (R : Fin 100000) (hR : R.val = 2000 * t.val + r.val) :
    (((cfg0.win 1).blk t).view.read (Elt Ideal) A : Vec Ideal S2000x1 .f32) (ix2 r u) = (A : S100000x1.Idx → EReal) (ix2 R u) := by
  have hi := (idx_facts t).2.1
  rw [View.read_apply]
  refine congrArg A (funext fun a => Fin.ext ?_)
  match a with
  | ⟨0, _⟩ => show win0_1.index t (0 : Fin 2) * 2000 + 1 * r.val = R.val; rw [hi.1, hR]; omega
  | ⟨1, _⟩ => show win0_1.index t (1 : Fin 2) * 1 + 1 * u.val = u.val; rw [hi.2]; omega

/-- Window 2's block at every point is its whole array. -/
theorem read_blk2 (c : Dev nD) (A : Buf (Elt Ideal) ((c : Thread nD τ).loc main_arg2)) (t : Fin cfg0.N) (y0 : Fin 128) (y1 : Fin 256) :
    (((cfg0.win 2).blk t).view.read (Elt Ideal) A : Vec Ideal S128x256 .f32) (ix2 y0 y1) = (A : S128x256.Idx → EReal) (ix2 y0 y1) := by
  have hi := (idx_facts t).2.2.2.1
  rw [View.read_apply]
  refine congrArg A (funext fun a => Fin.ext ?_)
  match a with
  | ⟨0, _⟩ => show win0_2.index t (0 : Fin 2) * 128 + 1 * y0.val = y0.val; rw [hi.1]; omega
  | ⟨1, _⟩ => show win0_2.index t (1 : Fin 2) * 256 + 1 * y1.val = y1.val; rw [hi.2]; omega

/-- Window 3's block at every point is its whole array. -/
theorem read_blk3 (c : Dev nD) (A : Buf (Elt Ideal) ((c : Thread nD τ).loc main_v69)) (t : Fin cfg0.N) (y0 : Fin 1) (y1 : Fin 128) :
    (((cfg0.win 3).blk t).view.read (Elt Ideal) A : Vec Ideal S1x128 .f32) (ix2 y0 y1) = (A : S1x128.Idx → EReal) (ix2 y0 y1) := by
  have hi := (idx_facts t).2.2.2.2.1
  rw [View.read_apply]
  refine congrArg A (funext fun a => Fin.ext ?_)
  match a with
  | ⟨0, _⟩ => show win0_3.index t (0 : Fin 2) * 1 + 1 * y0.val = y0.val; rw [hi.1]; omega
  | ⟨1, _⟩ => show win0_3.index t (1 : Fin 2) * 128 + 1 * y1.val = y1.val; rw [hi.2]; omega

/-- Window 4's block at every point is its whole array. -/
theorem read_blk4 (c : Dev nD) (A : Buf (Elt Ideal) ((c : Thread nD τ).loc main_v68)) (t : Fin cfg0.N) (y0 : Fin 4) (y1 : Fin 128) (y2 : Fin 128) :
    (((cfg0.win 4).blk t).view.read (Elt Ideal) A : Vec Ideal S4x128x128 .f32) (ix3 y0 y1 y2) = (A : S4x128x128.Idx → EReal) (ix3 y0 y1 y2) := by
  have hi := (idx_facts t).2.2.2.2.2.1
  rw [View.read_apply]
  refine congrArg A (funext fun a => Fin.ext ?_)
  match a with
  | ⟨0, _⟩ => show win0_4.index t (0 : Fin 3) * 4 + 1 * y0.val = y0.val; rw [hi.1]; omega
  | ⟨1, _⟩ => show win0_4.index t (1 : Fin 3) * 128 + 1 * y1.val = y1.val; rw [hi.2.1]; omega
  | ⟨2, _⟩ => show win0_4.index t (2 : Fin 3) * 128 + 1 * y2.val = y2.val; rw [hi.2.2]; omega

/-- Window 5's block at every point is its whole array. -/
theorem read_blk5 (c : Dev nD) (A : Buf (Elt Ideal) ((c : Thread nD τ).loc main_arg5)) (t : Fin cfg0.N) (y0 : Fin 4) (y1 : Fin 128) :
    (((cfg0.win 5).blk t).view.read (Elt Ideal) A : Vec Ideal S4x128 .f32) (ix2 y0 y1) = (A : S4x128.Idx → EReal) (ix2 y0 y1) := by
  have hi := (idx_facts t).2.2.2.2.2.2.1
  rw [View.read_apply]
  refine congrArg A (funext fun a => Fin.ext ?_)
  match a with
  | ⟨0, _⟩ => show win0_5.index t (0 : Fin 2) * 4 + 1 * y0.val = y0.val; rw [hi.1]; omega
  | ⟨1, _⟩ => show win0_5.index t (1 : Fin 2) * 128 + 1 * y1.val = y1.val; rw [hi.2]; omega

/-- Window 6's block at every point is its whole array. -/
theorem read_blk6 (c : Dev nD) (A : Buf (Elt Ideal) ((c : Thread nD τ).loc main_arg6)) (t : Fin cfg0.N) (y0 : Fin 4) (y1 : Fin 128) :
    (((cfg0.win 6).blk t).view.read (Elt Ideal) A : Vec Ideal S4x128 .f32) (ix2 y0 y1) = (A : S4x128.Idx → EReal) (ix2 y0 y1) := by
  have hi := (idx_facts t).2.2.2.2.2.2.2.1
  rw [View.read_apply]
  refine congrArg A (funext fun a => Fin.ext ?_)
  match a with
  | ⟨0, _⟩ => show win0_6.index t (0 : Fin 2) * 4 + 1 * y0.val = y0.val; rw [hi.1]; omega
  | ⟨1, _⟩ => show win0_6.index t (1 : Fin 2) * 128 + 1 * y1.val = y1.val; rw [hi.2]; omega

/-- Window 7's block at every point is its whole array. -/
theorem read_blk7 (c : Dev nD) (A : Buf (Elt Ideal) ((c : Thread nD τ).loc main_v71)) (t : Fin cfg0.N) (y0 : Fin 4) (y1 : Fin 1) :
    (((cfg0.win 7).blk t).view.read (Elt Ideal) A : Vec Ideal S4x1 .f32) (ix2 y0 y1) = (A : S4x1.Idx → EReal) (ix2 y0 y1) := by
  have hi := (idx_facts t).2.2.2.2.2.2.2.2.1
  rw [View.read_apply]
  refine congrArg A (funext fun a => Fin.ext ?_)
  match a with
  | ⟨0, _⟩ => show win0_7.index t (0 : Fin 2) * 4 + 1 * y0.val = y0.val; rw [hi.1]; omega
  | ⟨1, _⟩ => show win0_7.index t (1 : Fin 2) * 1 + 1 * y1.val = y1.val; rw [hi.2]; omega

/-- Window 8's block at every point is its whole array. -/
theorem read_blk8 (c : Dev nD) (A : Buf (Elt Ideal) ((c : Thread nD τ).loc main_arg8)) (t : Fin cfg0.N) (y0 : Fin 40) (y1 : Fin 128) :
    (((cfg0.win 8).blk t).view.read (Elt Ideal) A : Vec Ideal S40x128 .f32) (ix2 y0 y1) = (A : S40x128.Idx → EReal) (ix2 y0 y1) := by
  have hi := (idx_facts t).2.2.2.2.2.2.2.2.2.1
  rw [View.read_apply]
  refine congrArg A (funext fun a => Fin.ext ?_)
  match a with
  | ⟨0, _⟩ => show win0_8.index t (0 : Fin 2) * 40 + 1 * y0.val = y0.val; rw [hi.1]; omega
  | ⟨1, _⟩ => show win0_8.index t (1 : Fin 2) * 128 + 1 * y1.val = y1.val; rw [hi.2]; omega

/-- Window 9's block at every point is its whole array. -/
theorem read_blk9 (c : Dev nD) (A : Buf (Elt Ideal) ((c : Thread nD τ).loc main_v70)) (t : Fin cfg0.N) (y0 : Fin 1) (y1 : Fin 40) :
    (((cfg0.win 9).blk t).view.read (Elt Ideal) A : Vec Ideal S1x40 .f32) (ix2 y0 y1) = (A : S1x40.Idx → EReal) (ix2 y0 y1) := by
  have hi := (idx_facts t).2.2.2.2.2.2.2.2.2.2
  rw [View.read_apply]
  refine congrArg A (funext fun a => Fin.ext ?_)
  match a with
  | ⟨0, _⟩ => show win0_9.index t (0 : Fin 2) * 1 + 1 * y0.val = y0.val; rw [hi.1]; omega
  | ⟨1, _⟩ => show win0_9.index t (1 : Fin 2) * 40 + 1 * y1.val = y1.val; rw [hi.2]; omega

/-! ## The slices the body loads -/

/-- Layer `l`'s matrix, loaded as a `[1, 128, 128]` slice of the stack, at `(0, a, k)` is the stack at `(l, a, k)`. -/
theorem ld_mat (x4 : Vec Ideal S4x128x128 .f32) (l : Fin 4)
    (inb : ∀ a, (![l.val, 0, 0] : Fin 3 → ℕ) a + S1x128x128.size a ≤ S4x128x128.size a) :
    (fun (a k : Fin 128) => (View.ld x4 (Rect.unit (s := S4x128x128) ![l.val, 0, 0] S1x128x128.size inb) : Vec Ideal S1x128x128 .f32) (ix3 (0 : Fin 1) a k))
      = fun a k => x4 (ix3 l a k) := by
  funext a k
  show x4 ((Rect.unit (s := S4x128x128) ![l.val, 0, 0] S1x128x128.size inb).emb (ix3 (0 : Fin 1) a k)) = _
  refine congrArg x4 (funext fun ax => Fin.ext ?_)
  match ax with
  | ⟨0, _⟩ => show l.val + 1 * 0 = l.val; omega
  | ⟨1, _⟩ => show 0 + 1 * a.val = a.val; omega
  | ⟨2, _⟩ => show 0 + 1 * k.val = k.val; omega

/-- Layer `l`'s row of a `[4, 128]` array, loaded as a `[1, 128]` slice, at `(0, a)` is the array at `(l, a)`. -/
theorem ld_row (x5 : Vec Ideal S4x128 .f32) (l : Fin 4)
    (inb : ∀ a, (![l.val, 0] : Fin 2 → ℕ) a + S1x128.size a ≤ S4x128.size a) :
    (fun (a : Fin 128) => (View.ld x5 (Rect.unit (s := S4x128) ![l.val, 0] S1x128.size inb) : Vec Ideal S1x128 .f32) (ix2 (0 : Fin 1) a))
      = fun a => x5 (ix2 l a) := by
  funext a
  show x5 ((Rect.unit (s := S4x128) ![l.val, 0] S1x128.size inb).emb (ix2 (0 : Fin 1) a)) = _
  refine congrArg x5 (funext fun ax => Fin.ext ?_)
  match ax with
  | ⟨0, _⟩ => show l.val + 1 * 0 = l.val; omega
  | ⟨1, _⟩ => show 0 + 1 * a.val = a.val; omega

/-- Layer `l`'s entry of a `[4, 1]` array, loaded as a `[1, 1]` slice. -/
theorem ld_ent (x7 : Vec Ideal S4x1 .f32) (l : Fin 4)
    (inb : ∀ a, (![l.val, 0] : Fin 2 → ℕ) a + S1x1.size a ≤ S4x1.size a) :
    (View.ld x7 (Rect.unit (s := S4x1) ![l.val, 0] S1x1.size inb) : Vec Ideal S1x1 .f32) (ix2 (0 : Fin 1) (0 : Fin 1))
      = x7 (ix2 l (0 : Fin 1)) := by
  show x7 ((Rect.unit (s := S4x1) ![l.val, 0] S1x1.size inb).emb (ix2 (0 : Fin 1) (0 : Fin 1))) = _
  refine congrArg x7 (funext fun ax => Fin.ext ?_)
  match ax with
  | ⟨0, _⟩ => show l.val + 1 * 0 = l.val; omega
  | ⟨1, _⟩ => show 0 + 1 * 0 = 0; omega

/-! ## What the body leaves in the output tile -/

/-- The weights as the body's windows hold them. -/
def kWts (x2 : Vec Ideal S128x256 .f32) (x3 : Vec Ideal S1x128 .f32) (x4 : Vec Ideal S4x128x128 .f32) (x5 x6 : Vec Ideal S4x128 .f32)
    (x7 : Vec Ideal S4x1 .f32) (x8 : Vec Ideal S40x128 .f32) (x9 : Vec Ideal S1x40 .f32) : Spec.Wts where
  encW := fun a k => x2 (ix2 a k)
  encb := fun a => x3 (ix2 (0 : Fin 1) a)
  W := fun l a k => x4 (ix3 l a k)
  wb := fun l a => x5 (ix2 l a)
  ext := fun l a => x6 (ix2 l a)
  β := fun l => x7 (ix2 l (0 : Fin 1))
  decW := fun a k => x8 (ix2 a k)
  decb := fun a => x9 (ix2 (0 : Fin 1) a)

/-- Weights that agree field by field are the same weights. -/
theorem wts_congr {a a' : Fin 128 → Fin 256 → EReal} {b b' : Fin 128 → EReal} {w w' : Fin 4 → Fin 128 → Fin 128 → EReal}
    {d d' e e' : Fin 4 → Fin 128 → EReal} {f f' : Fin 4 → EReal} {g g' : Fin 40 → Fin 128 → EReal} {h h' : Fin 40 → EReal}
    (ha : a = a') (hb : b = b') (hw : w = w') (hd : d = d') (he : e = e') (hf : f = f') (hg : g = g') (hh : h = h') :
    Spec.Wts.mk a b w d e f g h = Spec.Wts.mk a' b' w' d' e' f' g' h' := by
  subst ha hb hw hd he hf hg hh; rfl

/-- The output tile at `(r, j)`: the row-level network on row `r` of the feature tile with the row's coefficient. -/
theorem out_at (x0 : Vec Ideal S2000x256 .f32) (x1 : Vec Ideal S2000x1 .f32) (x2 : Vec Ideal S128x256 .f32) (x3 : Vec Ideal S1x128 .f32)
    (x4 : Vec Ideal S4x128x128 .f32) (x5 x6 : Vec Ideal S4x128 .f32) (x7 : Vec Ideal S4x1 .f32) (x8 : Vec Ideal S40x128 .f32)
    (x9 : Vec Ideal S1x40 .f32) (r : Fin 2000) (j : Fin 40) :
    (out0_10 x0 x1 x2 x3 x4 x5 x6 x7 x8 x9 : Vec Ideal S2000x40 .f32) (ix2 r j)
      = Spec.rowOut (kWts x2 x3 x4 x5 x6 x7 x8 x9) (fun k => x0 (ix2 r k)) (x1 (ix2 r (0 : Fin 1))) j := by
  unfold out0_10
  rw [View.canon_unit_zero hz2]
  simp only [View.ld_unit_zero (S := S2000x256) hz2, View.ld_unit_zero (S := S128x256) hz2, View.ld_unit_zero (S := S1x128) hz2,
    View.ld_unit_zero (S := S2000x1) hz2, View.ld_unit_zero (S := S40x128) hz2, View.ld_unit_zero (S := S1x40) hz2]
  exact KerPay.kPay_at (kWts x2 x3 x4 x5 x6 x7 x8 x9) x0 x2 x3 x1 _ _ _ _ _ _ _ _ _ _ _ _ _ _ _ _ x8 x9 rfl rfl
    (ld_mat x4 0 _) (ld_row x5 0 _) (ld_row x6 0 _) (ld_ent x7 0 _)
    (ld_mat x4 1 _) (ld_row x5 1 _) (ld_row x6 1 _) (ld_ent x7 1 _)
    (ld_mat x4 2 _) (ld_row x5 2 _) (ld_row x6 2 _) (ld_ent x7 2 _)
    (ld_mat x4 3 _) (ld_row x5 3 _) (ld_row x6 3 _) (ld_ent x7 3 _) rfl rfl r j

/-! ## What point `t` writes back, and the result array -/

/-- An index of the result is in point `t`'s block iff each coordinate is in the block's range on its axis. -/
theorem mem_blk10 (t : Fin cfg0.N) (i : S100000x40.Idx) :
    i ∈ ((cfg0.win 10).blk t).view.set ↔ ∀ a : Fin 2, win0_10.index t a * S2000x40.size a ≤ (i a).val ∧ (i a).val < win0_10.index t a * S2000x40.size a + S2000x40.size a := by
  show i ∈ ((View.whole main_v72).slice (win0_10.rect t)).set ↔ _
  rw [View.set_slice_whole, Rect.mem_set_unit]
  exact Iff.rfl

/-- Every index of the result lies in the block of the point that owns its row: row `R` belongs to point `R / 2000`. -/
theorem cover10 (i : S100000x40.Idx) : ∃ t : Fin cfg0.N, (cfg0.win 10).flush t = true ∧ i ∈ ((cfg0.win 10).blk t).view.set := by
  have hN : cfg0.N = 50 := N_0
  have hi0 : (i 0).val < 100000 := (i 0).isLt
  have hi1 : (i 1).val < 40 := (i 1).isLt
  refine ⟨⟨(i 0).val / 2000, by rw [hN]; omega⟩, flush0_10 _, ?_⟩
  rw [mem_blk10]
  have hi := (idx_facts ⟨(i 0).val / 2000, by rw [hN]; omega⟩).2.2.1
  intro a
  match a with
  | ⟨0, _⟩ =>
    show win0_10.index _ (0 : Fin 2) * 2000 ≤ (i 0).val ∧ (i 0).val < win0_10.index _ (0 : Fin 2) * 2000 + 2000
    rw [hi.1]; show (i 0).val / 2000 * 2000 ≤ (i 0).val ∧ (i 0).val < (i 0).val / 2000 * 2000 + 2000; omega
  | ⟨1, _⟩ =>
    show win0_10.index _ (1 : Fin 2) * 40 ≤ (i 1).val ∧ (i 1).val < win0_10.index _ (1 : Fin 2) * 40 + 40
    rw [hi.2]; omega

/-- WHAT POINT `t` WRITES BACK is block `t` of the specification's array, for any reading of the arrays the region finds:
    the features `X`, the coefficient of row `R` as `C R`, and the weights `p`. -/
theorem flushed_eq (c : Dev nD) (p : Spec.Wts) (X : (⟨2, ![100000, 256]⟩ : Shape).Idx → EReal) (C : (⟨1, ![100000]⟩ : Shape).Idx → EReal)
    (hX : ∀ (R : Fin 100000) (k : Fin 256), (V m c main_arg0 : S100000x256.Idx → EReal) (ix2 R k) = X (ix2 R k))
    (hC : ∀ (R : Fin 100000) (u : Fin 1), (V m c main_v44 : S100000x1.Idx → EReal) (ix2 R u) = C (ix1 R))
    (hp : kWts (V m c main_arg2) (V m c main_v69) (V m c main_v68) (V m c main_arg5) (V m c main_arg6) (V m c main_v71)
      (V m c main_arg8) (V m c main_v70) = p) (t : Fin cfg0.N) :
    (dats m 0 c).flushed 10 t = ((cfg0.win 10).blk t).view.read (Elt Ideal) (Spec.G p X C) := by
  have hN : cfg0.N = 50 := N_0
  rw [flushed10]
  funext y
  show (out0_10 (iblk m c 0 t) (iblk m c 1 t) (iblk m c 2 t) (iblk m c 3 t) (iblk m c 4 t) (iblk m c 5 t) (iblk m c 6 t)
    (iblk m c 7 t) (iblk m c 8 t) (iblk m c 9 t) : Vec Ideal S2000x40 .f32) y = Spec.G p X C (((cfg0.win 10).blk t).view.emb y)
  obtain ⟨r, j, rfl⟩ : ∃ (r : Fin 2000) (j : Fin 40), y = ix2 r j := ⟨y 0, y 1, eq_ix2 y⟩
  have ht : t.val < 50 := hN ▸ t.isLt
  have hemb : ((cfg0.win 10).blk t).view.emb (ix2 r j) = ix2 (⟨2000 * t.val + r.val, by omega⟩ : Fin 100000) j := by
    have hi := (idx_facts t).2.2.1
    refine funext fun a => Fin.ext ?_
    match a with
    | ⟨0, _⟩ => show win0_10.index t (0 : Fin 2) * 2000 + 1 * r.val = 2000 * t.val + r.val; rw [hi.1]; omega
    | ⟨1, _⟩ => show win0_10.index t (1 : Fin 2) * 40 + 1 * j.val = j.val; rw [hi.2]; omega
  rw [hemb, Spec.G_ix2, out_at]
  unfold Spec.Grow
  have e0 : (fun k => (iblk m c 0 t : Vec Ideal S2000x256 .f32) (ix2 r k)) = fun k => X (ix2 (⟨2000 * t.val + r.val, by omega⟩ : Fin 100000) k) :=
    funext fun k => by unfold iblk; exact (read_blk0 c _ t r k _ rfl).trans (hX _ k)
  have e1 : (iblk m c 1 t : Vec Ideal S2000x1 .f32) (ix2 r (0 : Fin 1)) = C (ix1 (⟨2000 * t.val + r.val, by omega⟩ : Fin 100000)) := by
    unfold iblk; exact (read_blk1 c _ t r 0 _ rfl).trans (hC _ 0)
  have e2 : (fun a k => (iblk m c 2 t : Vec Ideal S128x256 .f32) (ix2 a k)) = fun a k => (V m c main_arg2 : S128x256.Idx → EReal) (ix2 a k) :=
    funext fun a => funext fun k => by unfold iblk; exact read_blk2 c _ t a k
  have e3 : (fun a => (iblk m c 3 t : Vec Ideal S1x128 .f32) (ix2 (0 : Fin 1) a)) = fun a => (V m c main_v69 : S1x128.Idx → EReal) (ix2 (0 : Fin 1) a) :=
    funext fun a => by unfold iblk; exact read_blk3 c _ t 0 a
  have e4 : (fun l a k => (iblk m c 4 t : Vec Ideal S4x128x128 .f32) (ix3 l a k)) = fun l a k => (V m c main_v68 : S4x128x128.Idx → EReal) (ix3 l a k) :=
    funext fun l => funext fun a => funext fun k => by unfold iblk; exact read_blk4 c _ t l a k
  have e5 : (fun l a => (iblk m c 5 t : Vec Ideal S4x128 .f32) (ix2 l a)) = fun l a => (V m c main_arg5 : S4x128.Idx → EReal) (ix2 l a) :=
    funext fun l => funext fun a => by unfold iblk; exact read_blk5 c _ t l a
  have e6 : (fun l a => (iblk m c 6 t : Vec Ideal S4x128 .f32) (ix2 l a)) = fun l a => (V m c main_arg6 : S4x128.Idx → EReal) (ix2 l a) :=
    funext fun l => funext fun a => by unfold iblk; exact read_blk6 c _ t l a
  have e7 : (fun l => (iblk m c 7 t : Vec Ideal S4x1 .f32) (ix2 l (0 : Fin 1))) = fun l => (V m c main_v71 : S4x1.Idx → EReal) (ix2 l (0 : Fin 1)) :=
    funext fun l => by unfold iblk; exact read_blk7 c _ t l 0
  have e8 : (fun a k => (iblk m c 8 t : Vec Ideal S40x128 .f32) (ix2 a k)) = fun a k => (V m c main_arg8 : S40x128.Idx → EReal) (ix2 a k) :=
    funext fun a => funext fun k => by unfold iblk; exact read_blk8 c _ t a k
  have e9 : (fun a => (iblk m c 9 t : Vec Ideal S1x40 .f32) (ix2 (0 : Fin 1) a)) = fun a => (V m c main_v70 : S1x40.Idx → EReal) (ix2 (0 : Fin 1) a) :=
    funext fun a => by unfold iblk; exact read_blk9 c _ t 0 a
  have ep : kWts (iblk m c 2 t) (iblk m c 3 t) (iblk m c 4 t) (iblk m c 5 t) (iblk m c 6 t) (iblk m c 7 t) (iblk m c 8 t) (iblk m c 9 t) = p :=
    (wts_congr e2 e3 e4 e5 e6 e7 e8 e9).trans hp
  rw [e0, e1, ep]

/-- THE RESULT ARRAY after the run is the specification's array. -/
theorem final (c : Dev nD) (p : Spec.Wts) (X : (⟨2, ![100000, 256]⟩ : Shape).Idx → EReal) (C : (⟨1, ![100000]⟩ : Shape).Idx → EReal)
    (hX : ∀ (R : Fin 100000) (k : Fin 256), (V m c main_arg0 : S100000x256.Idx → EReal) (ix2 R k) = X (ix2 R k))
    (hC : ∀ (R : Fin 100000) (u : Fin 1), (V m c main_v44 : S100000x1.Idx → EReal) (ix2 R u) = C (ix1 R))
    (hp : kWts (V m c main_arg2) (V m c main_v69) (V m c main_v68) (V m c main_arg5) (V m c main_arg6) (V m c main_v71)
      (V m c main_arg8) (V m c main_v70) = p) :
    (dats m 0 c).arrAt 10 cfg0.N = Spec.G p X C :=
  (dats m 0 c).arrAt_eq_of_cover 10 (Spec.G p X C) (fun t _ => flushed_eq m c p X C hX hC hp t) cover10

end Cert.Gnn.KerBlocks

end
-- ==== Proof.LibTriangle.lean ====
/-
  Triangle and diagonal masks built from two coordinate counters, and the pieces a symmetric matrix with a computed
  diagonal is assembled from on the host, each read at an index over the extended reals.

  A counter along axis `d` holds, at every index, that index's coordinate on `d` as a 32-bit word. Comparing the counter
  along one axis (plus a zero offset) with the counter along another gives a one-bit mask: "greater or equal" marks the
  indices whose second coordinate does not exceed the first (the lower triangle with the diagonal), "equal" marks the
  diagonal. While every extent is below 2^31 the words compare exactly as the coordinates do. A selection by such a mask
  is an `if` on the coordinates; the mask converted to a number is one or zero; the host's absolute value is
  `max x (-x)`; and the host's sum over the last axis of a stack of matrices, from an initial value that is zero, is the
  sum of the row.
-/
import Idealize.ShloMosaic.Lib.ValueIdx
import Idealize.ShloMosaic.Lib.ValueLayout
import Idealize.ShloMosaic.Lib.Pipeline.Value
import Idealize.ShloMosaic.Lib.IdealHost
import Idealize.ShloMosaic.Lib.WordArith
import Idealize.ShloMosaic.Lib.KernelVsHost
import Idealize.ShloMosaic.PureOps.Ideal.Laws

noncomputable section

namespace Idealize.ShloMosaic.Triangle

open Idealize.ShloMosaic Idealize.ShloMosaic.ValueIdx Idealize.ShloMosaic.WordArith

/-! ## Words -/

/-- Two naturals below 2^31, written as 32-bit words (the first with a zero offset added), compare "signed greater or
    equal" exactly as the naturals do. -/
theorem cmpi_sge_ofNat (p q : ℕ) (hp : p < 2 ^ 31) (hq : q < 2 ^ 31) :
    IntOp.cmpi .sge (IntOp.addi (BitVec.ofNat 32 p) 0#32) (BitVec.ofNat 32 q) = BitVec.ofBool (decide (q ≤ p)) := by
  show BitVec.ofBool ((BitVec.ofNat 32 q).sle (BitVec.ofNat 32 p + 0#32)) = _
  refine congrArg BitVec.ofBool ?_
  rw [BitVec.add_zero, Bool.eq_iff_iff, BitVec.sle_iff_toInt_le, toInt_ofNat_small p hp, toInt_ofNat_small q hq,
    decide_eq_true_iff]
  exact Int.ofNat_le

/-- Two naturals below 2^31, written as 32-bit words (the first with a zero offset added), are equal words exactly when
    the naturals are equal. -/
theorem cmpi_eq_ofNat (p q : ℕ) (hp : p < 2 ^ 31) (hq : q < 2 ^ 31) :
    IntOp.cmpi .eq (IntOp.addi (BitVec.ofNat 32 p) 0#32) (BitVec.ofNat 32 q) = BitVec.ofBool (decide (p = q)) := by
  show BitVec.ofBool (BitVec.ofNat 32 p + 0#32 == BitVec.ofNat 32 q) = _
  refine congrArg BitVec.ofBool ?_
  rw [BitVec.add_zero, Bool.eq_iff_iff, beq_iff_eq, decide_eq_true_iff]
  constructor
  · intro h
    have h' := congrArg BitVec.toNat h
    rw [BitVec.toNat_ofNat, BitVec.toNat_ofNat, Nat.mod_eq_of_lt (by omega), Nat.mod_eq_of_lt (by omega)] at h'
    exact h'
  · intro h; rw [h]

/-- A selection by a decided one-bit word is the `if`. -/
theorem select_ofBool_decide {α : Type} (P : Prop) [Decidable P] (x y : α) :
    Scalar.select (BitVec.ofBool (decide P)) x y = if P then x else y := by
  by_cases hP : P
  · rw [if_pos hP, decide_eq_true hP]; exact select_one x y
  · rw [if_neg hP, decide_eq_false hP]; exact select_zero x y

/-- A decided one-bit word converted to a number, over the extended reals, is one or zero. -/
theorem uitofp_ofBool_decide (φ : FTy) (P : Prop) [Decidable P] :
    (FloatOps.uitofp φ (BitVec.ofBool (decide P)) : Ideal φ) = if P then 1 else 0 := by
  show (((BitVec.ofBool (decide P)).toNat : ℝ) : EReal) = _
  by_cases hP : P
  · rw [if_pos hP, decide_eq_true hP]; simp
  · rw [if_neg hP, decide_eq_false hP]; simp

/-! ## The masks at an index -/

variable {T : Shape}

/-- "Counter along `d0` (plus zero) ≥ counter along `d1`" at an index: one exactly when the `d1` coordinate does not
    exceed the `d0` coordinate. -/
theorem geMask_apply (h : (⟨0, ![]⟩ : Shape).BroadcastsInDim T ![]) (d0 d1 : Fin T.rank)
    (h0 : T.size d0 ≤ 2 ^ 31) (h1 : T.size d1 ≤ 2 ^ 31) (j : T.Idx) :
    cmpi .sge (addi (iotaInDim T 32 d0) (broadcastInDim T ![] h (constantI ⟨0, ![]⟩ 32 0#32))) (iotaInDim T 32 d1) j
      = BitVec.ofBool (decide ((j d1).val ≤ (j d0).val)) := by
  show IntOp.cmpi .sge (IntOp.addi (iotaInDim T 32 d0 j) (broadcastInDim T ![] h (constantI ⟨0, ![]⟩ 32 0#32) j))
    (iotaInDim T 32 d1 j) = _
  rw [broadcastInDim_scalar_apply, constantI_apply, iotaInDim_apply, iotaInDim_apply]
  exact cmpi_sge_ofNat _ _ (by have := (j d0).isLt; omega) (by have := (j d1).isLt; omega)

/-- "Counter along `d0` (plus zero) = counter along `d1`" at an index: one exactly when the two coordinates are equal. -/
theorem eqMask_apply (h : (⟨0, ![]⟩ : Shape).BroadcastsInDim T ![]) (d0 d1 : Fin T.rank)
    (h0 : T.size d0 ≤ 2 ^ 31) (h1 : T.size d1 ≤ 2 ^ 31) (j : T.Idx) :
    cmpi .eq (addi (iotaInDim T 32 d0) (broadcastInDim T ![] h (constantI ⟨0, ![]⟩ 32 0#32))) (iotaInDim T 32 d1) j
      = BitVec.ofBool (decide ((j d0).val = (j d1).val)) := by
  show IntOp.cmpi .eq (IntOp.addi (iotaInDim T 32 d0 j) (broadcastInDim T ![] h (constantI ⟨0, ![]⟩ 32 0#32) j))
    (iotaInDim T 32 d1 j) = _
  rw [broadcastInDim_scalar_apply, constantI_apply, iotaInDim_apply, iotaInDim_apply]
  exact cmpi_eq_ofNat _ _ (by have := (j d0).isLt; omega) (by have := (j d1).isLt; omega)

/-- The lower-triangle mask of a square matrix at `(a, b)`: one exactly when `b ≤ a`. -/
theorem geMask_ix2 {n : ℕ} (hn : n ≤ 2 ^ 31) (h : (⟨0, ![]⟩ : Shape).BroadcastsInDim ⟨2, ![n, n]⟩ ![]) (a b : Fin n) :
    cmpi .sge (addi (iotaInDim ⟨2, ![n, n]⟩ 32 0) (broadcastInDim ⟨2, ![n, n]⟩ ![] h (constantI ⟨0, ![]⟩ 32 0#32)))
      (iotaInDim ⟨2, ![n, n]⟩ 32 1) (ix2 a b) = BitVec.ofBool (decide (b.val ≤ a.val)) :=
  geMask_apply h 0 1 hn hn (ix2 a b)

/-- The diagonal mask of a square matrix at `(a, b)`: one exactly when `a = b`. -/
theorem eqMask_ix2 {n : ℕ} (hn : n ≤ 2 ^ 31) (h : (⟨0, ![]⟩ : Shape).BroadcastsInDim ⟨2, ![n, n]⟩ ![]) (a b : Fin n) :
    cmpi .eq (addi (iotaInDim ⟨2, ![n, n]⟩ 32 0) (broadcastInDim ⟨2, ![n, n]⟩ ![] h (constantI ⟨0, ![]⟩ 32 0#32)))
      (iotaInDim ⟨2, ![n, n]⟩ 32 1) (ix2 a b) = BitVec.ofBool (decide (a.val = b.val)) :=
  eqMask_apply h 0 1 hn hn (ix2 a b)

/-- A mask converted to a number at an index. -/
theorem uitofp_apply {s : Shape} {w : ℕ} (φ : FTy) (x : IVec s w) (i : s.Idx) :
    (uitofp φ x : FVec Ideal s φ) i = FloatOps.uitofp φ (x i) := rfl

/-- The host's absolute value at an index, over the extended reals: the larger of the entry and its negation. -/
theorem hostAbsf_apply {s : Shape} {φ : FTy} (x : FVec Ideal s φ) (i : s.Idx) : Host.absf x i = max (x i) (-(x i)) := rfl

/-! ## Layout of a stack of matrices -/

variable {α : Type}

/-- A matrix `[a, b]` repeated as every member of a stack `[g, a, b]` reads, at `(k, p, q)`, the matrix at `(p, q)`. -/
theorem bcast_ab_gab_apply {g a b : ℕ} (x : (⟨2, ![a, b]⟩ : Shape).Idx → α)
    (h : (⟨2, ![a, b]⟩ : Shape).BroadcastsInDim ⟨3, ![g, a, b]⟩ (![1, 2] : Fin 2 → Fin 3)) (k : Fin g) (p : Fin a) (q : Fin b) :
    broadcastInDim ⟨3, ![g, a, b]⟩ ![1, 2] h x (ix3 k p q) = x (ix2 p q) := by
  refine broadcastInDim_apply _ h x (ix3 k p q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A one-member stack `[1, a, b]` repeated `g` times reads, at `(k, p, q)`, its member at `(p, q)`. -/
theorem bcast_1ab_gab_apply {g a b : ℕ} (x : (⟨3, ![1, a, b]⟩ : Shape).Idx → α)
    (h : (⟨3, ![1, a, b]⟩ : Shape).BroadcastsInDim ⟨3, ![g, a, b]⟩ (![0, 1, 2] : Fin 3 → Fin 3)) (k : Fin g) (p : Fin a) (q : Fin b) :
    broadcastInDim ⟨3, ![g, a, b]⟩ ![0, 1, 2] h x (ix3 k p q) = x (ix3 (0 : Fin 1) p q) := by
  refine broadcastInDim_apply _ h x (ix3 k p q) (ix3 (0 : Fin 1) p q) fun ax => ?_
  match ax with
  | ⟨0, _⟩ => rfl
  | ⟨1, _⟩ =>
    show p.val = if a = 1 then 0 else p.val
    split
    · have := p.isLt; omega
    · rfl
  | ⟨2, _⟩ =>
    show q.val = if b = 1 then 0 else q.val
    split
    · have := q.isLt; omega
    · rfl

/-- A stack of vectors `[g, a]` stood up as a stack of columns `[g, a, 1]` reads, at `(k, p, u)`, the vector entry
    `(k, p)`. -/
theorem bcast_ga_ga1_apply {g a : ℕ} (x : (⟨2, ![g, a]⟩ : Shape).Idx → α)
    (h : (⟨2, ![g, a]⟩ : Shape).BroadcastsInDim ⟨3, ![g, a, 1]⟩ (![0, 1] : Fin 2 → Fin 3)) (k : Fin g) (p : Fin a) (u : Fin 1) :
    broadcastInDim ⟨3, ![g, a, 1]⟩ ![0, 1] h x (ix3 k p u) = x (ix2 k p) := by
  refine broadcastInDim_apply _ h x (ix3 k p u) (ix2 k p) fun ax => ?_
  match ax with
  | ⟨0, _⟩ =>
    show k.val = if g = 1 then 0 else k.val
    split
    · have := k.isLt; omega
    · rfl
  | ⟨1, _⟩ =>
    show p.val = if a = 1 then 0 else p.val
    split
    · have := p.isLt; omega
    · rfl

/-- A stack of columns `[g, a, 1]` repeated along `b` columns reads, at `(k, p, q)`, the column entry `(k, p, 0)`. -/
theorem bcast_ga1_gab_apply {g a b : ℕ} (x : (⟨3, ![g, a, 1]⟩ : Shape).Idx → α)
    (h : (⟨3, ![g, a, 1]⟩ : Shape).BroadcastsInDim ⟨3, ![g, a, b]⟩ (![0, 1, 2] : Fin 3 → Fin 3)) (k : Fin g) (p : Fin a) (q : Fin b) :
    broadcastInDim ⟨3, ![g, a, b]⟩ ![0, 1, 2] h x (ix3 k p q) = x (ix3 k p (0 : Fin 1)) := by
  refine broadcastInDim_apply _ h x (ix3 k p q) (ix3 k p (0 : Fin 1)) fun ax => ?_
  match ax with
  | ⟨0, _⟩ =>
    show k.val = if g = 1 then 0 else k.val
    split
    · have := k.isLt; omega
    · rfl
  | ⟨1, _⟩ =>
    show p.val = if a = 1 then 0 else p.val
    split
    · have := p.isLt; omega
    · rfl
  | ⟨2, _⟩ => rfl

/-- A matrix `[a, b]` laid as the one-member stack `[1, a, b]` (by a broadcast that names the axes) reads, at
    `(u, p, q)`, the matrix at `(p, q)`. -/
theorem bcast_ab_1ab_apply {a b : ℕ} (x : (⟨2, ![a, b]⟩ : Shape).Idx → α)
    (h : (⟨2, ![a, b]⟩ : Shape).BroadcastsInDim ⟨3, ![1, a, b]⟩ (![1, 2] : Fin 2 → Fin 3)) (u : Fin 1) (p : Fin a) (q : Fin b) :
    broadcastInDim ⟨3, ![1, a, b]⟩ ![1, 2] h x (ix3 u p q) = x (ix2 p q) :=
  bcast_ab_gab_apply x h u p q

/-- Column `o` cut out of a stack `[g, a, n]` as `[g, a, 1]` and flattened to `[g, a]` reads, at `(k, p)`, the stack at
    `(k, p, o)`. -/
theorem column_apply {g a n : ℕ} (o : ℕ) (X : (⟨3, ![g, a, n]⟩ : Shape).Idx → α)
    (h : (⟨3, ![g, a, n]⟩ : Shape).Slices ![0, 0, o] ⟨3, ![g, a, 1]⟩)
    (hc : (⟨3, ![g, a, 1]⟩ : Shape).ShapeCasts ⟨2, ![g, a]⟩) (k : Fin g) (p : Fin a) (q : Fin n) (hq : q.val = o) :
    shapeCast ⟨2, ![g, a]⟩ (extractStridedSlice ⟨3, ![g, a, 1]⟩ ![0, 0, o] X h) hc (ix2 k p) = X (ix3 k p q) := by
  refine (shapeCast_apply _ hc (ix2 k p) (ix3 k p (0 : Fin 1)) ?_).trans ?_
  · rw [Shape.rowMajor_val_three, Shape.rowMajor_val_two]
    show (k.val * a + p.val) * 1 + 0 = k.val * a + p.val
    omega
  · exact extractStridedSlice_apply _ _ _ _ _ (fun ax => by
      match ax with
      | ⟨0, _⟩ => exact (Nat.zero_add _).symm
      | ⟨1, _⟩ => exact (Nat.zero_add _).symm
      | ⟨2, _⟩ =>
        show q.val = o + 0
        omega)

/-- The first `n'` columns cut out of a stack `[g, a, n]` read, at `(k, p, q)`, the stack at `(k, p, q)`. -/
theorem leadingColumns_apply {g a n n' : ℕ} (X : (⟨3, ![g, a, n]⟩ : Shape).Idx → α)
    (h : (⟨3, ![g, a, n]⟩ : Shape).Slices ![0, 0, 0] ⟨3, ![g, a, n']⟩) (k : Fin g) (p : Fin a) (q : Fin n') (q' : Fin n)
    (hq : q'.val = q.val) :
    extractStridedSlice ⟨3, ![g, a, n']⟩ ![0, 0, 0] X h (ix3 k p q) = X (ix3 k p q') :=
  extractStridedSlice_apply _ _ _ _ _ (fun ax => by
    match ax with
    | ⟨0, _⟩ => exact (Nat.zero_add _).symm
    | ⟨1, _⟩ => exact (Nat.zero_add _).symm
    | ⟨2, _⟩ =>
      show q'.val = 0 + q.val
      omega)

/-! ## Single matrices: columns, a vector stood up, and a padding by nothing -/

/-- A vector `[a]` cast to the column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Column `o` cut out of a matrix `[a, n]` as `[a, 1]` and flattened to `[a]` reads, at `p`, the matrix at `(p, o)`. -/
theorem column2_apply {a n : ℕ} (o : ℕ) (X : (⟨2, ![a, n]⟩ : Shape).Idx → α)
    (h : (⟨2, ![a, n]⟩ : Shape).Slices ![0, o] ⟨2, ![a, 1]⟩)
    (hc : (⟨2, ![a, 1]⟩ : Shape).ShapeCasts ⟨1, ![a]⟩) (p : Fin a) (q : Fin n) (hq : q.val = o) :
    shapeCast ⟨1, ![a]⟩ (extractStridedSlice ⟨2, ![a, 1]⟩ ![0, o] X h) hc (ix1 p) = X (ix2 p q) := by
  refine (shapeCast_apply _ hc (ix1 p) (ix2 p (0 : Fin 1)) ?_).trans ?_
  · rw [Shape.rowMajor_val_two, Shape.rowMajor_val_one]
    show p.val * 1 + 0 = p.val
    omega
  · exact extractStridedSlice_apply _ _ _ _ _ (fun ax => by
      match ax with
      | ⟨0, _⟩ => exact (Nat.zero_add _).symm
      | ⟨1, _⟩ =>
        show q.val = o + 0
        omega)

/-- The first `n'` columns cut out of a matrix `[a, n]` read, at `(p, q)`, the matrix at `(p, q)`. -/
theorem leadingColumns2_apply {a n n' : ℕ} (X : (⟨2, ![a, n]⟩ : Shape).Idx → α)
    (h : (⟨2, ![a, n]⟩ : Shape).Slices ![0, 0] ⟨2, ![a, n']⟩) (p : Fin a) (q : Fin n') (q' : Fin n)
    (hq : q'.val = q.val) :
    extractStridedSlice ⟨2, ![a, n']⟩ ![0, 0] X h (ix2 p q) = X (ix2 p q') :=
  extractStridedSlice_apply _ _ _ _ _ (fun ax => by
    match ax with
    | ⟨0, _⟩ => exact (Nat.zero_add _).symm
    | ⟨1, _⟩ =>
      show q'.val = 0 + q.val
      omega)

/-- A vector padded by nothing (no low, high or interior padding) is the vector. -/
theorem pad_none_apply {n : ℕ} (x : (⟨1, ![n]⟩ : Shape).Idx → α) {u : Shape} (v : u.Idx → α)
    (h : (⟨1, ![n]⟩ : Shape).Pads ![0] ![0] ![0] ⟨1, ![n]⟩) (hu : 0 < u.numel) (p : Fin n) :
    pad ⟨1, ![n]⟩ ![0] ![0] ![0] x v h hu (ix1 p) = x (ix1 p) :=
  pad_apply_of_inside _ _ _ x v h hu _ (ix1 p) (fun ax => by
    match ax with
    | ⟨0, _⟩ =>
      show p.val = 0 + p.val * (0 + 1)
      omega)

/-! ## The host's sum over the last axis of a stack -/

/-- The host's sum over the last axis of a stack `[g, a, b]`, from an initial value that is zero, read at `(k, p)`: the
    sum of that row. -/
theorem hostLastSum_apply {g a b : ℕ} {u : Shape} (x : FVec Ideal ⟨3, ![g, a, b]⟩ .f32) (init : u.Idx → Ideal .f32)
    (h' : (⟨3, ![g, a, b]⟩ : Shape).ReducesTo [2] ⟨2, ![g, a]⟩) (hu : 0 < u.numel) (h0 : init (Shape.Idx.first hu) = 0)
    (k : Fin g) (p : Fin a) : Host.reduceAdd x init h' hu (ix2 k p) = ∑ q : Fin b, x (ix3 k p q) := by
  have h : (⟨3, ![g, a, b]⟩ : Shape).Reduces [2] ⟨2, ![g, a]⟩ := ⟨h'.1, Nat.two_pos, h'.2⟩
  show Ideal.hostReduceAdd h' x _ (ix2 k p) = _
  rw [Ideal.hostReduceAdd_single h' h, h0, zero_add]
  exact Finset.sum_congr rfl fun q _ => congrArg x (funext fun ax => Fin.ext (by
    match ax with
    | ⟨0, _⟩ => rfl
    | ⟨1, _⟩ => rfl
    | ⟨2, _⟩ => rfl))

/-! ## Arithmetic with a zero-or-one factor -/

/-- A number times "one if `P` else zero" is the number if `P` and zero otherwise, for every extended real. -/
theorem mul_ite_one_zero (x : EReal) (P : Prop) [Decidable P] : x * (if P then 1 else 0) = if P then x else 0 := by
  by_cases hP : P
  · rw [if_pos hP, if_pos hP, mul_one]
  · rw [if_neg hP, if_neg hP, mul_zero]

end Idealize.ShloMosaic.Triangle

end
-- ==== Proof.LibHostLayout.lean ====
/-
  Host-side layout operations and two host operations read at an index, over arrays of any extents: a vector laid as a
  single row, a single row repeated down the rows, a vector stood up as a column, a column repeated along the columns
  (each a broadcast that names which axes of the result the operand's axes become), one member cut out of a stack of
  matrices, the host's square root of an entry, and the host's sum over the entries of each row from an initial value
  that is zero, which over the extended reals is the sum of the row. Each lemma says which single entry (or which row)
  of the operand an entry of the result reads.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Idealize.ShloMosaic.HostLayout

open Idealize.ShloMosaic Idealize.ShloMosaic.ValueIdx

variable {α : Type}

/-- A vector `[b]` laid as the single row `[1, b]` reads, at `(u, j)`, the vector at `j`. -/
theorem bcast_b_1b_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The single row `[1, b]` repeated down `a` rows reads, at `(p, j)`, the row at `j`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (j : Fin b) :
    broadcastInDim ⟨2, ![a, b]⟩ ![0, 1] h x (ix2 p j) = x (ix2 (0 : Fin 1) j) := by
  refine broadcastInDim_apply _ h x (ix2 p j) (ix2 (0 : Fin 1) j) fun ax => ?_
  match ax with
  | ⟨0, _⟩ => rfl
  | ⟨1, _⟩ =>
    show j.val = if b = 1 then 0 else j.val
    split
    · have := j.isLt; omega
    · rfl

/-- A vector `[a]` stood up as the column `[a, 1]` reads, at `(p, u)`, the vector at `p`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` repeated along `b` columns reads, at `(p, j)`, the column's entry of row `p`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (j : Fin b) :
    broadcastInDim ⟨2, ![a, b]⟩ ![0, 1] h x (ix2 p j) = x (ix2 p (0 : Fin 1)) := by
  refine broadcastInDim_apply _ h x (ix2 p j) (ix2 p (0 : Fin 1)) fun ax => ?_
  match ax with
  | ⟨0, _⟩ =>
    show p.val = if a = 1 then 0 else p.val
    split
    · have := p.isLt; omega
    · rfl
  | ⟨1, _⟩ => rfl

/-- Member `o` cut out of a stack `[n0, n1, n2]` reads, at `(u, p, q)`, the stack at `(o, p, q)`. -/
theorem slice3_axis0_apply {n0 n1 n2 : ℕ} (o : ℕ) (X : (⟨3, ![n0, n1, n2]⟩ : Shape).Idx → α)
    (h : (⟨3, ![n0, n1, n2]⟩ : Shape).Slices ![o, 0, 0] ⟨3, ![1, n1, n2]⟩)
    (u : Fin 1) (p : Fin n1) (q : Fin n2) (k : Fin n0) (hk : k.val = o) :
    extractStridedSlice ⟨3, ![1, n1, n2]⟩ ![o, 0, 0] X h (ix3 u p q) = X (ix3 k p q) :=
  extractStridedSlice_apply _ _ _ _ _ (fun ax => by
    match ax with
    | ⟨0, _⟩ =>
      show k.val = o + u.val
      have := u.isLt; omega
    | ⟨1, _⟩ => exact (Nat.zero_add _).symm
    | ⟨2, _⟩ => exact (Nat.zero_add _).symm)

/-- The host's square root at an index is the square root of the entry. -/
theorem hostSqrt_apply {s : Shape} {φ : FTy} (x : FVec Ideal s φ) (i : s.Idx) : Host.sqrt x i = Ideal.sqrt (x i) := rfl

/-- The host's sum over the rows' entries, from an initial value that is zero, read at row `p`: the sum of the row. -/
theorem hostRowSum_apply {a b : ℕ} {u : Shape} (x : FVec Ideal ⟨2, ![a, b]⟩ .f32) (init : u.Idx → Ideal .f32)
    (h' : (⟨2, ![a, b]⟩ : Shape).ReducesTo [1] ⟨1, ![a]⟩) (hu : 0 < u.numel) (h0 : init (Shape.Idx.first hu) = 0)
    (p : Fin a) : Host.reduceAdd x init h' hu (ix1 p) = ∑ k : Fin b, x (ix2 p k) := by
  have h : (⟨2, ![a, b]⟩ : Shape).Reduces [1] ⟨1, ![a]⟩ := ⟨h'.1, Nat.one_pos, h'.2⟩
  show Ideal.hostReduceAdd h' x _ (ix1 p) = _
  rw [Ideal.hostReduceAdd_single h' h, h0, zero_add]
  exact Finset.sum_congr rfl fun k _ => congrArg x (funext fun ax => Fin.ext (by
    match ax with
    | ⟨0, _⟩ => rfl
    | ⟨1, _⟩ => rfl))

end Idealize.ShloMosaic.HostLayout

end
-- ==== Proof.KerHost.lean ====
/-
  What the kernel's program computes on the host before its one region, read entry by entry over the extended reals.

  Before the region the program computes, from the edge list, one aggregation coefficient per node (`coefK`, kept as the
  composition of the program's own operations), builds the four step matrices at once as a stack of four `128 × 128`
  matrices, and lays three bias and scale vectors out as one-row or one-column matrices. The stack is built from the raw
  `4 × 128 × 130` block: the strict upper triangle of the first 128 columns (entries whose column does not exceed the row
  replaced by zero), plus its transpose, plus, on the diagonal, column 128 times the row sum of absolute values plus
  column 129 — the diagonal arriving as that value times an indicator matrix that is one on the diagonal and zero off it.
  Each entry of what the region finds is the corresponding entry of the specification's matrices.
-/
import proofs.«110196_j66305705116250_1_alg».proof.Proof.Gen.KernelIdeal.Frame
import proofs.«110196_j66305705116250_1_alg».proof.Proof.Spec
import proofs.«110196_j66305705116250_1_alg».proof.Proof.LibTriangle
import proofs.«110196_j66305705116250_1_alg».proof.Proof.LibHostLayout

set_option maxRecDepth 16384

noncomputable section

namespace Cert.Gnn.KerHost

open Cert.KernelIdeal Cert.KernelIdeal.Gen Idealize.ShloMosaic Idealize.ShloMosaic.ValueIdx Idealize.ShloMosaic.TcCoe
open Idealize.ShloMosaic.Triangle Idealize.ShloMosaic.HostLayout

/-! ## The coefficient vector, as the program composes it -/

/-- An index vector with its negative entries moved up by the number of nodes, stood up as a column of start indices. -/
def wrapK (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- Row `o` of the edge list as a vector. -/
def rowK (E : IVec S2x1600000 32) (o : ℕ) (h : S2x1600000.Slices ![o, 0] S1x1600000) : IVec S1600000 32 :=
  shapeCast S1600000 (extractStridedSlice S1x1600000 ![o, 0] E h) shapeCasts_S1x1600000_S1600000

/-- The zero vector over the nodes. -/
def zerosK : FVec Ideal S100000 .f32 := broadcastInDim S100000 ![] bcast_S_S100000 (constant (F := Ideal) S_ .f32 0x00000000#32)

/-- Each node's count of edges leaving it. -/
def degK (E : IVec S2x1600000 32) : FVec Ideal S100000 .f32 :=
  Host.scatterAdd scatter_S100000_S1600000x1_S1600000_n_0_0_1 zerosK (wrapK (rowK E 0 slices_S2x1600000_S1x1600000_0_0))
    (broadcastInDim S1600000 ![] bcast_S_S1600000 (constant (F := Ideal) S_ .f32 0x3F800000#32))

/-- The program's first selection, as its called function spells it: where the condition holds the entry of `x`, elsewhere
    the scalar `s`. The contents pass between each value's type and its buffer's type, which are the same type. -/
def where0 (cnd : IVec S100000 1) (x : FVec Ideal S100000 .f32) (s : FVec Ideal S_ .f32) : FVec Ideal S100000 .f32 :=
  (StableHlo.TRef.of main_v15 : StableHlo.TRef sig ⟨S100000, .f32⟩).toBuf (Val := Elt Ideal)
    (select ((StableHlo.TRef.of main_v14 : StableHlo.TRef sig ⟨S100000, .i1⟩).ofBuf (Val := Elt Ideal) cnd)
      ((StableHlo.TRef.of main_v12 : StableHlo.TRef sig ⟨S100000, .f32⟩).ofBuf (Val := Elt Ideal) x)
      ((StableHlo.TRef.of main_call0_v0 : StableHlo.TRef sig ⟨S100000, .f32⟩).ofBuf (Val := Elt Ideal)
        ((StableHlo.TRef.of main_call0_v0 : StableHlo.TRef sig ⟨S100000, .f32⟩).toBuf (Val := Elt Ideal)
          (broadcastInDim S100000 ![] bcast_S_S100000
            ((StableHlo.TRef.of main_cst_3 : StableHlo.TRef sig ⟨S_, .f32⟩).ofBuf (Val := Elt Ideal) s)))))

/-- The program's second selection, likewise. -/
def where1 (cnd : IVec S100000 1) (x : FVec Ideal S100000 .f32) (s : FVec Ideal S_ .f32) : FVec Ideal S100000 .f32 :=
  (StableHlo.TRef.of main_v20 : StableHlo.TRef sig ⟨S100000, .f32⟩).toBuf (Val := Elt Ideal)
    (select ((StableHlo.TRef.of main_v17 : StableHlo.TRef sig ⟨S100000, .i1⟩).ofBuf (Val := Elt Ideal) cnd)
      ((StableHlo.TRef.of main_v19 : StableHlo.TRef sig ⟨S100000, .f32⟩).ofBuf (Val := Elt Ideal) x)
      ((StableHlo.TRef.of main_call1_v0 : StableHlo.TRef sig ⟨S100000, .f32⟩).ofBuf (Val := Elt Ideal)
        ((StableHlo.TRef.of main_call1_v0 : StableHlo.TRef sig ⟨S100000, .f32⟩).toBuf (Val := Elt Ideal)
          (broadcastInDim S100000 ![] bcast_S_S100000
            ((StableHlo.TRef.of main_cst_6 : StableHlo.TRef sig ⟨S_, .f32⟩).ofBuf (Val := Elt Ideal) s)))))

/-- The first selection is the plain one. -/
theorem where0_eq (cnd : IVec S100000 1) (x : FVec Ideal S100000 .f32) (s : FVec Ideal S_ .f32) :
    where0 cnd x s = select cnd x (broadcastInDim S100000 ![] bcast_S_S100000 s) := rfl

/-- The second selection is the plain one. -/
theorem where1_eq (cnd : IVec S100000 1) (x : FVec Ideal S100000 .f32) (s : FVec Ideal S_ .f32) :
    where1 cnd x s = select cnd x (broadcastInDim S100000 ![] bcast_S_S100000 s) := rfl

/-- The count to the power minus one half where the count is positive, zero elsewhere. -/
def dinvK (E : IVec S2x1600000 32) : FVec Ideal S100000 .f32 :=
  where1 (cmpf .ogt (degK E) zerosK)
    (Host.powf
      (where0 (cmpf .ogt (degK E) zerosK) (degK E) (constant (F := Ideal) S_ .f32 0x3F800000#32))
      (broadcastInDim S100000 ![] bcast_S_S100000 (constant (F := Ideal) S_ .f32 0xBF000000#32)))
    (constant (F := Ideal) S_ .f32 0x00000000#32)

/-- The same with the two selections written plainly. -/
theorem dinvK_plain (E : IVec S2x1600000 32) : dinvK E =
    select (cmpf .ogt (degK E) zerosK)
      (Host.powf
        (select (cmpf .ogt (degK E) zerosK) (degK E)
          (broadcastInDim S100000 ![] bcast_S_S100000 (constant (F := Ideal) S_ .f32 0x3F800000#32)))
        (broadcastInDim S100000 ![] bcast_S_S100000 (constant (F := Ideal) S_ .f32 0xBF000000#32)))
      (broadcastInDim S100000 ![] bcast_S_S100000 (constant (F := Ideal) S_ .f32 0x00000000#32)) := by
  unfold dinvK
  rw [where1_eq, where0_eq]

/-- The coefficient vector: the program's operations `%0 … %43` composed. Per node, the sum over the edges entering
    it of the product of the two end nodes' scaled counts. -/
def coefK (E : IVec S2x1600000 32) : FVec Ideal S100000 .f32 :=
  Host.scatterAdd scatter_S100000_S1600000x1_S1600000_n_0_0_1 zerosK (wrapK (rowK E 1 slices_S2x1600000_S1x1600000_1_0))
    (mulf
      (Host.gather gather_S100000_S1600000x1_S1600000_n_0_n_n_0_1_1 (dinvK E) (wrapK (rowK E 0 slices_S2x1600000_S1x1600000_0_0)))
      (Host.gather gather_S100000_S1600000x1_S1600000_n_0_n_n_0_1_1 (dinvK E) (wrapK (rowK E 1 slices_S2x1600000_S1x1600000_1_0))))

/-! ## The stack of step matrices, as the program composes it -/

/-- The mask of the lower triangle with the diagonal: one where the column does not exceed the row. -/
def geMask : IVec S128x128 1 :=
  cmpi .sge (addi (iotaInDim S128x128 32 0) (broadcastInDim S128x128 ![] bcast_S_S128x128 (constantI S_ 32 0#32))) (iotaInDim S128x128 32 1)

/-- The mask of the diagonal. -/
def eqMask : IVec S128x128 1 :=
  cmpi .eq (addi (iotaInDim S128x128 32 0) (broadcastInDim S128x128 ![] bcast_S_S128x128 (constantI S_ 32 0#32))) (iotaInDim S128x128 32 1)

/-- Every member of a stack with its lower triangle and diagonal replaced by zero. -/
def triuK (X : FVec Ideal S4x128x128 .f32) : FVec Ideal S4x128x128 .f32 :=
  select (broadcastInDim S4x128x128 ![1, 2] bcast_S128x128_S4x128x128_1_2 geMask)
    (broadcastInDim S4x128x128 ![] bcast_S_S4x128x128 (constant (F := Ideal) S_ .f32 0x00000000#32)) X

/-- The strict upper triangles of the blocks' first 128 columns, plus their transposes. -/
def symK (WR : FVec Ideal S4x128x130 .f32) : FVec Ideal S4x128x128 .f32 :=
  addf (triuK (extractStridedSlice S4x128x128 ![0, 0, 0] WR slices_S4x128x130_S4x128x128_0_0_0))
    (transpose S4x128x128 [0, 2, 1] (triuK (extractStridedSlice S4x128x128 ![0, 0, 0] WR slices_S4x128x130_S4x128x128_0_0_0)) transposes_S4x128x128_S4x128x128_0_2_1)

/-- Column `o` of every block, as a `4 × 128` matrix. -/
def colK (WR : FVec Ideal S4x128x130 .f32) (o : ℕ) (h : S4x128x130.Slices ![0, 0, o] S4x128x1) : FVec Ideal S4x128 .f32 :=
  shapeCast S4x128 (extractStridedSlice S4x128x1 ![0, 0, o] WR h) shapeCasts_S4x128x1_S4x128

/-- The diagonal entries: column 128 times the row sums of absolute values, plus column 129. -/
def diagK (WR : FVec Ideal S4x128x130 .f32) : FVec Ideal S4x128 .f32 :=
  addf (mulf (colK WR 128 slices_S4x128x130_S4x128x1_0_0_128)
      (Host.reduceAdd (Host.absf (symK WR)) (constant (F := Ideal) S_ .f32 0x00000000#32) reducesTo_S4x128x128_S4x128_d2 h_S_))
    (colK WR 129 slices_S4x128x130_S4x128x1_0_0_129)

/-- The indicator of the diagonal as a stack of four equal matrices of ones and zeros. -/
def eyeK : FVec Ideal S4x128x128 .f32 :=
  broadcastInDim S4x128x128 ![0, 1, 2] bcast_S1x128x128_S4x128x128_0_1_2
    (broadcastInDim S1x128x128 ![1, 2] bcast_S128x128_S1x128x128_1_2 (uitofp .f32 eqMask))

/-- The stack of step matrices: the program's operations `%45 … %68` composed. -/
def weffK (WR : FVec Ideal S4x128x130 .f32) : FVec Ideal S4x128x128 .f32 :=
  addf (symK WR)
    (mulf (broadcastInDim S4x128x128 ![0, 1, 2] bcast_S4x128x1_S4x128x128_0_1_2
        (broadcastInDim S4x128x1 ![0, 1] bcast_S4x128_S4x128x1_0_1 (diagK WR))) eyeK)

/-! ## The composed terms read at an index -/

/-- The raw blocks as a family of extended reals. -/
abbrev fam (WR : FVec Ideal S4x128x130 .f32) : Fin 4 → Fin 128 → Fin 130 → EReal := fun l a b => WR (ix3 l a b)

theorem triuK_apply (X : FVec Ideal S4x128x128 .f32) (l : Fin 4) (a b : Fin 128) :
    triuK X (ix3 l a b) = if b.val ≤ a.val then 0 else X (ix3 l a b) := by
  unfold triuK
  rw [select_apply, bcast_ab_gab_apply, broadcastInDim_scalar_apply, constant_apply, Ideal.ofBits_zero_f32]
  unfold geMask
  rw [geMask_ix2 (by norm_num)]
  exact select_ofBool_decide _ _ _

theorem up_apply (WR : FVec Ideal S4x128x130 .f32) (l : Fin 4) (a b : Fin 128) :
    triuK (extractStridedSlice S4x128x128 ![0, 0, 0] WR slices_S4x128x130_S4x128x128_0_0_0) (ix3 l a b)
      = Cert.Gnn.Spec.up (fam WR) l a b := by
  rw [triuK_apply]
  unfold Cert.Gnn.Spec.up
  refine congrArg (fun z => if b.val ≤ a.val then (0 : EReal) else z) ?_
  exact leadingColumns_apply WR _ l a b ⟨b.val, by have := b.isLt; omega⟩ rfl

theorem symK_apply (WR : FVec Ideal S4x128x130 .f32) (l : Fin 4) (a b : Fin 128) :
    symK WR (ix3 l a b) = Cert.Gnn.Spec.sym (fam WR) l a b := by
  unfold symK Cert.Gnn.Spec.sym
  rw [addf_apply, transpose_ix3_021_apply, up_apply, up_apply]

theorem diagK_apply (WR : FVec Ideal S4x128x130 .f32) (l : Fin 4) (a : Fin 128) :
    diagK WR (ix2 l a) = Cert.Gnn.Spec.diagv (fam WR) l a := by
  unfold diagK Cert.Gnn.Spec.diagv colK
  rw [addf_apply, mulf_apply, column_apply 128 WR _ _ l a ⟨128, by norm_num⟩ rfl,
    column_apply 129 WR _ _ l a ⟨129, by norm_num⟩ rfl,
    hostLastSum_apply _ _ _ _ (by rw [constant_apply]; exact Ideal.ofBits_zero_f32)]
  refine congrArg (fun z => WR (ix3 l a ⟨128, by norm_num⟩) * z + WR (ix3 l a ⟨129, by norm_num⟩)) ?_
  exact Finset.sum_congr rfl fun q _ => by rw [hostAbsf_apply, symK_apply]

theorem eyeK_apply (l : Fin 4) (a b : Fin 128) : eyeK (ix3 l a b) = if a = b then 1 else 0 := by
  unfold eyeK
  rw [bcast_1ab_gab_apply, bcast_ab_1ab_apply, uitofp_apply]
  unfold eqMask
  rw [eqMask_ix2 (by norm_num), uitofp_ofBool_decide]
  by_cases h : a = b
  · rw [if_pos h, if_pos (congrArg Fin.val h)]
  · rw [if_neg h, if_neg (fun hv => h (Fin.ext hv))]

/-- Entry `(l, a, b)` of the composed stack is the specification's step matrix of layer `l` at `(a, b)`. -/
theorem weffK_apply (WR : FVec Ideal S4x128x130 .f32) (l : Fin 4) (a b : Fin 128) :
    weffK WR (ix3 l a b) = Cert.Gnn.Spec.weff (fam WR) l a b := by
  unfold weffK Cert.Gnn.Spec.weff
  rw [addf_apply, mulf_apply, bcast_ga1_gab_apply, bcast_ga_ga1_apply, symK_apply, diagK_apply, eyeK_apply,
    mul_ite_one_zero]

/-! ## What the region finds -/

variable (m : (ℓ : Loc nD τ sig) → Buf (Elt Ideal) ℓ) (c : Dev nD)

set_option maxHeartbeats 4000000 in
/-- The region finds the composed stack of step matrices. -/
theorem V68_eq : (V m c main_v68 : S4x128x128.Idx → EReal) = weffK (m ((c : Thread nD τ).loc main_arg4)) := by
  dsimp only [V]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 4000000 in
/-- The region finds the composed coefficient vector stood up as a column. -/
theorem V44_eq : (V m c main_v44 : S100000x1.Idx → EReal)
    = shapeCast S100000x1 (coefK (m ((c : Thread nD τ).loc main_arg1))) shapeCasts_S100000_S100000x1 := by
  dsimp only [V]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 4000000 in
/-- The region finds the encoder's bias laid as one row. -/
theorem V69_eq : (V m c main_v69 : S1x128.Idx → EReal)
    = shapeCast S1x128 (m ((c : Thread nD τ).loc main_arg3)) shapeCasts_S128_S1x128 := by
  dsimp only [V]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 4000000 in
/-- The region finds the decoder's bias laid as one row. -/
theorem V70_eq : (V m c main_v70 : S1x40.Idx → EReal)
    = shapeCast S1x40 (m ((c : Thread nD τ).loc main_arg9)) shapeCasts_S40_S1x40 := by
  dsimp only [V]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 4000000 in
/-- The region finds the four layer scales stood up as one column. -/
theorem V71_eq : (V m c main_v71 : S4x1.Idx → EReal)
    = shapeCast S4x1 (m ((c : Thread nD τ).loc main_arg7)) shapeCasts_S4_S4x1 := by
  dsimp only [V]
  simp only [hostOps0, hostOps0_1, hostOps0_2, hostOps0_3, hostOps0_4, hostOps0_5, hostOps0_6, List.flatten_cons, List.flatten_nil, List.append_nil, List.cons_append, List.nil_append]
  after_results_simp
  rfl

/-- The coefficient column the region finds holds, in row `R`, node `R`'s coefficient. -/
theorem V_coef (R : Fin 100000) (u : Fin 1) :
    V m c main_v44 (ix2 R u) = coefK (m ((c : Thread nD τ).loc main_arg1)) (ix1 R) := by
  have e := congrFun (V44_eq m c) (ix2 R u)
  exact e.trans (shapeCast_a_a1_apply _ _ R u)

/-- The stack the region finds holds, at `(l, a, b)`, the specification's step matrix of layer `l` at `(a, b)`. -/
theorem V_weff (l : Fin 4) (a b : Fin 128) :
    V m c main_v68 (ix3 l a b)
      = Cert.Gnn.Spec.weff (fun l a b => m ((c : Thread nD τ).loc main_arg4) (ix3 l a b)) l a b := by
  have e := congrFun (V68_eq m c) (ix3 l a b)
  exact e.trans (weffK_apply _ l a b)

/-- The encoder's bias row the region finds. -/
theorem V_encb (u : Fin 1) (a : Fin 128) : V m c main_v69 (ix2 u a) = m ((c : Thread nD τ).loc main_arg3) (ix1 a) := by
  have e := congrFun (V69_eq m c) (ix2 u a)
  exact e.trans (shapeCast_a_1a_apply _ _ u a)

/-- The decoder's bias row the region finds. -/
theorem V_decb (u : Fin 1) (a : Fin 40) : V m c main_v70 (ix2 u a) = m ((c : Thread nD τ).loc main_arg9) (ix1 a) := by
  have e := congrFun (V70_eq m c) (ix2 u a)
  exact e.trans (shapeCast_a_1a_apply _ _ u a)

/-- The layer scales' column the region finds. -/
theorem V_beta (l : Fin 4) (u : Fin 1) : V m c main_v71 (ix2 l u) = m ((c : Thread nD τ).loc main_arg7) (ix1 l) := by
  have e := congrFun (V71_eq m c) (ix2 l u)
  exact e.trans (shapeCast_a_a1_apply _ _ l u)

end Cert.Gnn.KerHost

end
-- ==== Proof.RefTerms.lean ====
/-
  The reference program's result as one term of its ten arguments, over the extended reals.

  The program is a straight line of array operations. Its stretches compose to: the aggregation coefficient of every
  node from the edge table (two scatter-adds: the in-degree, then the sum over edges of the product of the two endpoints'
  inverse square-root degrees); the encoded rows (a matrix product and a bias); per layer the step matrix from its raw
  block (strict upper triangle, made symmetric, plus a diagonal) and the update step; the decoded rows. Each definition
  below is the whole-array term its stretch computes, written with the program's own operations.
-/
import proofs.«110196_j66305705116250_1_alg».proof.Proof.Gen.ReferenceIdeal
import Idealize.ShloMosaic.PureOps.Ideal

noncomputable section

namespace Cert.Gnn.RefTerms

open Cert.ReferenceIdeal Cert.ReferenceIdeal.Gen Idealize.ShloMosaic

/-! ## The aggregation coefficient -/

/-- Row 0 of the edge table: each edge's first endpoint. -/
def src (E : IVec S2x1600000 32) : IVec S1600000 32 :=
  shapeCast S1600000 (extractStridedSlice S1x1600000 ![0, 0] E slices_S2x1600000_S1x1600000_0_0) shapeCasts_S1x1600000_S1600000

/-- Row 1 of the edge table: each edge's second endpoint. -/
def dst (E : IVec S2x1600000 32) : IVec S1600000 32 :=
  shapeCast S1600000 (extractStridedSlice S1x1600000 ![1, 0] E slices_S2x1600000_S1x1600000_1_0) shapeCasts_S1x1600000_S1600000

/-- A list of node numbers with the negative ones counted from the end (i + 100000 where i < 0), as a column of
    one-entry index vectors. -/
def wrap (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- The all-zero vector over the nodes. -/
def zeros : FVec Ideal S100000 .f32 :=
  broadcastInDim S100000 ![] bcast_S_S100000 (constant (F := Ideal) S_ .f32 0x00000000#32)

/-- Every node's count of edges whose first endpoint it is: ones scattered and added at the first endpoints. -/
def deg (E : IVec S2x1600000 32) : FVec Ideal S100000 .f32 :=
  Host.scatterAdd (F := Ideal) scatter_S100000_S1600000x1_S1600000_n_0_0_1 zeros (wrap (src E))
    (broadcastInDim S1600000 ![] bcast_S_S1600000 (constant (F := Ideal) S_ .f32 0x3F800000#32))

/-- The count to the power -1/2 where the count is positive (the power taken of 1 elsewhere), and 0 elsewhere. -/
def dinv (E : IVec S2x1600000 32) : FVec Ideal S100000 .f32 :=
  select (cmpf .ogt (deg E) zeros)
    (Host.powf (F := Ideal)
      (select (cmpf .ogt (deg E) zeros) (deg E)
        (broadcastInDim S100000 ![] bcast_S_S100000 (constant (F := Ideal) S_ .f32 0x3F800000#32)))
      (broadcastInDim S100000 ![] bcast_S_S100000 (constant (F := Ideal) S_ .f32 0xBF000000#32)))
    (broadcastInDim S100000 ![] bcast_S_S100000 (constant (F := Ideal) S_ .f32 0x00000000#32))

/-- Every node's coefficient: over the edges whose second endpoint it is, the sum of the products of the two endpoints'
    inverse square-root counts. -/
def coef (E : IVec S2x1600000 32) : FVec Ideal S100000 .f32 :=
  Host.scatterAdd (F := Ideal) scatter_S100000_S1600000x1_S1600000_n_0_0_1 zeros (wrap (dst E))
    (mulf (F := Ideal) (Host.gather gather_S100000_S1600000x1_S1600000_n_0_n_n_0_1_1 (dinv E) (wrap (src E)))
      (Host.gather gather_S100000_S1600000x1_S1600000_n_0_n_n_0_1_1 (dinv E) (wrap (dst E))))

/-! ## The encoded rows -/

/-- The features against the transposed encoder matrix, plus the encoder bias on every row. -/
def hEnc (X : FVec Ideal S100000x256 .f32) (EW : FVec Ideal S128x256 .f32) (EB : FVec Ideal S128 .f32) :
    FVec Ideal S100000x128 .f32 :=
  addf (F := Ideal)
    (Host.dotGeneral (F := Ideal) dot_S100000x256_S256x128_S100000x128_1_0_0_1_n_n none X
      (transpose S256x128 [1, 0] EW transposes_S128x256_S256x128_1_0))
    (broadcastInDim S100000x128 ![0, 1] bcast_S1x128_S100000x128_0_1 (broadcastInDim S1x128 ![1] bcast_S128_S1x128_1 EB))

/-! ## A layer's step matrix from its raw 128 × 130 block -/

/-- The strict upper triangle: zero where the row number is at least the column number. -/
def triu (x : FVec Ideal S128x128 .f32) : FVec Ideal S128x128 .f32 :=
  select
    (cmpi .sge
      (addi (iotaInDim S128x128 32 0) (broadcastInDim S128x128 ![] bcast_S_S128x128 (constantI S_ 32 0#32)))
      (iotaInDim S128x128 32 1))
    (broadcastInDim S128x128 ![] bcast_S_S128x128 (constant (F := Ideal) S_ .f32 0x00000000#32)) x

/-- The strict upper triangle of the block's first 128 columns, plus its transpose. -/
def symT (blk : FVec Ideal S128x130 .f32) : FVec Ideal S128x128 .f32 :=
  addf (F := Ideal) (triu (extractStridedSlice S128x128 ![0, 0] blk slices_S128x130_S128x128_0_0))
    (transpose S128x128 [1, 0] (triu (extractStridedSlice S128x128 ![0, 0] blk slices_S128x130_S128x128_0_0))
      transposes_S128x128_S128x128_1_0)

/-- The diagonal's entries: column 128 times the row sums of absolute values of the symmetric part, plus column 129. -/
def dvec (blk : FVec Ideal S128x130 .f32) : FVec Ideal S128 .f32 :=
  addf (F := Ideal)
    (mulf (F := Ideal)
      (shapeCast S128 (extractStridedSlice S128x1 ![0, 128] blk slices_S128x130_S128x1_0_128) shapeCasts_S128x1_S128)
      (Host.reduceAdd (F := Ideal) (Host.absf (F := Ideal) (symT blk)) (constant (F := Ideal) S_ .f32 0x00000000#32)
        reducesTo_S128x128_S128_d1 h_S_))
    (shapeCast S128 (extractStridedSlice S128x1 ![0, 129] blk slices_S128x130_S128x1_0_129) shapeCasts_S128x1_S128)

/-- The matrix with a vector on its diagonal and zero elsewhere. -/
def diagT (d : FVec Ideal S128 .f32) : FVec Ideal S128x128 .f32 :=
  select
    (cmpi .eq
      (addi (iotaInDim S128x128 32 0) (broadcastInDim S128x128 ![] bcast_S_S128x128 (constantI S_ 32 0#32)))
      (iotaInDim S128x128 32 1))
    (broadcastInDim S128x128 ![0, 1] bcast_S128x1_S128x128_0_1
      (broadcastInDim S128x1 ![0] bcast_S128_S128x1_0
        (pad S128 ![0] ![0] ![0] d (constant (F := Ideal) S_ .f32 0x00000000#32) pads_S128_S128_000 h_S_)))
    (broadcastInDim S128x128 ![] bcast_S_S128x128 (constant (F := Ideal) S_ .f32 0x00000000#32))

/-- The step matrix of a block, before the transpose the step applies to it. -/
def weffOf (blk : FVec Ideal S128x130 .f32) : FVec Ideal S128x128 .f32 :=
  addf (F := Ideal) (symT blk) (diagT (dvec blk))

/-- Layer 0's step matrix (before the step's transpose). -/
def weffT0 (WR : FVec Ideal S4x128x130 .f32) : FVec Ideal S128x128 .f32 :=
  weffOf (shapeCast S128x130 (extractStridedSlice S1x128x130 ![0, 0, 0] WR slices_S4x128x130_S1x128x130_0_0_0)
    shapeCasts_S1x128x130_S128x130)
/-- Layer 1's step matrix (before the step's transpose). -/
def weffT1 (WR : FVec Ideal S4x128x130 .f32) : FVec Ideal S128x128 .f32 :=
  weffOf (shapeCast S128x130 (extractStridedSlice S1x128x130 ![1, 0, 0] WR slices_S4x128x130_S1x128x130_1_0_0)
    shapeCasts_S1x128x130_S128x130)
/-- Layer 2's step matrix (before the step's transpose). -/
def weffT2 (WR : FVec Ideal S4x128x130 .f32) : FVec Ideal S128x128 .f32 :=
  weffOf (shapeCast S128x130 (extractStridedSlice S1x128x130 ![2, 0, 0] WR slices_S4x128x130_S1x128x130_2_0_0)
    shapeCasts_S1x128x130_S128x130)
/-- Layer 3's step matrix (before the step's transpose). -/
def weffT3 (WR : FVec Ideal S4x128x130 .f32) : FVec Ideal S128x128 .f32 :=
  weffOf (shapeCast S128x130 (extractStridedSlice S1x128x130 ![3, 0, 0] WR slices_S4x128x130_S1x128x130_3_0_0)
    shapeCasts_S1x128x130_S128x130)

/-! ## The update step -/

/-- One row of a 4 × 128 table, repeated on every node's row. -/
def rowB (A : FVec Ideal S4x128 .f32) (o : Fin S4x128.rank → Nat) (h : S4x128.Slices o S1x128) :
    FVec Ideal S100000x128 .f32 :=
  broadcastInDim S100000x128 ![0, 1] bcast_S1x128_S100000x128_0_1
    (broadcastInDim S1x128 ![1] bcast_S128_S1x128_1
      (shapeCast S128 (extractStridedSlice S1x128 o A h) shapeCasts_S1x128_S128))

/-- One entry of a 4-vector, repeated everywhere. -/
def entB (B : FVec Ideal S4 .f32) (o : Fin S4.rank → Nat) (h : S4.Slices o S1) : FVec Ideal S100000x128 .f32 :=
  broadcastInDim S100000x128 ![] bcast_S_S100000x128 (shapeCast S_ (extractStridedSlice S1 o B h) shapeCasts_S1_S_)

/-- The step on whole arrays: from the rows h, the encoded rows h0, the coefficients C, the step matrix W, and the
    layer's bias, scale and weight already repeated over the rows:
    h + 0.1 * max (C * (h * transpose W + wb) - (h * ext + beta * h0), 0). -/
def stepOf (h h0 : FVec Ideal S100000x128 .f32) (C : FVec Ideal S100000 .f32) (W : FVec Ideal S128x128 .f32)
    (wbB extB betaB : FVec Ideal S100000x128 .f32) : FVec Ideal S100000x128 .f32 :=
  addf (F := Ideal) h
    (mulf (F := Ideal) (broadcastInDim S100000x128 ![] bcast_S_S100000x128 (constant (F := Ideal) S_ .f32 0x3DCCCCCD#32))
      (maximumf (F := Ideal)
        (subf (F := Ideal)
          (mulf (F := Ideal)
            (broadcastInDim S100000x128 ![0, 1] bcast_S100000x1_S100000x128_0_1
              (broadcastInDim S100000x1 ![0] bcast_S100000_S100000x1_0 C))
            (addf (F := Ideal)
              (Host.dotGeneral (F := Ideal) dot_S100000x128_S128x128_S100000x128_1_0_0_1_n_n none h
                (transpose S128x128 [1, 0] W transposes_S128x128_S128x128_1_0))
              wbB))
          (addf (F := Ideal) (mulf (F := Ideal) h extB) (mulf (F := Ideal) betaB h0)))
        (broadcastInDim S100000x128 ![] bcast_S_S100000x128 (constant (F := Ideal) S_ .f32 0x00000000#32))))

/-- Layer 0's step. -/
def stepT0 (h h0 : FVec Ideal S100000x128 .f32) (C : FVec Ideal S100000 .f32) (W : FVec Ideal S128x128 .f32)
    (WB EXT : FVec Ideal S4x128 .f32) (BETA : FVec Ideal S4 .f32) : FVec Ideal S100000x128 .f32 :=
  stepOf h h0 C W (rowB WB ![0, 0] slices_S4x128_S1x128_0_0) (rowB EXT ![0, 0] slices_S4x128_S1x128_0_0)
    (entB BETA ![0] slices_S4_S1_0)
/-- Layer 1's step. -/
def stepT1 (h h0 : FVec Ideal S100000x128 .f32) (C : FVec Ideal S100000 .f32) (W : FVec Ideal S128x128 .f32)
    (WB EXT : FVec Ideal S4x128 .f32) (BETA : FVec Ideal S4 .f32) : FVec Ideal S100000x128 .f32 :=
  stepOf h h0 C W (rowB WB ![1, 0] slices_S4x128_S1x128_1_0) (rowB EXT ![1, 0] slices_S4x128_S1x128_1_0)
    (entB BETA ![1] slices_S4_S1_1)
/-- Layer 2's step. -/
def stepT2 (h h0 : FVec Ideal S100000x128 .f32) (C : FVec Ideal S100000 .f32) (W : FVec Ideal S128x128 .f32)
    (WB EXT : FVec Ideal S4x128 .f32) (BETA : FVec Ideal S4 .f32) : FVec Ideal S100000x128 .f32 :=
  stepOf h h0 C W (rowB WB ![2, 0] slices_S4x128_S1x128_2_0) (rowB EXT ![2, 0] slices_S4x128_S1x128_2_0)
    (entB BETA ![2] slices_S4_S1_2)
/-- Layer 3's step. -/
def stepT3 (h h0 : FVec Ideal S100000x128 .f32) (C : FVec Ideal S100000 .f32) (W : FVec Ideal S128x128 .f32)
    (WB EXT : FVec Ideal S4x128 .f32) (BETA : FVec Ideal S4 .f32) : FVec Ideal S100000x128 .f32 :=
  stepOf h h0 C W (rowB WB ![3, 0] slices_S4x128_S1x128_3_0) (rowB EXT ![3, 0] slices_S4x128_S1x128_3_0)
    (entB BETA ![3] slices_S4_S1_3)

/-! ## The decoded rows and the whole result -/

/-- The rows against the transposed decoder matrix, plus the decoder bias on every row. -/
def decT (h : FVec Ideal S100000x128 .f32) (DW : FVec Ideal S40x128 .f32) (DB : FVec Ideal S40 .f32) :
    FVec Ideal S100000x40 .f32 :=
  addf (F := Ideal)
    (Host.dotGeneral (F := Ideal) dot_S100000x128_S128x40_S100000x40_1_0_0_1_n_n none h
      (transpose S128x40 [1, 0] DW transposes_S40x128_S128x40_1_0))
    (broadcastInDim S100000x40 ![0, 1] bcast_S1x40_S100000x40_0_1 (broadcastInDim S1x40 ![1] bcast_S40_S1x40_1 DB))

/-- The program's result from its ten arguments: encode, four steps, decode. -/
def refOut (X : FVec Ideal S100000x256 .f32) (E : IVec S2x1600000 32) (EW : FVec Ideal S128x256 .f32)
    (EB : FVec Ideal S128 .f32) (WR : FVec Ideal S4x128x130 .f32) (WB EXT : FVec Ideal S4x128 .f32)
    (BETA : FVec Ideal S4 .f32) (DW : FVec Ideal S40x128 .f32) (DB : FVec Ideal S40 .f32) : FVec Ideal S100000x40 .f32 :=
  decT
    (stepT3
      (stepT2
        (stepT1 (stepT0 (hEnc X EW EB) (hEnc X EW EB) (coef E) (weffT0 WR) WB EXT BETA) (hEnc X EW EB) (coef E) (weffT1 WR)
          WB EXT BETA)
        (hEnc X EW EB) (coef E) (weffT2 WR) WB EXT BETA)
      (hEnc X EW EB) (coef E) (weffT3 WR) WB EXT BETA)
    DW DB

end Cert.Gnn.RefTerms

end
-- ==== Proof.KerCoef.lean ====
/-
  The kernel program's coefficient vector is the reference's.

  Both programs compute every node's aggregation coefficient from the edge list by the same operations in the same
  order: the two rows of the edge list as index vectors (negative entries moved up by the number of nodes), a count of
  edges per node, the count to the power minus one half where it is positive and zero elsewhere, and a sum over edges of
  the product of that quantity at the two end nodes. The two texts name their shapes and shape records separately; the
  records have equal fields, so the two composed terms are equal.
-/
import proofs.«110196_j66305705116250_1_alg».proof.Proof.KerHost
import proofs.«110196_j66305705116250_1_alg».proof.Proof.RefTerms

noncomputable section

namespace Cert.Gnn.KerCoef

open Idealize.ShloMosaic Cert.Gnn

/-- The two scatter records have the same fields. -/
theorem scatter_eq : Cert.KernelIdeal.scatter_S100000_S1600000x1_S1600000_n_0_0_1
    = Cert.ReferenceIdeal.scatter_S100000_S1600000x1_S1600000_n_0_0_1 := rfl

/-- The two gather records have the same fields. -/
theorem gather_eq : Cert.KernelIdeal.gather_S100000_S1600000x1_S1600000_n_0_n_n_0_1_1
    = Cert.ReferenceIdeal.gather_S100000_S1600000x1_S1600000_n_0_n_n_0_1_1 := rfl

theorem row0_eq (E : IVec Cert.KernelIdeal.S2x1600000 32) :
    KerHost.rowK E 0 Cert.KernelIdeal.Gen.slices_S2x1600000_S1x1600000_0_0 = RefTerms.src E := rfl

theorem row1_eq (E : IVec Cert.KernelIdeal.S2x1600000 32) :
    KerHost.rowK E 1 Cert.KernelIdeal.Gen.slices_S2x1600000_S1x1600000_1_0 = RefTerms.dst E := rfl

theorem wrap_eq (x : IVec Cert.KernelIdeal.S1600000 32) : KerHost.wrapK x = RefTerms.wrap x := rfl

theorem zeros_eq : KerHost.zerosK = RefTerms.zeros := rfl

set_option maxHeartbeats 400000 in
theorem deg_eq (E : IVec Cert.KernelIdeal.S2x1600000 32) : KerHost.degK E = RefTerms.deg E := by
  unfold KerHost.degK RefTerms.deg
  rw [scatter_eq, row0_eq, wrap_eq, zeros_eq]

set_option maxHeartbeats 400000 in
theorem dinv_eq (E : IVec Cert.KernelIdeal.S2x1600000 32) : KerHost.dinvK E = RefTerms.dinv E := by
  rw [KerHost.dinvK_plain]
  unfold RefTerms.dinv
  rw [deg_eq, zeros_eq]

set_option maxHeartbeats 400000 in
/-- The kernel program's coefficient vector is the reference's. -/
theorem coefK_eq (E : IVec Cert.KernelIdeal.S2x1600000 32) : KerHost.coefK E = RefTerms.coef E := by
  unfold KerHost.coefK RefTerms.coef
  rw [scatter_eq, gather_eq, dinv_eq, row0_eq, row1_eq, wrap_eq, wrap_eq, zeros_eq]

end Cert.Gnn.KerCoef

end
-- ==== Proof.KerFinal.lean ====
/-
  The kernel program's run, read: after it the result array is the specification's array of the arguments.

  The region finds the features and the weight arrays as launched, the coefficient column as the host's scatter-adds left
  it, the four step matrices as the host built them from the raw blocks, and the two bias rows and the damping column as
  reshaped arguments; every grid point then writes its 2000 rows of the specification's array.
-/
import proofs.«110196_j66305705116250_1_alg».proof.Proof.KerBlocks
import proofs.«110196_j66305705116250_1_alg».proof.Proof.KerHost
import proofs.«110196_j66305705116250_1_alg».proof.Proof.KerCoef
import proofs.«110196_j66305705116250_1_alg».proof.Proof.RefTerms

noncomputable section

open Idealize.ShloMosaic Idealize.ShloMosaic.TcCoe Idealize.SL.Sem Idealize.ShloMosaic.ValueIdx

namespace Cert.Gnn.KerFinal

open Cert.KernelIdeal Cert.KernelIdeal.Gen Cert.KernelIdeal.Value Cert.Gnn Cert.Gnn.KerBlocks

variable (m : (ℓ : Loc nD τ sig) → Buf (Elt Ideal) ℓ) (ρ : Dev nD → PrngReg)

/-- The specification's array of the launch contents. -/
def result (c : Dev nD) : (⟨2, ![100000, 40]⟩ : Shape).Idx → EReal :=
  Spec.G (Spec.wts (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)))
    (m ((c : Thread nD τ).loc main_arg0)) (RefTerms.coef (m ((c : Thread nD τ).loc main_arg1)))

/-- The weights the windows hold are the weights of the arguments: the step matrices by the host's construction, the
    rest by reshapes. -/
theorem wts_V (c : Dev nD) :
    kWts (V m c main_arg2) (V m c main_v69) (V m c main_v68) (V m c main_arg5) (V m c main_arg6) (V m c main_v71)
        (V m c main_arg8) (V m c main_v70)
      = Spec.wts (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  unfold kWts Spec.wts
  refine wts_congr ?_ ?_ ?_ ?_ ?_ ?_ ?_ ?_
  · rw [V_main_arg2]
  · exact funext fun a => KerHost.V_encb m c 0 a
  · exact funext fun l => funext fun a => funext fun b => KerHost.V_weff m c l a b
  · rw [V_main_arg5]
  · rw [V_main_arg6]
  · exact funext fun l => KerHost.V_beta m c l 0
  · rw [V_main_arg8]
  · exact funext fun a => KerHost.V_decb m c 0 a

/-- The result array after the run. -/
theorem final (c : Dev nD) : (dats m 0 c).arrAt 10 cfg0.N = result m c :=
  KerBlocks.final m c _ _ _
    (fun R k => by rw [V_main_arg0])
    (fun R u => (KerHost.V_coef m c R u).trans (by rw [KerCoef.coefK_eq]))
    (wts_V m c)

/-- The run, read: the result at the specification's array, the arguments unchanged. -/
theorem run : θ_run defs (onTc (τ := τ) (main (F := Ideal))) ⟨m, fun _ => 0, ρ⟩ fun r => ∀ c : Dev nD,
      r.2.mem ((c : Thread nD τ).loc main_v72) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.Gnn.KerFinal

end
-- ==== Proof.RefOpsA.lean ====
/-
  The reference program's operations as lists, the calls of its functions written out at the call sites: each function's
  operations over the call's own buffers, its arguments the call's operands. The list is cut where a printed window of the
  program ends and where a stretch computing one named intermediate (the coefficient, the encoded rows, a layer's matrix, a
  layer's step, the decoded rows) ends, and inside the coefficient's stretch before each of its two selections and after the
  second (the inverse square-root counts);
  beside each piece, the buffers its operations write, in order.
-/
import proofs.«110196_j66305705116250_1_alg».proof.Proof.Gen.ReferenceIdeal
import Idealize.ShloMosaic.Lib.StableHlo.Run

noncomputable section

namespace Cert.Gnn.RefOps

open Cert.ReferenceIdeal Cert.ReferenceIdeal.Gen Idealize.ShloMosaic Idealize.ShloMosaic.TcCoe Idealize.SL.Sem Idealize.ShloMosaic.StableHlo

variable {F : FTy → Type} [FloatOps F]

/-- Operations 0 … 22 of the inlined list (printed window 0). -/
abbrev opsCoef_a : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.nullary main_c (constantI S_ 32 0#32),
    StableHlo.unary main_c main_v5 (broadcastInDim S1600000 ![] bcast_S_S1600000 : (⟨S_, .i32⟩ : BufTy).Contents (Elt F) → (⟨S1600000, .i32⟩ : BufTy).Contents (Elt F)),
    StableHlo.binary main_v1 main_v5 main_v6 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v7 (broadcastInDim S1600000 ![] bcast_S_S1600000 : (⟨S_, .i32⟩ : BufTy).Contents (Elt F) → (⟨S1600000, .i32⟩ : BufTy).Contents (Elt F)),
    StableHlo.binary main_v1 main_v7 main_v8 (addi : (⟨S1600000, .i32⟩ : BufTy).Contents (Elt F) → (⟨S1600000, .i32⟩ : BufTy).Contents (Elt F) → (⟨S1600000, .i32⟩ : BufTy).Contents (Elt F)),
    StableHlo.ternary main_v6 main_v8 main_v1 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v9 main_v10 (broadcastInDim S1600000x1 ![0] bcast_S1600000_S1600000x1_0 : (⟨S1600000, .i32⟩ : BufTy).Contents (Elt F) → (⟨S1600000x1, .i32⟩ : BufTy).Contents (Elt F)),
    StableHlo.nullary main_cst_1 (constant S_ .f32 0x3F800000#32),
    StableHlo.unary main_cst_1 main_v11 (broadcastInDim S1600000 ![] bcast_S_S1600000 : (⟨S_, .f32⟩ : BufTy).Contents (Elt F) → (⟨S1600000, .f32⟩ : BufTy).Contents (Elt F)),
    StableHlo.ternary main_v4 main_v10 main_v11 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x00000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x00000000#32),
    StableHlo.unary main_cst_3 main_v15 (broadcastInDim S100000 ![] bcast_S_S100000 : (⟨S_, .f32⟩ : BufTy).Contents (Elt F) → (⟨S100000, .f32⟩ : BufTy).Contents (Elt F)),
    StableHlo.binary main_v12 main_v15 main_v16 (cmpf .ogt : (⟨S100000, .f32⟩ : BufTy).Contents (Elt F) → (⟨S100000, .f32⟩ : BufTy).Contents (Elt F) → (⟨S100000, .i1⟩ : BufTy).Contents (Elt F)) ]

/-- Operations 23 … 29 of the inlined list (printed window 0). -/
abbrev opsCoefA2_a : List (HloOp τ sig (Elt F)) :=
  [ StableHlo.nullary main_cst_4 (constant S_ .f32 0x3F800000#32),
    StableHlo.TRef.unary (.of main_cst_4 : StableHlo.TRef sig ⟨S_, .f32⟩) main_call0.v0 id,
    StableHlo.TRef.unary main_call0.v0 main_call0.v1 (broadcastInDim S100000 ![] bcast_S_S100000),
    StableHlo.TRef.ternary (.of main_v16 : StableHlo.TRef sig ⟨S100000, .i1⟩) (.of main_v12 : StableHlo.TRef sig ⟨S100000, .f32⟩) main_call0.v1 main_call0.v2 select,
    StableHlo.nullary main_cst_5 (constant S_ .f32 0xBF000000#32),
    StableHlo.unary main_cst_5 main_v18 (broadcastInDim S100000 ![] bcast_S_S100000 : (⟨S_, .f32⟩ : BufTy).Contents (Elt F) → (⟨S100000, .f32⟩ : BufTy).Contents (Elt F)),
    StableHlo.binary main_v17 main_v18 main_v19 (Host.powf : (⟨S100000, .f32⟩ : BufTy).Contents (Elt F) → (⟨S100000, .f32⟩ : BufTy).Contents (Elt F) → (⟨S100000, .f32⟩ : BufTy).Contents (Elt F)) ]

/-- Operations 30 … 33 of the inlined list (printed window 0). -/
abbrev opsCoefA3_a : List (HloOp τ sig (Elt F)) :=
  [ StableHlo.nullary main_cst_6 (constant S_ .f32 0x00000000#32),
    StableHlo.TRef.unary (.of main_cst_6 : StableHlo.TRef sig ⟨S_, .f32⟩) main_call1.v0 id,
    StableHlo.TRef.unary main_call1.v0 main_call1.v1 (broadcastInDim S100000 ![] bcast_S_S100000),
    StableHlo.TRef.ternary (.of main_v14 : StableHlo.TRef sig ⟨S100000, .i1⟩) (.of main_v19 : StableHlo.TRef sig ⟨S100000, .f32⟩) main_call1.v1 main_call1.v2 select ]

/-- Operations 34 … 63 of the inlined list (printed window 0). -/
abbrev opsCoefB_a : List (HloOp τ sig (Elt F)) :=
  [ StableHlo.nullary main_cst_7 (constant S_ .f32 0x00000000#32),
    StableHlo.unary main_cst_7 main_v21 (broadcastInDim S100000 ![] bcast_S_S100000 : (⟨S_, .f32⟩ : BufTy).Contents (Elt F) → (⟨S100000, .f32⟩ : BufTy).Contents (Elt F)),
    StableHlo.nullary main_c_8 (constantI S_ 32 0#32),
    StableHlo.unary main_c_8 main_v22 (broadcastInDim S1600000 ![] bcast_S_S1600000 : (⟨S_, .i32⟩ : BufTy).Contents (Elt F) → (⟨S1600000, .i32⟩ : BufTy).Contents (Elt F)),
    StableHlo.binary main_v1 main_v22 main_v23 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v24 (broadcastInDim S1600000 ![] bcast_S_S1600000 : (⟨S_, .i32⟩ : BufTy).Contents (Elt F) → (⟨S1600000, .i32⟩ : BufTy).Contents (Elt F)),
    StableHlo.binary main_v1 main_v24 main_v25 (addi : (⟨S1600000, .i32⟩ : BufTy).Contents (Elt F) → (⟨S1600000, .i32⟩ : BufTy).Contents (Elt F) → (⟨S1600000, .i32⟩ : BufTy).Contents (Elt F)),
    StableHlo.ternary main_v23 main_v25 main_v1 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v26 main_v27 (broadcastInDim S1600000x1 ![0] bcast_S1600000_S1600000x1_0 : (⟨S1600000, .i32⟩ : BufTy).Contents (Elt F) → (⟨S1600000x1, .i32⟩ : BufTy).Contents (Elt F)),
    StableHlo.binary main_v20 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_10 (constantI S_ 32 0#32),
    StableHlo.unary main_c_10 main_v29 (broadcastInDim S1600000 ![] bcast_S_S1600000 : (⟨S_, .i32⟩ : BufTy).Contents (Elt F) → (⟨S1600000, .i32⟩ : BufTy).Contents (Elt F)),
    StableHlo.binary main_v3 main_v29 main_v30 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v31 (broadcastInDim S1600000 ![] bcast_S_S1600000 : (⟨S_, .i32⟩ : BufTy).Contents (Elt F) → (⟨S1600000, .i32⟩ : BufTy).Contents (Elt F)),
    StableHlo.binary main_v3 main_v31 main_v32 (addi : (⟨S1600000, .i32⟩ : BufTy).Contents (Elt F) → (⟨S1600000, .i32⟩ : BufTy).Contents (Elt F) → (⟨S1600000, .i32⟩ : BufTy).Contents (Elt F)),
    StableHlo.ternary main_v30 main_v32 main_v3 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v33 main_v34 (broadcastInDim S1600000x1 ![0] bcast_S1600000_S1600000x1_0 : (⟨S1600000, .i32⟩ : BufTy).Contents (Elt F) → (⟨S1600000x1, .i32⟩ : BufTy).Contents (Elt F)),
    StableHlo.binary main_v20 main_v34 main_v35 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v28 main_v35 main_v36 (mulf : (⟨S1600000, .f32⟩ : BufTy).Contents (Elt F) → (⟨S1600000, .f32⟩ : BufTy).Contents (Elt F) → (⟨S1600000, .f32⟩ : BufTy).Contents (Elt F)),
    StableHlo.nullary main_c_12 (constantI S_ 32 0#32),
    StableHlo.unary main_c_12 main_v37 (broadcastInDim S1600000 ![] bcast_S_S1600000 : (⟨S_, .i32⟩ : BufTy).Contents (Elt F) → (⟨S1600000, .i32⟩ : BufTy).Contents (Elt F)),
    StableHlo.binary main_v3 main_v37 main_v38 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v39 (broadcastInDim S1600000 ![] bcast_S_S1600000 : (⟨S_, .i32⟩ : BufTy).Contents (Elt F) → (⟨S1600000, .i32⟩ : BufTy).Contents (Elt F)),
    StableHlo.binary main_v3 main_v39 main_v40 (addi : (⟨S1600000, .i32⟩ : BufTy).Contents (Elt F) → (⟨S1600000, .i32⟩ : BufTy).Contents (Elt F) → (⟨S1600000, .i32⟩ : BufTy).Contents (Elt F)),
    StableHlo.ternary main_v38 main_v40 main_v3 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v41 main_v42 (broadcastInDim S1600000x1 ![0] bcast_S1600000_S1600000x1_0 : (⟨S1600000, .i32⟩ : BufTy).Contents (Elt F) → (⟨S1600000x1, .i32⟩ : BufTy).Contents (Elt F)),
    StableHlo.ternary main_v21 main_v42 main_v36 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ]

/-- Operations 64 … 68 of the inlined list (printed window 1). -/
abbrev opsEnc_a : List (HloOp τ sig (Elt F)) :=
  [ StableHlo.unary main_arg2 main_v44 ((transpose S256x128 [1, 0] · transposes_S128x256_S256x128_1_0) : (⟨S128x256, .f32⟩ : BufTy).Contents (Elt F) → (⟨S256x128, .f32⟩ : BufTy).Contents (Elt F)),
    StableHlo.binary main_arg0 main_v44 main_v45 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- Operations 69 … 105 of the inlined list (printed window 1). -/
abbrev opsW0_a : List (HloOp τ sig (Elt F)) :=
  [ StableHlo.unary main_arg4 main_v49 ((extractStridedSlice S1x128x130 ![0, 0, 0] · slices_S4x128x130_S1x128x130_0_0_0) : (⟨S4x128x130, .f32⟩ : BufTy).Contents (Elt F) → (⟨S1x128x130, .f32⟩ : BufTy).Contents (Elt F)),
    StableHlo.reshape main_v49 main_v50 rfl shapeCasts_S1x128x130_S128x130,
    StableHlo.unary main_v50 main_v51 ((extractStridedSlice S128x128 ![0, 0] · slices_S128x130_S128x128_0_0) : (⟨S128x130, .f32⟩ : BufTy).Contents (Elt F) → (⟨S128x128, .f32⟩ : BufTy).Contents (Elt F)),
    StableHlo.TRef.nullary main_call2.v0 (iotaInDim S128x128 32 0),
    StableHlo.TRef.nullary main_call2.c (constantI S_ 32 0#32),
    StableHlo.TRef.unary main_call2.c main_call2.v1 (broadcastInDim S128x128 ![] bcast_S_S128x128),
    StableHlo.TRef.binary main_call2.v0 main_call2.v1 main_call2.v2 addi,
    StableHlo.TRef.nullary main_call2.v3 (iotaInDim S128x128 32 1),
    StableHlo.TRef.binary main_call2.v2 main_call2.v3 main_call2.v4 (cmpi .sge),
    StableHlo.TRef.nullary main_call2.cst (constant S_ .f32 0x00000000#32),
    StableHlo.TRef.unary main_call2.cst main_call2.v5 (broadcastInDim S128x128 ![] bcast_S_S128x128),
    StableHlo.TRef.ternary main_call2.v4 main_call2.v5 (.of main_v51 : StableHlo.TRef sig ⟨S128x128, .f32⟩) main_call2.v6 select,
    StableHlo.unary main_v52 main_v53 ((transpose S128x128 [1, 0] · transposes_S128x128_S128x128_1_0) : (⟨S128x128, .f32⟩ : BufTy).Contents (Elt F) → (⟨S128x128, .f32⟩ : BufTy).Contents (Elt F)),
    StableHlo.binary main_v52 main_v53 main_v54 (addf : (⟨S128x128, .f32⟩ : BufTy).Contents (Elt F) → (⟨S128x128, .f32⟩ : BufTy).Contents (Elt F) → (⟨S128x128, .f32⟩ : BufTy).Contents (Elt F)),
    StableHlo.unary main_v50 main_v55 ((extractStridedSlice S128x1 ![0, 128] · slices_S128x130_S128x1_0_128) : (⟨S128x130, .f32⟩ : BufTy).Contents (Elt F) → (⟨S128x1, .f32⟩ : BufTy).Contents (Elt F)),
    StableHlo.reshape main_v55 main_v56 rfl shapeCasts_S128x1_S128,
    StableHlo.unary main_v54 main_v57 (Host.absf : (⟨S128x128, .f32⟩ : BufTy).Contents (Elt F) → (⟨S128x128, .f32⟩ : BufTy).Contents (Elt F)),
    StableHlo.nullary main_cst_14 (constant S_ .f32 0x00000000#32),
    StableHlo.binary main_v57 main_cst_14 main_v58 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.binary main_v56 main_v58 main_v59 (mulf : (⟨S128, .f32⟩ : BufTy).Contents (Elt F) → (⟨S128, .f32⟩ : BufTy).Contents (Elt F) → (⟨S128, .f32⟩ : BufTy).Contents (Elt F)),
    StableHlo.unary main_v50 main_v60 ((extractStridedSlice S128x1 ![0, 129] · slices_S128x130_S128x1_0_129) : (⟨S128x130, .f32⟩ : BufTy).Contents (Elt F) → (⟨S128x1, .f32⟩ : BufTy).Contents (Elt F)),
    StableHlo.reshape main_v60 main_v61 rfl shapeCasts_S128x1_S128,
    StableHlo.binary main_v59 main_v61 main_v62 (addf : (⟨S128, .f32⟩ : BufTy).Contents (Elt F) → (⟨S128, .f32⟩ : BufTy).Contents (Elt F) → (⟨S128, .f32⟩ : BufTy).Contents (Elt F)),
    StableHlo.TRef.nullary main_call3.cst (constant S_ .f32 0x00000000#32),
    StableHlo.TRef.binary (.of main_v62 : StableHlo.TRef sig ⟨S128, .f32⟩) main_call3.cst main_call3.v0 (fun x v => pad S128 ![0] ![0] ![0] x v pads_S128_S128_000 h_S_),
    StableHlo.TRef.nullary main_call3.v1 (iotaInDim S128x128 32 0),
    StableHlo.TRef.nullary main_call3.v2 (iotaInDim S128x128 32 1),
    StableHlo.TRef.nullary main_call3.c (constantI S_ 32 0#32),
    StableHlo.TRef.unary main_call3.c main_call3.v3 (broadcastInDim S128x128 ![] bcast_S_S128x128),
    StableHlo.TRef.binary main_call3.v1 main_call3.v3 main_call3.v4 addi,
    StableHlo.TRef.binary main_call3.v4 main_call3.v2 main_call3.v5 (cmpi .eq),
    StableHlo.TRef.unary main_call3.v0 main_call3.v6 (broadcastInDim S128x1 ![0] bcast_S128_S128x1_0),
    StableHlo.TRef.nullary main_call3.cst_0 (constant S_ .f32 0x00000000#32),
    StableHlo.TRef.unary main_call3.v6 main_call3.call0.v0 (broadcastInDim S128x128 ![0, 1] bcast_S128x1_S128x128_0_1),
    StableHlo.TRef.unary main_call3.cst_0 main_call3.call0.v1 (broadcastInDim S128x128 ![] bcast_S_S128x128),
    StableHlo.TRef.ternary main_call3.v5 main_call3.call0.v0 main_call3.call0.v1 main_call3.call0.v2 select,
    StableHlo.binary main_v54 main_v63 main_v64 (addf : (⟨S128x128, .f32⟩ : BufTy).Contents (Elt F) → (⟨S128x128, .f32⟩ : BufTy).Contents (Elt F) → (⟨S128x128, .f32⟩ : BufTy).Contents (Elt F)) ]

/-- Operations 106 … 133 of the inlined list (printed window 1). -/
abbrev opsS0_a : List (HloOp τ sig (Elt F)) :=
  [ StableHlo.unary main_v64 main_v65 ((transpose S128x128 [1, 0] · transposes_S128x128_S128x128_1_0) : (⟨S128x128, .f32⟩ : BufTy).Contents (Elt F) → (⟨S128x128, .f32⟩ : BufTy).Contents (Elt F)),
    StableHlo.binary main_v48 main_v65 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v67 ((extractStridedSlice S1x128 ![0, 0] · slices_S4x128_S1x128_0_0) : (⟨S4x128, .f32⟩ : BufTy).Contents (Elt F) → (⟨S1x128, .f32⟩ : BufTy).Contents (Elt F)),
    StableHlo.reshape main_v67 main_v68 rfl shapeCasts_S1x128_S128,
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v70 main_v71 (addf : (⟨S100000x128, .f32⟩ : BufTy).Contents (Elt F) → (⟨S100000x128, .f32⟩ : BufTy).Contents (Elt F) → (⟨S100000x128, .f32⟩ : BufTy).Contents (Elt F)),
    StableHlo.unary main_v43 main_v72 (broadcastInDim S100000x1 ![0] bcast_S100000_S100000x1_0 : (⟨S100000, .f32⟩ : BufTy).Contents (Elt F) → (⟨S100000x1, .f32⟩ : BufTy).Contents (Elt F)),
    StableHlo.unary main_v72 main_v73 (broadcastInDim S100000x128 ![0, 1] bcast_S100000x1_S100000x128_0_1 : (⟨S100000x1, .f32⟩ : BufTy).Contents (Elt F) → (⟨S100000x128, .f32⟩ : BufTy).Contents (Elt F)),
    StableHlo.binary main_v73 main_v71 main_v74 (mulf : (⟨S100000x128, .f32⟩ : BufTy).Contents (Elt F) → (⟨S100000x128, .f32⟩ : BufTy).Contents (Elt F) → (⟨S100000x128, .f32⟩ : BufTy).Contents (Elt F)),
    StableHlo.unary main_arg6 main_v75 ((extractStridedSlice S1x128 ![0, 0] · slices_S4x128_S1x128_0_0) : (⟨S4x128, .f32⟩ : BufTy).Contents (Elt F) → (⟨S1x128, .f32⟩ : BufTy).Contents (Elt F)),
    StableHlo.reshape main_v75 main_v76 rfl shapeCasts_S1x128_S128,
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v78 main_v79 (mulf : (⟨S100000x128, .f32⟩ : BufTy).Contents (Elt F) → (⟨S100000x128, .f32⟩ : BufTy).Contents (Elt F) → (⟨S100000x128, .f32⟩ : BufTy).Contents (Elt F)),
    StableHlo.unary main_arg7 main_v80 ((extractStridedSlice S1 ![0] · slices_S4_S1_0) : (⟨S4, .f32⟩ : BufTy).Contents (Elt F) → (⟨S1, .f32⟩ : BufTy).Contents (Elt F)),
    StableHlo.reshape main_v80 main_v81 rfl shapeCasts_S1_S_,
    StableHlo.unary main_v81 main_v82 (broadcastInDim S100000x128 ![] bcast_S_S100000x128 : (⟨S_, .f32⟩ : BufTy).Contents (Elt F) → (⟨S100000x128, .f32⟩ : BufTy).Contents (Elt F)),
    StableHlo.binary main_v82 main_v48 main_v83 (mulf : (⟨S100000x128, .f32⟩ : BufTy).Contents (Elt F) → (⟨S100000x128, .f32⟩ : BufTy).Contents (Elt F) → (⟨S100000x128, .f32⟩ : BufTy).Contents (Elt F)),
    StableHlo.binary main_v79 main_v83 main_v84 (addf : (⟨S100000x128, .f32⟩ : BufTy).Contents (Elt F) → (⟨S100000x128, .f32⟩ : BufTy).Contents (Elt F) → (⟨S100000x128, .f32⟩ : BufTy).Contents (Elt F)),
    StableHlo.binary main_v74 main_v84 main_v85 (subf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v85 : StableHlo.TRef sig ⟨S100000x128, .f32⟩) main_call4.v0 main_call4.v1 maximumf,
    StableHlo.nullary main_cst_15 (constant S_ .f32 0x3DCCCCCD#32),
    StableHlo.unary main_cst_15 main_v87 (broadcastInDim S100000x128 ![] bcast_S_S100000x128 : (⟨S_, .f32⟩ : BufTy).Contents (Elt F) → (⟨S100000x128, .f32⟩ : BufTy).Contents (Elt F)),
    StableHlo.binary main_v87 main_v86 main_v88 (mulf : (⟨S100000x128, .f32⟩ : BufTy).Contents (Elt F) → (⟨S100000x128, .f32⟩ : BufTy).Contents (Elt F) → (⟨S100000x128, .f32⟩ : BufTy).Contents (Elt F)),
    StableHlo.binary main_v48 main_v88 main_v89 (addf : (⟨S100000x128, .f32⟩ : BufTy).Contents (Elt F) → (⟨S100000x128, .f32⟩ : BufTy).Contents (Elt F) → (⟨S100000x128, .f32⟩ : BufTy).Contents (Elt F)) ]

/-- Operations 134 … 153 of the inlined list (printed window 1). -/
abbrev opsW1_a : List (HloOp τ sig (Elt F)) :=
  [ StableHlo.unary main_arg4 main_v90 ((extractStridedSlice S1x128x130 ![1, 0, 0] · slices_S4x128x130_S1x128x130_1_0_0) : (⟨S4x128x130, .f32⟩ : BufTy).Contents (Elt F) → (⟨S1x128x130, .f32⟩ : BufTy).Contents (Elt F)),
    StableHlo.reshape main_v90 main_v91 rfl shapeCasts_S1x128x130_S128x130,
    StableHlo.unary main_v91 main_v92 ((extractStridedSlice S128x128 ![0, 0] · slices_S128x130_S128x128_0_0) : (⟨S128x130, .f32⟩ : BufTy).Contents (Elt F) → (⟨S128x128, .f32⟩ : BufTy).Contents (Elt F)),
    StableHlo.TRef.nullary main_call5.v0 (iotaInDim S128x128 32 0),
    StableHlo.TRef.nullary main_call5.c (constantI S_ 32 0#32),
    StableHlo.TRef.unary main_call5.c main_call5.v1 (broadcastInDim S128x128 ![] bcast_S_S128x128),
    StableHlo.TRef.binary main_call5.v0 main_call5.v1 main_call5.v2 addi,
    StableHlo.TRef.nullary main_call5.v3 (iotaInDim S128x128 32 1),
    StableHlo.TRef.binary main_call5.v2 main_call5.v3 main_call5.v4 (cmpi .sge),
    StableHlo.TRef.nullary main_call5.cst (constant S_ .f32 0x00000000#32),
    StableHlo.TRef.unary main_call5.cst main_call5.v5 (broadcastInDim S128x128 ![] bcast_S_S128x128),
    StableHlo.TRef.ternary main_call5.v4 main_call5.v5 (.of main_v92 : StableHlo.TRef sig ⟨S128x128, .f32⟩) main_call5.v6 select,
    StableHlo.unary main_v93 main_v94 ((transpose S128x128 [1, 0] · transposes_S128x128_S128x128_1_0) : (⟨S128x128, .f32⟩ : BufTy).Contents (Elt F) → (⟨S128x128, .f32⟩ : BufTy).Contents (Elt F)),
    StableHlo.binary main_v93 main_v94 main_v95 (addf : (⟨S128x128, .f32⟩ : BufTy).Contents (Elt F) → (⟨S128x128, .f32⟩ : BufTy).Contents (Elt F) → (⟨S128x128, .f32⟩ : BufTy).Contents (Elt F)),
    StableHlo.unary main_v91 main_v96 ((extractStridedSlice S128x1 ![0, 128] · slices_S128x130_S128x1_0_128) : (⟨S128x130, .f32⟩ : BufTy).Contents (Elt F) → (⟨S128x1, .f32⟩ : BufTy).Contents (Elt F)),
    StableHlo.reshape main_v96 main_v97 rfl shapeCasts_S128x1_S128,
    StableHlo.unary main_v95 main_v98 (Host.absf : (⟨S128x128, .f32⟩ : BufTy).Contents (Elt F) → (⟨S128x128, .f32⟩ : BufTy).Contents (Elt F)),
    StableHlo.nullary main_cst_16 (constant S_ .f32 0x00000000#32),
    StableHlo.binary main_v98 main_cst_16 main_v99 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.binary main_v97 main_v99 main_v100 (mulf : (⟨S128, .f32⟩ : BufTy).Contents (Elt F) → (⟨S128, .f32⟩ : BufTy).Contents (Elt F) → (⟨S128, .f32⟩ : BufTy).Contents (Elt F)) ]

/-- Operations 154 … 170 of the inlined list (printed window 2). -/
abbrev opsW1_b : List (HloOp τ sig (Elt F)) :=
  [ StableHlo.unary main_v91 main_v101 ((extractStridedSlice S128x1 ![0, 129] · slices_S128x130_S128x1_0_129) : (⟨S128x130, .f32⟩ : BufTy).Contents (Elt F) → (⟨S128x1, .f32⟩ : BufTy).Contents (Elt F)),
    StableHlo.reshape main_v101 main_v102 rfl shapeCasts_S128x1_S128,
    StableHlo.binary main_v100 main_v102 main_v103 (addf : (⟨S128, .f32⟩ : BufTy).Contents (Elt F) → (⟨S128, .f32⟩ : BufTy).Contents (Elt F) → (⟨S128, .f32⟩ : BufTy).Contents (Elt F)),
    StableHlo.TRef.nullary main_call6.cst (constant S_ .f32 0x00000000#32),
    StableHlo.TRef.binary (.of main_v103 : StableHlo.TRef sig ⟨S128, .f32⟩) main_call6.cst main_call6.v0 (fun x v => pad S128 ![0] ![0] ![0] x v pads_S128_S128_000 h_S_),
    StableHlo.TRef.nullary main_call6.v1 (iotaInDim S128x128 32 0),
    StableHlo.TRef.nullary main_call6.v2 (iotaInDim S128x128 32 1),
    StableHlo.TRef.nullary main_call6.c (constantI S_ 32 0#32),
    StableHlo.TRef.unary main_call6.c main_call6.v3 (broadcastInDim S128x128 ![] bcast_S_S128x128),
    StableHlo.TRef.binary main_call6.v1 main_call6.v3 main_call6.v4 addi,
    StableHlo.TRef.binary main_call6.v4 main_call6.v2 main_call6.v5 (cmpi .eq),
    StableHlo.TRef.unary main_call6.v0 main_call6.v6 (broadcastInDim S128x1 ![0] bcast_S128_S128x1_0),
    StableHlo.TRef.nullary main_call6.cst_0 (constant S_ .f32 0x00000000#32),
    StableHlo.TRef.unary main_call6.v6 main_call6.call0.v0 (broadcastInDim S128x128 ![0, 1] bcast_S128x1_S128x128_0_1),
    StableHlo.TRef.unary main_call6.cst_0 main_call6.call0.v1 (broadcastInDim S128x128 ![] bcast_S_S128x128),
    StableHlo.TRef.ternary main_call6.v5 main_call6.call0.v0 main_call6.call0.v1 main_call6.call0.v2 select,
    StableHlo.binary main_v95 main_v104 main_v105 (addf : (⟨S128x128, .f32⟩ : BufTy).Contents (Elt F) → (⟨S128x128, .f32⟩ : BufTy).Contents (Elt F) → (⟨S128x128, .f32⟩ : BufTy).Contents (Elt F)) ]

/-- Operations 171 … 198 of the inlined list (printed window 2). -/
abbrev opsS1_a : List (HloOp τ sig (Elt F)) :=
  [ StableHlo.unary main_v105 main_v106 ((transpose S128x128 [1, 0] · transposes_S128x128_S128x128_1_0) : (⟨S128x128, .f32⟩ : BufTy).Contents (Elt F) → (⟨S128x128, .f32⟩ : BufTy).Contents (Elt F)),
    StableHlo.binary main_v89 main_v106 main_v107 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v108 ((extractStridedSlice S1x128 ![1, 0] · slices_S4x128_S1x128_1_0) : (⟨S4x128, .f32⟩ : BufTy).Contents (Elt F) → (⟨S1x128, .f32⟩ : BufTy).Contents (Elt F)),
    StableHlo.reshape main_v108 main_v109 rfl shapeCasts_S1x128_S128,
    StableHlo.unary main_v109 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_v107 main_v111 main_v112 (addf : (⟨S100000x128, .f32⟩ : BufTy).Contents (Elt F) → (⟨S100000x128, .f32⟩ : BufTy).Contents (Elt F) → (⟨S100000x128, .f32⟩ : BufTy).Contents (Elt F)),
    StableHlo.unary main_v43 main_v113 (broadcastInDim S100000x1 ![0] bcast_S100000_S100000x1_0 : (⟨S100000, .f32⟩ : BufTy).Contents (Elt F) → (⟨S100000x1, .f32⟩ : BufTy).Contents (Elt F)),
    StableHlo.unary main_v113 main_v114 (broadcastInDim S100000x128 ![0, 1] bcast_S100000x1_S100000x128_0_1 : (⟨S100000x1, .f32⟩ : BufTy).Contents (Elt F) → (⟨S100000x128, .f32⟩ : BufTy).Contents (Elt F)),
    StableHlo.binary main_v114 main_v112 main_v115 (mulf : (⟨S100000x128, .f32⟩ : BufTy).Contents (Elt F) → (⟨S100000x128, .f32⟩ : BufTy).Contents (Elt F) → (⟨S100000x128, .f32⟩ : BufTy).Contents (Elt F)),
    StableHlo.unary main_arg6 main_v116 ((extractStridedSlice S1x128 ![1, 0] · slices_S4x128_S1x128_1_0) : (⟨S4x128, .f32⟩ : BufTy).Contents (Elt F) → (⟨S1x128, .f32⟩ : BufTy).Contents (Elt F)),
    StableHlo.reshape main_v116 main_v117 rfl shapeCasts_S1x128_S128,
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v119 main_v120 (mulf : (⟨S100000x128, .f32⟩ : BufTy).Contents (Elt F) → (⟨S100000x128, .f32⟩ : BufTy).Contents (Elt F) → (⟨S100000x128, .f32⟩ : BufTy).Contents (Elt F)),
    StableHlo.unary main_arg7 main_v121 ((extractStridedSlice S1 ![1] · slices_S4_S1_1) : (⟨S4, .f32⟩ : BufTy).Contents (Elt F) → (⟨S1, .f32⟩ : BufTy).Contents (Elt F)),
    StableHlo.reshape main_v121 main_v122 rfl shapeCasts_S1_S_,
    StableHlo.unary main_v122 main_v123 (broadcastInDim S100000x128 ![] bcast_S_S100000x128 : (⟨S_, .f32⟩ : BufTy).Contents (Elt F) → (⟨S100000x128, .f32⟩ : BufTy).Contents (Elt F)),
    StableHlo.binary main_v123 main_v48 main_v124 (mulf : (⟨S100000x128, .f32⟩ : BufTy).Contents (Elt F) → (⟨S100000x128, .f32⟩ : BufTy).Contents (Elt F) → (⟨S100000x128, .f32⟩ : BufTy).Contents (Elt F)),
    StableHlo.binary main_v120 main_v124 main_v125 (addf : (⟨S100000x128, .f32⟩ : BufTy).Contents (Elt F) → (⟨S100000x128, .f32⟩ : BufTy).Contents (Elt F) → (⟨S100000x128, .f32⟩ : BufTy).Contents (Elt F)),
    StableHlo.binary main_v115 main_v125 main_v126 (subf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v126 : StableHlo.TRef sig ⟨S100000x128, .f32⟩) main_call7.v0 main_call7.v1 maximumf,
    StableHlo.nullary main_cst_17 (constant S_ .f32 0x3DCCCCCD#32),
    StableHlo.unary main_cst_17 main_v128 (broadcastInDim S100000x128 ![] bcast_S_S100000x128 : (⟨S_, .f32⟩ : BufTy).Contents (Elt F) → (⟨S100000x128, .f32⟩ : BufTy).Contents (Elt F)),
    StableHlo.binary main_v128 main_v127 main_v129 (mulf : (⟨S100000x128, .f32⟩ : BufTy).Contents (Elt F) → (⟨S100000x128, .f32⟩ : BufTy).Contents (Elt F) → (⟨S100000x128, .f32⟩ : BufTy).Contents (Elt F)),
    StableHlo.binary main_v89 main_v129 main_v130 (addf : (⟨S100000x128, .f32⟩ : BufTy).Contents (Elt F) → (⟨S100000x128, .f32⟩ : BufTy).Contents (Elt F) → (⟨S100000x128, .f32⟩ : BufTy).Contents (Elt F)) ]

/-- Operations 199 … 235 of the inlined list (printed window 2). -/
abbrev opsW2_a : List (HloOp τ sig (Elt F)) :=
  [ StableHlo.unary main_arg4 main_v131 ((extractStridedSlice S1x128x130 ![2, 0, 0] · slices_S4x128x130_S1x128x130_2_0_0) : (⟨S4x128x130, .f32⟩ : BufTy).Contents (Elt F) → (⟨S1x128x130, .f32⟩ : BufTy).Contents (Elt F)),
    StableHlo.reshape main_v131 main_v132 rfl shapeCasts_S1x128x130_S128x130,
    StableHlo.unary main_v132 main_v133 ((extractStridedSlice S128x128 ![0, 0] · slices_S128x130_S128x128_0_0) : (⟨S128x130, .f32⟩ : BufTy).Contents (Elt F) → (⟨S128x128, .f32⟩ : BufTy).Contents (Elt F)),
    StableHlo.TRef.nullary main_call8.v0 (iotaInDim S128x128 32 0),
    StableHlo.TRef.nullary main_call8.c (constantI S_ 32 0#32),
    StableHlo.TRef.unary main_call8.c main_call8.v1 (broadcastInDim S128x128 ![] bcast_S_S128x128),
    StableHlo.TRef.binary main_call8.v0 main_call8.v1 main_call8.v2 addi,
    StableHlo.TRef.nullary main_call8.v3 (iotaInDim S128x128 32 1),
    StableHlo.TRef.binary main_call8.v2 main_call8.v3 main_call8.v4 (cmpi .sge),
    StableHlo.TRef.nullary main_call8.cst (constant S_ .f32 0x00000000#32),
    StableHlo.TRef.unary main_call8.cst main_call8.v5 (broadcastInDim S128x128 ![] bcast_S_S128x128),
    StableHlo.TRef.ternary main_call8.v4 main_call8.v5 (.of main_v133 : StableHlo.TRef sig ⟨S128x128, .f32⟩) main_call8.v6 select,
    StableHlo.unary main_v134 main_v135 ((transpose S128x128 [1, 0] · transposes_S128x128_S128x128_1_0) : (⟨S128x128, .f32⟩ : BufTy).Contents (Elt F) → (⟨S128x128, .f32⟩ : BufTy).Contents (Elt F)),
    StableHlo.binary main_v134 main_v135 main_v136 (addf : (⟨S128x128, .f32⟩ : BufTy).Contents (Elt F) → (⟨S128x128, .f32⟩ : BufTy).Contents (Elt F) → (⟨S128x128, .f32⟩ : BufTy).Contents (Elt F)),
    StableHlo.unary main_v132 main_v137 ((extractStridedSlice S128x1 ![0, 128] · slices_S128x130_S128x1_0_128) : (⟨S128x130, .f32⟩ : BufTy).Contents (Elt F) → (⟨S128x1, .f32⟩ : BufTy).Contents (Elt F)),
    StableHlo.reshape main_v137 main_v138 rfl shapeCasts_S128x1_S128,
    StableHlo.unary main_v136 main_v139 (Host.absf : (⟨S128x128, .f32⟩ : BufTy).Contents (Elt F) → (⟨S128x128, .f32⟩ : BufTy).Contents (Elt F)),
    StableHlo.nullary main_cst_18 (constant S_ .f32 0x00000000#32),
    StableHlo.binary main_v139 main_cst_18 main_v140 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.binary main_v138 main_v140 main_v141 (mulf : (⟨S128, .f32⟩ : BufTy).Contents (Elt F) → (⟨S128, .f32⟩ : BufTy).Contents (Elt F) → (⟨S128, .f32⟩ : BufTy).Contents (Elt F)),
    StableHlo.unary main_v132 main_v142 ((extractStridedSlice S128x1 ![0, 129] · slices_S128x130_S128x1_0_129) : (⟨S128x130, .f32⟩ : BufTy).Contents (Elt F) → (⟨S128x1, .f32⟩ : BufTy).Contents (Elt F)),
    StableHlo.reshape main_v142 main_v143 rfl shapeCasts_S128x1_S128,
    StableHlo.binary main_v141 main_v143 main_v144 (addf : (⟨S128, .f32⟩ : BufTy).Contents (Elt F) → (⟨S128, .f32⟩ : BufTy).Contents (Elt F) → (⟨S128, .f32⟩ : BufTy).Contents (Elt F)),
    StableHlo.TRef.nullary main_call9.cst (constant S_ .f32 0x00000000#32),
    StableHlo.TRef.binary (.of main_v144 : StableHlo.TRef sig ⟨S128, .f32⟩) main_call9.cst main_call9.v0 (fun x v => pad S128 ![0] ![0] ![0] x v pads_S128_S128_000 h_S_),
    StableHlo.TRef.nullary main_call9.v1 (iotaInDim S128x128 32 0),
    StableHlo.TRef.nullary main_call9.v2 (iotaInDim S128x128 32 1),
    StableHlo.TRef.nullary main_call9.c (constantI S_ 32 0#32),
    StableHlo.TRef.unary main_call9.c main_call9.v3 (broadcastInDim S128x128 ![] bcast_S_S128x128),
    StableHlo.TRef.binary main_call9.v1 main_call9.v3 main_call9.v4 addi,
    StableHlo.TRef.binary main_call9.v4 main_call9.v2 main_call9.v5 (cmpi .eq),
    StableHlo.TRef.unary main_call9.v0 main_call9.v6 (broadcastInDim S128x1 ![0] bcast_S128_S128x1_0),
    StableHlo.TRef.nullary main_call9.cst_0 (constant S_ .f32 0x00000000#32),
    StableHlo.TRef.unary main_call9.v6 main_call9.call0.v0 (broadcastInDim S128x128 ![0, 1] bcast_S128x1_S128x128_0_1),
    StableHlo.TRef.unary main_call9.cst_0 main_call9.call0.v1 (broadcastInDim S128x128 ![] bcast_S_S128x128),
    StableHlo.TRef.ternary main_call9.v5 main_call9.call0.v0 main_call9.call0.v1 main_call9.call0.v2 select,
    StableHlo.binary main_v136 main_v145 main_v146 (addf : (⟨S128x128, .f32⟩ : BufTy).Contents (Elt F) → (⟨S128x128, .f32⟩ : BufTy).Contents (Elt F) → (⟨S128x128, .f32⟩ : BufTy).Contents (Elt F)) ]

/-- Operations 236 … 247 of the inlined list (printed window 2). -/
abbrev opsS2_a : List (HloOp τ sig (Elt F)) :=
  [ StableHlo.unary main_v146 main_v147 ((transpose S128x128 [1, 0] · transposes_S128x128_S128x128_1_0) : (⟨S128x128, .f32⟩ : BufTy).Contents (Elt F) → (⟨S128x128, .f32⟩ : BufTy).Contents (Elt F)),
    StableHlo.binary main_v130 main_v147 main_v148 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v149 ((extractStridedSlice S1x128 ![2, 0] · slices_S4x128_S1x128_2_0) : (⟨S4x128, .f32⟩ : BufTy).Contents (Elt F) → (⟨S1x128, .f32⟩ : BufTy).Contents (Elt F)),
    StableHlo.reshape main_v149 main_v150 rfl shapeCasts_S1x128_S128,
    StableHlo.unary main_v150 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S100000x128 ![0, 1] bcast_S1x128_S100000x128_0_1 : (⟨S1x128, .f32⟩ : BufTy).Contents (Elt F) → (⟨S100000x128, .f32⟩ : BufTy).Contents (Elt F)),
    StableHlo.binary main_v148 main_v152 main_v153 (addf : (⟨S100000x128, .f32⟩ : BufTy).Contents (Elt F) → (⟨S100000x128, .f32⟩ : BufTy).Contents (Elt F) → (⟨S100000x128, .f32⟩ : BufTy).Contents (Elt F)),
    StableHlo.unary main_v43 main_v154 (broadcastInDim S100000x1 ![0] bcast_S100000_S100000x1_0 : (⟨S100000, .f32⟩ : BufTy).Contents (Elt F) → (⟨S100000x1, .f32⟩ : BufTy).Contents (Elt F)),
    StableHlo.unary main_v154 main_v155 (broadcastInDim S100000x128 ![0, 1] bcast_S100000x1_S100000x128_0_1 : (⟨S100000x1, .f32⟩ : BufTy).Contents (Elt F) → (⟨S100000x128, .f32⟩ : BufTy).Contents (Elt F)),
    StableHlo.binary main_v155 main_v153 main_v156 (mulf : (⟨S100000x128, .f32⟩ : BufTy).Contents (Elt F) → (⟨S100000x128, .f32⟩ : BufTy).Contents (Elt F) → (⟨S100000x128, .f32⟩ : BufTy).Contents (Elt F)),
    StableHlo.unary main_arg6 main_v157 ((extractStridedSlice S1x128 ![2, 0] · slices_S4x128_S1x128_2_0) : (⟨S4x128, .f32⟩ : BufTy).Contents (Elt F) → (⟨S1x128, .f32⟩ : BufTy).Contents (Elt F)),
    StableHlo.reshape main_v157 main_v158 rfl shapeCasts_S1x128_S128 ]

/-- Operations 248 … 263 of the inlined list (printed window 3). -/
abbrev opsS2_b : List (HloOp τ sig (Elt F)) :=
  [ StableHlo.unary main_v158 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v160 main_v161 (mulf : (⟨S100000x128, .f32⟩ : BufTy).Contents (Elt F) → (⟨S100000x128, .f32⟩ : BufTy).Contents (Elt F) → (⟨S100000x128, .f32⟩ : BufTy).Contents (Elt F)),
    StableHlo.unary main_arg7 main_v162 ((extractStridedSlice S1 ![2] · slices_S4_S1_2) : (⟨S4, .f32⟩ : BufTy).Contents (Elt F) → (⟨S1, .f32⟩ : BufTy).Contents (Elt F)),
    StableHlo.reshape main_v162 main_v163 rfl shapeCasts_S1_S_,
    StableHlo.unary main_v163 main_v164 (broadcastInDim S100000x128 ![] bcast_S_S100000x128 : (⟨S_, .f32⟩ : BufTy).Contents (Elt F) → (⟨S100000x128, .f32⟩ : BufTy).Contents (Elt F)),
    StableHlo.binary main_v164 main_v48 main_v165 (mulf : (⟨S100000x128, .f32⟩ : BufTy).Contents (Elt F) → (⟨S100000x128, .f32⟩ : BufTy).Contents (Elt F) → (⟨S100000x128, .f32⟩ : BufTy).Contents (Elt F)),
    StableHlo.binary main_v161 main_v165 main_v166 (addf : (⟨S100000x128, .f32⟩ : BufTy).Contents (Elt F) → (⟨S100000x128, .f32⟩ : BufTy).Contents (Elt F) → (⟨S100000x128, .f32⟩ : BufTy).Contents (Elt F)),
    StableHlo.binary main_v156 main_v166 main_v167 (subf : (⟨S100000x128, .f32⟩ : BufTy).Contents (Elt F) → (⟨S100000x128, .f32⟩ : BufTy).Contents (Elt F) → (⟨S100000x128, .f32⟩ : BufTy).Contents (Elt F)),
    StableHlo.TRef.nullary main_call10.cst (constant S_ .f32 0x00000000#32),
    StableHlo.TRef.unary main_call10.cst main_call10.v0 (broadcastInDim S100000x128 ![] bcast_S_S100000x128),
    StableHlo.TRef.binary (.of main_v167 : StableHlo.TRef sig ⟨S100000x128, .f32⟩) main_call10.v0 main_call10.v1 maximumf,
    StableHlo.nullary main_cst_19 (constant S_ .f32 0x3DCCCCCD#32),
    StableHlo.unary main_cst_19 main_v169 (broadcastInDim S100000x128 ![] bcast_S_S100000x128 : (⟨S_, .f32⟩ : BufTy).Contents (Elt F) → (⟨S100000x128, .f32⟩ : BufTy).Contents (Elt F)),
    StableHlo.binary main_v169 main_v168 main_v170 (mulf : (⟨S100000x128, .f32⟩ : BufTy).Contents (Elt F) → (⟨S100000x128, .f32⟩ : BufTy).Contents (Elt F) → (⟨S100000x128, .f32⟩ : BufTy).Contents (Elt F)),
    StableHlo.binary main_v130 main_v170 main_v171 (addf : (⟨S100000x128, .f32⟩ : BufTy).Contents (Elt F) → (⟨S100000x128, .f32⟩ : BufTy).Contents (Elt F) → (⟨S100000x128, .f32⟩ : BufTy).Contents (Elt F)) ]

/-- Operations 264 … 300 of the inlined list (printed window 3). -/
abbrev opsW3_a : List (HloOp τ sig (Elt F)) :=
  [ StableHlo.unary main_arg4 main_v172 ((extractStridedSlice S1x128x130 ![3, 0, 0] · slices_S4x128x130_S1x128x130_3_0_0) : (⟨S4x128x130, .f32⟩ : BufTy).Contents (Elt F) → (⟨S1x128x130, .f32⟩ : BufTy).Contents (Elt F)),
    StableHlo.reshape main_v172 main_v173 rfl shapeCasts_S1x128x130_S128x130,
    StableHlo.unary main_v173 main_v174 ((extractStridedSlice S128x128 ![0, 0] · slices_S128x130_S128x128_0_0) : (⟨S128x130, .f32⟩ : BufTy).Contents (Elt F) → (⟨S128x128, .f32⟩ : BufTy).Contents (Elt F)),
    StableHlo.TRef.nullary main_call11.v0 (iotaInDim S128x128 32 0),
    StableHlo.TRef.nullary main_call11.c (constantI S_ 32 0#32),
    StableHlo.TRef.unary main_call11.c main_call11.v1 (broadcastInDim S128x128 ![] bcast_S_S128x128),
    StableHlo.TRef.binary main_call11.v0 main_call11.v1 main_call11.v2 addi,
    StableHlo.TRef.nullary main_call11.v3 (iotaInDim S128x128 32 1),
    StableHlo.TRef.binary main_call11.v2 main_call11.v3 main_call11.v4 (cmpi .sge),
    StableHlo.TRef.nullary main_call11.cst (constant S_ .f32 0x00000000#32),
    StableHlo.TRef.unary main_call11.cst main_call11.v5 (broadcastInDim S128x128 ![] bcast_S_S128x128),
    StableHlo.TRef.ternary main_call11.v4 main_call11.v5 (.of main_v174 : StableHlo.TRef sig ⟨S128x128, .f32⟩) main_call11.v6 select,
    StableHlo.unary main_v175 main_v176 ((transpose S128x128 [1, 0] · transposes_S128x128_S128x128_1_0) : (⟨S128x128, .f32⟩ : BufTy).Contents (Elt F) → (⟨S128x128, .f32⟩ : BufTy).Contents (Elt F)),
    StableHlo.binary main_v175 main_v176 main_v177 (addf : (⟨S128x128, .f32⟩ : BufTy).Contents (Elt F) → (⟨S128x128, .f32⟩ : BufTy).Contents (Elt F) → (⟨S128x128, .f32⟩ : BufTy).Contents (Elt F)),
    StableHlo.unary main_v173 main_v178 ((extractStridedSlice S128x1 ![0, 128] · slices_S128x130_S128x1_0_128) : (⟨S128x130, .f32⟩ : BufTy).Contents (Elt F) → (⟨S128x1, .f32⟩ : BufTy).Contents (Elt F)),
    StableHlo.reshape main_v178 main_v179 rfl shapeCasts_S128x1_S128,
    StableHlo.unary main_v177 main_v180 (Host.absf : (⟨S128x128, .f32⟩ : BufTy).Contents (Elt F) → (⟨S128x128, .f32⟩ : BufTy).Contents (Elt F)),
    StableHlo.nullary main_cst_20 (constant S_ .f32 0x00000000#32),
    StableHlo.binary main_v180 main_cst_20 main_v181 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.binary main_v179 main_v181 main_v182 (mulf : (⟨S128, .f32⟩ : BufTy).Contents (Elt F) → (⟨S128, .f32⟩ : BufTy).Contents (Elt F) → (⟨S128, .f32⟩ : BufTy).Contents (Elt F)),
    StableHlo.unary main_v173 main_v183 ((extractStridedSlice S128x1 ![0, 129] · slices_S128x130_S128x1_0_129) : (⟨S128x130, .f32⟩ : BufTy).Contents (Elt F) → (⟨S128x1, .f32⟩ : BufTy).Contents (Elt F)),
    StableHlo.reshape main_v183 main_v184 rfl shapeCasts_S128x1_S128,
    StableHlo.binary main_v182 main_v184 main_v185 (addf : (⟨S128, .f32⟩ : BufTy).Contents (Elt F) → (⟨S128, .f32⟩ : BufTy).Contents (Elt F) → (⟨S128, .f32⟩ : BufTy).Contents (Elt F)),
    StableHlo.TRef.nullary main_call12.cst (constant S_ .f32 0x00000000#32),
    StableHlo.TRef.binary (.of main_v185 : StableHlo.TRef sig ⟨S128, .f32⟩) main_call12.cst main_call12.v0 (fun x v => pad S128 ![0] ![0] ![0] x v pads_S128_S128_000 h_S_),
    StableHlo.TRef.nullary main_call12.v1 (iotaInDim S128x128 32 0),
    StableHlo.TRef.nullary main_call12.v2 (iotaInDim S128x128 32 1),
    StableHlo.TRef.nullary main_call12.c (constantI S_ 32 0#32),
    StableHlo.TRef.unary main_call12.c main_call12.v3 (broadcastInDim S128x128 ![] bcast_S_S128x128),
    StableHlo.TRef.binary main_call12.v1 main_call12.v3 main_call12.v4 addi,
    StableHlo.TRef.binary main_call12.v4 main_call12.v2 main_call12.v5 (cmpi .eq),
    StableHlo.TRef.unary main_call12.v0 main_call12.v6 (broadcastInDim S128x1 ![0] bcast_S128_S128x1_0),
    StableHlo.TRef.nullary main_call12.cst_0 (constant S_ .f32 0x00000000#32),
    StableHlo.TRef.unary main_call12.v6 main_call12.call0.v0 (broadcastInDim S128x128 ![0, 1] bcast_S128x1_S128x128_0_1),
    StableHlo.TRef.unary main_call12.cst_0 main_call12.call0.v1 (broadcastInDim S128x128 ![] bcast_S_S128x128),
    StableHlo.TRef.ternary main_call12.v5 main_call12.call0.v0 main_call12.call0.v1 main_call12.call0.v2 select,
    StableHlo.binary main_v177 main_v186 main_v187 (addf : (⟨S128x128, .f32⟩ : BufTy).Contents (Elt F) → (⟨S128x128, .f32⟩ : BufTy).Contents (Elt F) → (⟨S128x128, .f32⟩ : BufTy).Contents (Elt F)) ]

/-- Operations 301 … 328 of the inlined list (printed window 3). -/
abbrev opsS3_a : List (HloOp τ sig (Elt F)) :=
  [ StableHlo.unary main_v187 main_v188 ((transpose S128x128 [1, 0] · transposes_S128x128_S128x128_1_0) : (⟨S128x128, .f32⟩ : BufTy).Contents (Elt F) → (⟨S128x128, .f32⟩ : BufTy).Contents (Elt F)),
    StableHlo.binary main_v171 main_v188 main_v189 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v190 ((extractStridedSlice S1x128 ![3, 0] · slices_S4x128_S1x128_3_0) : (⟨S4x128, .f32⟩ : BufTy).Contents (Elt F) → (⟨S1x128, .f32⟩ : BufTy).Contents (Elt F)),
    StableHlo.reshape main_v190 main_v191 rfl shapeCasts_S1x128_S128,
    StableHlo.unary main_v191 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S100000x128 ![0, 1] bcast_S1x128_S100000x128_0_1 : (⟨S1x128, .f32⟩ : BufTy).Contents (Elt F) → (⟨S100000x128, .f32⟩ : BufTy).Contents (Elt F)),
    StableHlo.binary main_v189 main_v193 main_v194 (addf : (⟨S100000x128, .f32⟩ : BufTy).Contents (Elt F) → (⟨S100000x128, .f32⟩ : BufTy).Contents (Elt F) → (⟨S100000x128, .f32⟩ : BufTy).Contents (Elt F)),
    StableHlo.unary main_v43 main_v195 (broadcastInDim S100000x1 ![0] bcast_S100000_S100000x1_0 : (⟨S100000, .f32⟩ : BufTy).Contents (Elt F) → (⟨S100000x1, .f32⟩ : BufTy).Contents (Elt F)),
    StableHlo.unary main_v195 main_v196 (broadcastInDim S100000x128 ![0, 1] bcast_S100000x1_S100000x128_0_1 : (⟨S100000x1, .f32⟩ : BufTy).Contents (Elt F) → (⟨S100000x128, .f32⟩ : BufTy).Contents (Elt F)),
    StableHlo.binary main_v196 main_v194 main_v197 (mulf : (⟨S100000x128, .f32⟩ : BufTy).Contents (Elt F) → (⟨S100000x128, .f32⟩ : BufTy).Contents (Elt F) → (⟨S100000x128, .f32⟩ : BufTy).Contents (Elt F)),
    StableHlo.unary main_arg6 main_v198 ((extractStridedSlice S1x128 ![3, 0] · slices_S4x128_S1x128_3_0) : (⟨S4x128, .f32⟩ : BufTy).Contents (Elt F) → (⟨S1x128, .f32⟩ : BufTy).Contents (Elt F)),
    StableHlo.reshape main_v198 main_v199 rfl shapeCasts_S1x128_S128,
    StableHlo.unary main_v199 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),
    StableHlo.binary main_v171 main_v201 main_v202 (mulf : (⟨S100000x128, .f32⟩ : BufTy).Contents (Elt F) → (⟨S100000x128, .f32⟩ : BufTy).Contents (Elt F) → (⟨S100000x128, .f32⟩ : BufTy).Contents (Elt F)),
    StableHlo.unary main_arg7 main_v203 ((extractStridedSlice S1 ![3] · slices_S4_S1_3) : (⟨S4, .f32⟩ : BufTy).Contents (Elt F) → (⟨S1, .f32⟩ : BufTy).Contents (Elt F)),
    StableHlo.reshape main_v203 main_v204 rfl shapeCasts_S1_S_,
    StableHlo.unary main_v204 main_v205 (broadcastInDim S100000x128 ![] bcast_S_S100000x128 : (⟨S_, .f32⟩ : BufTy).Contents (Elt F) → (⟨S100000x128, .f32⟩ : BufTy).Contents (Elt F)),
    StableHlo.binary main_v205 main_v48 main_v206 (mulf : (⟨S100000x128, .f32⟩ : BufTy).Contents (Elt F) → (⟨S100000x128, .f32⟩ : BufTy).Contents (Elt F) → (⟨S100000x128, .f32⟩ : BufTy).Contents (Elt F)),
    StableHlo.binary main_v202 main_v206 main_v207 (addf : (⟨S100000x128, .f32⟩ : BufTy).Contents (Elt F) → (⟨S100000x128, .f32⟩ : BufTy).Contents (Elt F) → (⟨S100000x128, .f32⟩ : BufTy).Contents (Elt F)),
    StableHlo.binary main_v197 main_v207 main_v208 (subf : (⟨S100000x128, .f32⟩ : BufTy).Contents (Elt F) → (⟨S100000x128, .f32⟩ : BufTy).Contents (Elt F) → (⟨S100000x128, .f32⟩ : BufTy).Contents (Elt F)),
    StableHlo.TRef.nullary main_call13.cst (constant S_ .f32 0x00000000#32),
    StableHlo.TRef.unary main_call13.cst main_call13.v0 (broadcastInDim S100000x128 ![] bcast_S_S100000x128),
    StableHlo.TRef.binary (.of main_v208 : StableHlo.TRef sig ⟨S100000x128, .f32⟩) main_call13.v0 main_call13.v1 maximumf,
    StableHlo.nullary main_cst_21 (constant S_ .f32 0x3DCCCCCD#32),
    StableHlo.unary main_cst_21 main_v210 (broadcastInDim S100000x128 ![] bcast_S_S100000x128 : (⟨S_, .f32⟩ : BufTy).Contents (Elt F) → (⟨S100000x128, .f32⟩ : BufTy).Contents (Elt F)),
    StableHlo.binary main_v210 main_v209 main_v211 (mulf : (⟨S100000x128, .f32⟩ : BufTy).Contents (Elt F) → (⟨S100000x128, .f32⟩ : BufTy).Contents (Elt F) → (⟨S100000x128, .f32⟩ : BufTy).Contents (Elt F)),
    StableHlo.binary main_v171 main_v211 main_v212 (addf : (⟨S100000x128, .f32⟩ : BufTy).Contents (Elt F) → (⟨S100000x128, .f32⟩ : BufTy).Contents (Elt F) → (⟨S100000x128, .f32⟩ : BufTy).Contents (Elt F)) ]

/-- Operations 329 … 331 of the inlined list (printed window 3). -/
abbrev opsDec_a : List (HloOp τ sig (Elt F)) :=
  [ StableHlo.unary main_arg8 main_v213 ((transpose S128x40 [1, 0] · transposes_S40x128_S128x40_1_0) : (⟨S40x128, .f32⟩ : BufTy).Contents (Elt F) → (⟨S128x40, .f32⟩ : BufTy).Contents (Elt F)),
    StableHlo.binary main_v212 main_v213 main_v214 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg9 main_v215 (broadcastInDim S1x40 ![1] bcast_S40_S1x40_1 : (⟨S40, .f32⟩ : BufTy).Contents (Elt F) → (⟨S1x40, .f32⟩ : BufTy).Contents (Elt F)) ]

/-- Operations 332 … 333 of the inlined list (printed window 4). -/
abbrev opsDec_b : List (HloOp τ sig (Elt F)) :=
  [ StableHlo.unary main_v215 main_v216 (broadcastInDim S100000x40 ![0, 1] bcast_S1x40_S100000x40_0_1 : (⟨S1x40, .f32⟩ : BufTy).Contents (Elt F) → (⟨S100000x40, .f32⟩ : BufTy).Contents (Elt F)),
    StableHlo.binary main_v214 main_v216 main_v217 (addf : (⟨S100000x40, .f32⟩ : BufTy).Contents (Elt F) → (⟨S100000x40, .f32⟩ : BufTy).Contents (Elt F) → (⟨S100000x40, .f32⟩ : BufTy).Contents (Elt F)) ]

/-- The buffers the operations of `opsCoef_a` write. -/
abbrev opsCoef_a_W : List (Ref sig .tc) := [main_v0, main_v1, main_v2, main_v3, main_cst, main_v4, main_c, main_v5, main_v6, main_c_0, main_v7, main_v8, main_v9, main_v10, main_cst_1, main_v11, main_v12, main_cst_2, main_v13, main_v14, main_cst_3, main_v15, main_v16]
/-- The buffers the operations of `opsCoefA2_a` write. -/
abbrev opsCoefA2_a_W : List (Ref sig .tc) := [main_cst_4, main_call0_v0, main_call0_v1, main_v17, main_cst_5, main_v18, main_v19]
/-- The buffers the operations of `opsCoefA3_a` write. -/
abbrev opsCoefA3_a_W : List (Ref sig .tc) := [main_cst_6, main_call1_v0, main_call1_v1, main_v20]
/-- The buffers the operations of `opsCoefB_a` write. -/
abbrev opsCoefB_a_W : List (Ref sig .tc) := [main_cst_7, main_v21, main_c_8, main_v22, main_v23, main_c_9, main_v24, main_v25, main_v26, main_v27, main_v28, main_c_10, main_v29, main_v30, main_c_11, main_v31, main_v32, main_v33, main_v34, main_v35, main_v36, main_c_12, main_v37, main_v38, main_c_13, main_v39, main_v40, main_v41, main_v42, main_v43]
/-- The buffers the operations of `opsEnc_a` write. -/
abbrev opsEnc_a_W : List (Ref sig .tc) := [main_v44, main_v45, main_v46, main_v47, main_v48]
/-- The buffers the operations of `opsW0_a` write. -/
abbrev opsW0_a_W : List (Ref sig .tc) := [main_v49, main_v50, main_v51, main_call2_v0, main_call2_c, main_call2_v1, main_call2_v2, main_call2_v3, main_call2_v4, main_call2_cst, main_call2_v5, main_v52, main_v53, main_v54, main_v55, main_v56, main_v57, main_cst_14, main_v58, main_v59, main_v60, main_v61, main_v62, main_call3_cst, main_call3_v0, main_call3_v1, main_call3_v2, main_call3_c, main_call3_v3, main_call3_v4, main_call3_v5, main_call3_v6, main_call3_cst_0, main_call3_call0_v0, main_call3_call0_v1, main_v63, main_v64]
/-- The buffers the operations of `opsS0_a` write. -/
abbrev opsS0_a_W : List (Ref sig .tc) := [main_v65, main_v66, main_v67, main_v68, main_v69, main_v70, main_v71, main_v72, main_v73, main_v74, main_v75, main_v76, main_v77, main_v78, main_v79, main_v80, main_v81, main_v82, main_v83, main_v84, main_v85, main_call4_cst, main_call4_v0, main_v86, main_cst_15, main_v87, main_v88, main_v89]
/-- The buffers the operations of `opsW1_a` write. -/
abbrev opsW1_a_W : List (Ref sig .tc) := [main_v90, main_v91, main_v92, main_call5_v0, main_call5_c, main_call5_v1, main_call5_v2, main_call5_v3, main_call5_v4, main_call5_cst, main_call5_v5, main_v93, main_v94, main_v95, main_v96, main_v97, main_v98, main_cst_16, main_v99, main_v100]
/-- The buffers the operations of `opsW1_b` write. -/
abbrev opsW1_b_W : List (Ref sig .tc) := [main_v101, main_v102, main_v103, main_call6_cst, main_call6_v0, main_call6_v1, main_call6_v2, main_call6_c, main_call6_v3, main_call6_v4, main_call6_v5, main_call6_v6, main_call6_cst_0, main_call6_call0_v0, main_call6_call0_v1, main_v104, main_v105]
/-- The buffers the operations of `opsS1_a` write. -/
abbrev opsS1_a_W : List (Ref sig .tc) := [main_v106, main_v107, main_v108, main_v109, main_v110, main_v111, main_v112, main_v113, main_v114, main_v115, main_v116, main_v117, main_v118, main_v119, main_v120, main_v121, main_v122, main_v123, main_v124, main_v125, main_v126, main_call7_cst, main_call7_v0, main_v127, main_cst_17, main_v128, main_v129, main_v130]
/-- The buffers the operations of `opsW2_a` write. -/
abbrev opsW2_a_W : List (Ref sig .tc) := [main_v131, main_v132, main_v133, main_call8_v0, main_call8_c, main_call8_v1, main_call8_v2, main_call8_v3, main_call8_v4, main_call8_cst, main_call8_v5, main_v134, main_v135, main_v136, main_v137, main_v138, main_v139, main_cst_18, main_v140, main_v141, main_v142, main_v143, main_v144, main_call9_cst, main_call9_v0, main_call9_v1, main_call9_v2, main_call9_c, main_call9_v3, main_call9_v4, main_call9_v5, main_call9_v6, main_call9_cst_0, main_call9_call0_v0, main_call9_call0_v1, main_v145, main_v146]
/-- The buffers the operations of `opsS2_a` write. -/
abbrev opsS2_a_W : List (Ref sig .tc) := [main_v147, main_v148, main_v149, main_v150, main_v151, main_v152, main_v153, main_v154, main_v155, main_v156, main_v157, main_v158]
/-- The buffers the operations of `opsS2_b` write. -/
abbrev opsS2_b_W : List (Ref sig .tc) := [main_v159, main_v160, main_v161, main_v162, main_v163, main_v164, main_v165, main_v166, main_v167, main_call10_cst, main_call10_v0, main_v168, main_cst_19, main_v169, main_v170, main_v171]
/-- The buffers the operations of `opsW3_a` write. -/
abbrev opsW3_a_W : List (Ref sig .tc) := [main_v172, main_v173, main_v174, main_call11_v0, main_call11_c, main_call11_v1, main_call11_v2, main_call11_v3, main_call11_v4, main_call11_cst, main_call11_v5, main_v175, main_v176, main_v177, main_v178, main_v179, main_v180, main_cst_20, main_v181, main_v182, main_v183, main_v184, main_v185, main_call12_cst, main_call12_v0, main_call12_v1, main_call12_v2, main_call12_c, main_call12_v3, main_call12_v4, main_call12_v5, main_call12_v6, main_call12_cst_0, main_call12_call0_v0, main_call12_call0_v1, main_v186, main_v187]
/-- The buffers the operations of `opsS3_a` write. -/
abbrev opsS3_a_W : List (Ref sig .tc) := [main_v188, main_v189, main_v190, main_v191, main_v192, main_v193, main_v194, main_v195, main_v196, main_v197, main_v198, main_v199, main_v200, main_v201, main_v202, main_v203, main_v204, main_v205, main_v206, main_v207, main_v208, main_call13_cst, main_call13_v0, main_v209, main_cst_21, main_v210, main_v211, main_v212]
/-- The buffers the operations of `opsDec_a` write. -/
abbrev opsDec_a_W : List (Ref sig .tc) := [main_v213, main_v214, main_v215]
/-- The buffers the operations of `opsDec_b` write. -/
abbrev opsDec_b_W : List (Ref sig .tc) := [main_v216, main_v217]

end Cert.Gnn.RefOps

end
-- ==== Proof.LibStretches.lean ====
/-
  A long straight-line program matched against its list of operations one piece at a time.

  A host program is a list of operations run in order (`StableHlo.seq`). When the program is printed as four pieces run in
  order, and each piece is the operations of its stretch run in order, the program is the four stretches' operations run
  in order as one list — so the program and its list need never be compared as wholes.
-/
import Idealize.ShloMosaic.Lib.StableHlo.Run

noncomputable section

namespace Cert.LibStretches

open Idealize.ShloMosaic Idealize.ShloMosaic.StableHlo Idealize.SL.Sem

variable {nD : Nat} {τ : Topo} {sig : RefSig} {Val : EltTy → Type} {Λ : Labels}

/-- Four pieces run in order, each the operations of its stretch run in order, are the four stretches' operations run in
    order as one list. -/
theorem seq_four (p₀ p₁ p₂ p₃ : Prog (TpuEff nD τ sig Val Λ .tc) PUnit) (w₀ w₁ w₂ w₃ : List (HloOp τ sig Val))
    (h₀ : p₀ = seq w₀) (h₁ : p₁ = seq w₁) (h₂ : p₂ = seq w₂) (h₃ : p₃ = seq w₃) :
    (p₀ >>= fun _ => p₁ >>= fun _ => p₂ >>= fun _ => p₃) = seq (w₀ ++ w₁ ++ w₂ ++ w₃) := by
  subst h₀ h₁ h₂ h₃
  rw [seq_append, seq_append, seq_append]
  simp only [bind_assoc]

end Cert.LibStretches

end
-- ==== Proof.RefOps.lean ====
/-
  The reference program is its list of operations run in order.

  The program is printed as five windows run one after the other, each a chain of operations and of calls of the
  program's functions; a call is the callee's operations at the call's buffers. Each window equals its stretch of the
  list run in order, by unfolding the calls; five such windows in order are the five stretches appended. Every operation
  names buffers of the device only, and the program has no scoped buffer or semaphore, so the general run theorem of a
  straight line applies: every execution ends with each buffer at the fold of the list over the contents at launch.
-/
import proofs.«110196_j66305705116250_1_alg».proof.Proof.RefOpsA
import proofs.«110196_j66305705116250_1_alg».proof.Proof.LibStretches

noncomputable section

namespace Cert.Gnn.RefOps

open Cert.ReferenceIdeal Cert.ReferenceIdeal.Gen Idealize.ShloMosaic Idealize.ShloMosaic.TcCoe Idealize.SL.Sem Idealize.ShloMosaic.StableHlo

variable {F : FTy → Type} [FloatOps F]

/-! ## The list, window by window -/

/-- The operations of the program's first printed window: the coefficient. -/
abbrev opsP0 : List (HloOp τ sig (Elt F)) := opsCoef_a ++ opsCoefA2_a ++ opsCoefA3_a ++ opsCoefB_a
/-- The second window: the encoded rows, layer 0's matrix and step, the start of layer 1's matrix. -/
abbrev opsP1 : List (HloOp τ sig (Elt F)) := opsEnc_a ++ opsW0_a ++ opsS0_a ++ opsW1_a
/-- The third window: the rest of layer 1's matrix, its step, layer 2's matrix, the start of its step. -/
abbrev opsP2 : List (HloOp τ sig (Elt F)) := opsW1_b ++ opsS1_a ++ opsW2_a ++ opsS2_a
/-- The fourth window: the rest of layer 2's step, layer 3's matrix and step, the start of the decoding. -/
abbrev opsP3 : List (HloOp τ sig (Elt F)) := opsS2_b ++ opsW3_a ++ opsS3_a ++ opsDec_a
/-- The last window: the end of the decoding. -/
abbrev opsP4 : List (HloOp τ sig (Elt F)) := opsDec_b

/-- All the program's operations, in order. -/
abbrev ops : List (HloOp τ sig (Elt F)) := opsP0 ++ opsP1 ++ opsP2 ++ opsP3 ++ opsP4

section Five

variable {nD' : Nat} {τ' : Topo} {sig' : RefSig} {Val : EltTy → Type} {Λ : Labels}

/-- Five pieces run in order, each the operations of its stretch run in order, are the five stretches' operations run in
    order as one list. -/
theorem seq_five (p₀ p₁ p₂ p₃ p₄ : Prog (TpuEff nD' τ' sig' Val Λ .tc) PUnit) (w₀ w₁ w₂ w₃ w₄ : List (HloOp τ' sig' Val))
    (h₀ : p₀ = seq w₀) (h₁ : p₁ = seq w₁) (h₂ : p₂ = seq w₂) (h₃ : p₃ = seq w₃) (h₄ : p₄ = seq w₄) :
    (p₀ >>= fun _ => p₁ >>= fun _ => p₂ >>= fun _ => p₃ >>= fun _ => p₄) = seq (w₀ ++ w₁ ++ w₂ ++ w₃ ++ w₄) := by
  subst h₀ h₁ h₂ h₃ h₄
  rw [seq_append, seq_append, seq_append, seq_append]
  simp only [bind_assoc]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

end Five

/-! Each printed window is its stretch run in order: the calls unfold to their callees' operations, and both sides are
    then the same chain of steps. -/

set_option maxRecDepth 8192 in
theorem part0_eq (c : Dev nD) : main_part0 (F := F) c = seq opsP0 := by
  simp only [main_part0, fn_where.body, bind_assoc, pure_bind]
  rfl

set_option maxRecDepth 8192 in
theorem part1_eq (c : Dev nD) : main_part1 (F := F) c = seq opsP1 := by
  simp only [main_part1, fn_triu.body, fn_diag.body, fn_where_0.body, fn_relu.body, bind_assoc, pure_bind]
  rfl

set_option maxRecDepth 8192 in
theorem part2_eq (c : Dev nD) : main_part2 (F := F) c = seq opsP2 := by
  simp only [main_part2, fn_triu.body, fn_diag.body, fn_where_0.body, fn_relu.body, bind_assoc, pure_bind]
  rfl

set_option maxRecDepth 8192 in
theorem part3_eq (c : Dev nD) : main_part3 (F := F) c = seq opsP3 := by
  simp only [main_part3, fn_triu.body, fn_diag.body, fn_where_0.body, fn_relu.body, bind_assoc, pure_bind]
  rfl

theorem part4_eq (c : Dev nD) : main_part4 (F := F) c = seq opsP4 := rfl

/-- The program is its list of operations run in order. -/
theorem main_eq (c : Dev nD) : main (F := F) c = seq ops :=
  seq_five _ _ _ _ _ _ _ _ _ _ (part0_eq c) (part1_eq c) (part2_eq c) (part3_eq c) (part4_eq c)

theorem scopedRefs_eq : (Finset.univ.filter fun b : Ref sig .tc => b.isScoped) = ∅ := by decide
theorem scopedSems_eq : (Finset.univ.filter fun sm : SemLoc sig => sm.isScoped .tc) = ∅ := by decide

/-! ## Every operation names buffers of the device only -/

theorem opsCoef_a_sub : (opsCoef_a : List (HloOp τ sig (Elt F))).Forall fun op => op.bufs ⊆ tcRefs τ sig := by
  simp only [List.Forall, nullary_bufs_sub, unary_bufs_sub, binary_bufs_sub, ternary_bufs_sub, reshape_bufs_sub, and_self]
theorem opsCoefA2_a_sub : (opsCoefA2_a : List (HloOp τ sig (Elt F))).Forall fun op => op.bufs ⊆ tcRefs τ sig := by
  simp only [List.Forall, nullary_bufs_sub, unary_bufs_sub, binary_bufs_sub, ternary_bufs_sub, reshape_bufs_sub, and_self]
theorem opsCoefA3_a_sub : (opsCoefA3_a : List (HloOp τ sig (Elt F))).Forall fun op => op.bufs ⊆ tcRefs τ sig := by
  simp only [List.Forall, nullary_bufs_sub, unary_bufs_sub, binary_bufs_sub, ternary_bufs_sub, reshape_bufs_sub, and_self]
theorem opsCoefB_a_sub : (opsCoefB_a : List (HloOp τ sig (Elt F))).Forall fun op => op.bufs ⊆ tcRefs τ sig := by
  simp only [List.Forall, nullary_bufs_sub, unary_bufs_sub, binary_bufs_sub, ternary_bufs_sub, reshape_bufs_sub, and_self]
theorem opsEnc_a_sub : (opsEnc_a : List (HloOp τ sig (Elt F))).Forall fun op => op.bufs ⊆ tcRefs τ sig := by
  simp only [List.Forall, nullary_bufs_sub, unary_bufs_sub, binary_bufs_sub, ternary_bufs_sub, reshape_bufs_sub, and_self]
theorem opsW0_a_sub : (opsW0_a : List (HloOp τ sig (Elt F))).Forall fun op => op.bufs ⊆ tcRefs τ sig := by
  simp only [List.Forall, nullary_bufs_sub, unary_bufs_sub, binary_bufs_sub, ternary_bufs_sub, reshape_bufs_sub, and_self]
theorem opsS0_a_sub : (opsS0_a : List (HloOp τ sig (Elt F))).Forall fun op => op.bufs ⊆ tcRefs τ sig := by
  simp only [List.Forall, nullary_bufs_sub, unary_bufs_sub, binary_bufs_sub, ternary_bufs_sub, reshape_bufs_sub, and_self]
theorem opsW1_a_sub : (opsW1_a : List (HloOp τ sig (Elt F))).Forall fun op => op.bufs ⊆ tcRefs τ sig := by
  simp only [List.Forall, nullary_bufs_sub, unary_bufs_sub, binary_bufs_sub, ternary_bufs_sub, reshape_bufs_sub, and_self]
theorem opsW1_b_sub : (opsW1_b : List (HloOp τ sig (Elt F))).Forall fun op => op.bufs ⊆ tcRefs τ sig := by
  simp only [List.Forall, nullary_bufs_sub, unary_bufs_sub, binary_bufs_sub, ternary_bufs_sub, reshape_bufs_sub, and_self]
theorem opsS1_a_sub : (opsS1_a : List (HloOp τ sig (Elt F))).Forall fun op => op.bufs ⊆ tcRefs τ sig := by
  simp only [List.Forall, nullary_bufs_sub, unary_bufs_sub, binary_bufs_sub, ternary_bufs_sub, reshape_bufs_sub, and_self]
theorem opsW2_a_sub : (opsW2_a : List (HloOp τ sig (Elt F))).Forall fun op => op.bufs ⊆ tcRefs τ sig := by
  simp only [List.Forall, nullary_bufs_sub, unary_bufs_sub, binary_bufs_sub, ternary_bufs_sub, reshape_bufs_sub, and_self]
theorem opsS2_a_sub : (opsS2_a : List (HloOp τ sig (Elt F))).Forall fun op => op.bufs ⊆ tcRefs τ sig := by
  simp only [List.Forall, nullary_bufs_sub, unary_bufs_sub, binary_bufs_sub, ternary_bufs_sub, reshape_bufs_sub, and_self]
theorem opsS2_b_sub : (opsS2_b : List (HloOp τ sig (Elt F))).Forall fun op => op.bufs ⊆ tcRefs τ sig := by
  simp only [List.Forall, nullary_bufs_sub, unary_bufs_sub, binary_bufs_sub, ternary_bufs_sub, reshape_bufs_sub, and_self]
theorem opsW3_a_sub : (opsW3_a : List (HloOp τ sig (Elt F))).Forall fun op => op.bufs ⊆ tcRefs τ sig := by
  simp only [List.Forall, nullary_bufs_sub, unary_bufs_sub, binary_bufs_sub, ternary_bufs_sub, reshape_bufs_sub, and_self]
theorem opsS3_a_sub : (opsS3_a : List (HloOp τ sig (Elt F))).Forall fun op => op.bufs ⊆ tcRefs τ sig := by
  simp only [List.Forall, nullary_bufs_sub, unary_bufs_sub, binary_bufs_sub, ternary_bufs_sub, reshape_bufs_sub, and_self]
theorem opsDec_a_sub : (opsDec_a : List (HloOp τ sig (Elt F))).Forall fun op => op.bufs ⊆ tcRefs τ sig := by
  simp only [List.Forall, nullary_bufs_sub, unary_bufs_sub, binary_bufs_sub, ternary_bufs_sub, reshape_bufs_sub, and_self]
theorem opsDec_b_sub : (opsDec_b : List (HloOp τ sig (Elt F))).Forall fun op => op.bufs ⊆ tcRefs τ sig := by
  simp only [List.Forall, nullary_bufs_sub, unary_bufs_sub, binary_bufs_sub, ternary_bufs_sub, reshape_bufs_sub, and_self]

theorem ops_sub : (ops : List (HloOp τ sig (Elt F))).Forall fun op => op.bufs ⊆ tcRefs τ sig :=
  forall_append
    (forall_append
      (forall_append
        (forall_append (forall_append (forall_append (forall_append opsCoef_a_sub opsCoefA2_a_sub) opsCoefA3_a_sub) opsCoefB_a_sub)
          (forall_append (forall_append (forall_append opsEnc_a_sub opsW0_a_sub) opsS0_a_sub) opsW1_a_sub))
        (forall_append (forall_append (forall_append opsW1_b_sub opsS1_a_sub) opsW2_a_sub) opsS2_a_sub))
      (forall_append (forall_append (forall_append opsS2_b_sub opsW3_a_sub) opsS3_a_sub) opsDec_a_sub))
    opsDec_b_sub

/-- On every device, for any float values, from any memory with zero counters: every weakly fair execution of the program
    terminates, and every final state has each buffer at the fold of the operations over the contents at launch. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Gnn.RefOps

end
-- ==== Proof.RefRun.lean ====
/-
  The reference program's result, read off its list of operations.

  The list is read stretch by stretch. The contents after a stretch are the fold of its operations over the contents
  before it; a buffer the stretch does not write keeps its contents, and the buffer a stretch is there to compute holds
  the whole-array term of RefTerms over the contents of the buffers the stretch reads. Chaining the stretches gives the
  result buffer as refOut of the ten arguments' contents at launch, the arguments themselves written by no operation.
-/
import proofs.«110196_j66305705116250_1_alg».proof.Proof.RefOps
import proofs.«110196_j66305705116250_1_alg».proof.Proof.RefTerms

noncomputable section

namespace Cert.Gnn.RefRun

open Cert.ReferenceIdeal Cert.ReferenceIdeal.Gen Idealize.ShloMosaic Idealize.ShloMosaic.TcCoe Idealize.SL.Sem Idealize.ShloMosaic.StableHlo
open Cert.Gnn.RefOps Cert.Gnn.RefTerms

/-- The fold over two lists appended is the fold over the second, from the fold over the first. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => exact ih _

/-! ## The contents after each stretch -/

/-- The contents after the stretch computing the edge endpoints, the counts and their comparisons with zero, from the contents before it. -/
def vCoefA (V : Valuation τ sig (Elt Ideal)) : Valuation τ sig (Elt Ideal) := after opsCoef_a V
/-- The contents after the stretch computing the power of the counts, from the contents before it. -/
def vCoefA2 (V : Valuation τ sig (Elt Ideal)) : Valuation τ sig (Elt Ideal) := after opsCoefA2_a V
/-- The contents after the stretch computing the inverse square-root counts, from the contents before it. -/
def vCoefA3 (V : Valuation τ sig (Elt Ideal)) : Valuation τ sig (Elt Ideal) := after opsCoefA3_a V
/-- The contents after the stretch computing the coefficient, from the contents before it. -/
def vCoefB (V : Valuation τ sig (Elt Ideal)) : Valuation τ sig (Elt Ideal) := after opsCoefB_a V
/-- The contents after the stretch computing the encoded rows, from the contents before it. -/
def vEnc (V : Valuation τ sig (Elt Ideal)) : Valuation τ sig (Elt Ideal) := after opsEnc_a V
/-- The contents after the stretch computing layer 0's matrix, from the contents before it. -/
def vW0 (V : Valuation τ sig (Elt Ideal)) : Valuation τ sig (Elt Ideal) := after opsW0_a V
/-- The contents after the stretch computing layer 0's step, from the contents before it. -/
def vS0 (V : Valuation τ sig (Elt Ideal)) : Valuation τ sig (Elt Ideal) := after opsS0_a V
/-- The contents after the stretch computing the first part of layer 1's matrix, from the contents before it. -/
def vW1A (V : Valuation τ sig (Elt Ideal)) : Valuation τ sig (Elt Ideal) := after opsW1_a V
/-- The contents after the stretch computing the rest of layer 1's matrix, from the contents before it. -/
def vW1B (V : Valuation τ sig (Elt Ideal)) : Valuation τ sig (Elt Ideal) := after opsW1_b V
/-- The contents after the stretch computing layer 1's step, from the contents before it. -/
def vS1 (V : Valuation τ sig (Elt Ideal)) : Valuation τ sig (Elt Ideal) := after opsS1_a V
/-- The contents after the stretch computing layer 2's matrix, from the contents before it. -/
def vW2 (V : Valuation τ sig (Elt Ideal)) : Valuation τ sig (Elt Ideal) := after opsW2_a V
/-- The contents after the stretch computing the first part of layer 2's step, from the contents before it. -/
def vS2A (V : Valuation τ sig (Elt Ideal)) : Valuation τ sig (Elt Ideal) := after opsS2_a V
/-- The contents after the stretch computing the rest of layer 2's step, from the contents before it. -/
def vS2B (V : Valuation τ sig (Elt Ideal)) : Valuation τ sig (Elt Ideal) := after opsS2_b V
/-- The contents after the stretch computing layer 3's matrix, from the contents before it. -/
def vW3 (V : Valuation τ sig (Elt Ideal)) : Valuation τ sig (Elt Ideal) := after opsW3_a V
/-- The contents after the stretch computing layer 3's step, from the contents before it. -/
def vS3 (V : Valuation τ sig (Elt Ideal)) : Valuation τ sig (Elt Ideal) := after opsS3_a V
/-- The contents after the stretch computing the first part of the decoding, from the contents before it. -/
def vDecA (V : Valuation τ sig (Elt Ideal)) : Valuation τ sig (Elt Ideal) := after opsDec_a V
/-- The contents after the stretch computing the rest of the decoding, from the contents before it. -/
def vDecB (V : Valuation τ sig (Elt Ideal)) : Valuation τ sig (Elt Ideal) := after opsDec_b V

/-- The contents after the whole list are the stretches' folds, one after the other. -/
theorem after_ops (V : Valuation τ sig (Elt Ideal)) :
    after ops V = vDecB (vDecA (vS3 (vW3 (vS2B (vS2A (vW2 (vS1 (vW1B (vW1A (vS0 (vW0 (vEnc (vCoefB (vCoefA3 (vCoefA2 (vCoefA V)))))))))))))))) := by
  simp only [ops, opsP0, opsP1, opsP2, opsP3, opsP4, after_append]
  rfl

/-! ## What a stretch leaves alone

Each operation writes its result buffer only; a reference not among the results of a stretch's operations keeps its
contents through the stretch. -/

theorem opsCoef_a_writes : (opsCoef_a : List (HloOp τ sig (Elt Ideal))).Forall fun op =>
    op.writes ⊆ (opsCoef_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vCoefA_keep (V : Valuation τ sig (Elt Ideal)) (r : Ref sig .tc) (h : r ∉ opsCoef_a_W) :
    vCoefA V (no_index (Proc.devRef .tc r)) = V (Proc.devRef .tc r) :=
  after_of_writes_sub opsCoef_a V opsCoef_a_writes h

theorem opsCoefA2_a_writes : (opsCoefA2_a : List (HloOp τ sig (Elt Ideal))).Forall fun op =>
    op.writes ⊆ (opsCoefA2_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vCoefA2_keep (V : Valuation τ sig (Elt Ideal)) (r : Ref sig .tc) (h : r ∉ opsCoefA2_a_W) :
    vCoefA2 V (no_index (Proc.devRef .tc r)) = V (Proc.devRef .tc r) :=
  after_of_writes_sub opsCoefA2_a V opsCoefA2_a_writes h

theorem opsCoefA3_a_writes : (opsCoefA3_a : List (HloOp τ sig (Elt Ideal))).Forall fun op =>
    op.writes ⊆ (opsCoefA3_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vCoefA3_keep (V : Valuation τ sig (Elt Ideal)) (r : Ref sig .tc) (h : r ∉ opsCoefA3_a_W) :
    vCoefA3 V (no_index (Proc.devRef .tc r)) = V (Proc.devRef .tc r) :=
  after_of_writes_sub opsCoefA3_a V opsCoefA3_a_writes h

theorem opsCoefB_a_writes : (opsCoefB_a : List (HloOp τ sig (Elt Ideal))).Forall fun op =>
    op.writes ⊆ (opsCoefB_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vCoefB_keep (V : Valuation τ sig (Elt Ideal)) (r : Ref sig .tc) (h : r ∉ opsCoefB_a_W) :
    vCoefB V (no_index (Proc.devRef .tc r)) = V (Proc.devRef .tc r) :=
  after_of_writes_sub opsCoefB_a V opsCoefB_a_writes h

theorem opsEnc_a_writes : (opsEnc_a : List (HloOp τ sig (Elt Ideal))).Forall fun op =>
    op.writes ⊆ (opsEnc_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vEnc_keep (V : Valuation τ sig (Elt Ideal)) (r : Ref sig .tc) (h : r ∉ opsEnc_a_W) :
    vEnc V (no_index (Proc.devRef .tc r)) = V (Proc.devRef .tc r) :=
  after_of_writes_sub opsEnc_a V opsEnc_a_writes h

theorem opsW0_a_writes : (opsW0_a : List (HloOp τ sig (Elt Ideal))).Forall fun op =>
    op.writes ⊆ (opsW0_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vW0_keep (V : Valuation τ sig (Elt Ideal)) (r : Ref sig .tc) (h : r ∉ opsW0_a_W) :
    vW0 V (no_index (Proc.devRef .tc r)) = V (Proc.devRef .tc r) :=
  after_of_writes_sub opsW0_a V opsW0_a_writes h

theorem opsS0_a_writes : (opsS0_a : List (HloOp τ sig (Elt Ideal))).Forall fun op =>
    op.writes ⊆ (opsS0_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vS0_keep (V : Valuation τ sig (Elt Ideal)) (r : Ref sig .tc) (h : r ∉ opsS0_a_W) :
    vS0 V (no_index (Proc.devRef .tc r)) = V (Proc.devRef .tc r) :=
  after_of_writes_sub opsS0_a V opsS0_a_writes h

theorem opsW1_a_writes : (opsW1_a : List (HloOp τ sig (Elt Ideal))).Forall fun op =>
    op.writes ⊆ (opsW1_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vW1A_keep (V : Valuation τ sig (Elt Ideal)) (r : Ref sig .tc) (h : r ∉ opsW1_a_W) :
    vW1A V (no_index (Proc.devRef .tc r)) = V (Proc.devRef .tc r) :=
  after_of_writes_sub opsW1_a V opsW1_a_writes h

theorem opsW1_b_writes : (opsW1_b : List (HloOp τ sig (Elt Ideal))).Forall fun op =>
    op.writes ⊆ (opsW1_b_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vW1B_keep (V : Valuation τ sig (Elt Ideal)) (r : Ref sig .tc) (h : r ∉ opsW1_b_W) :
    vW1B V (no_index (Proc.devRef .tc r)) = V (Proc.devRef .tc r) :=
  after_of_writes_sub opsW1_b V opsW1_b_writes h

theorem opsS1_a_writes : (opsS1_a : List (HloOp τ sig (Elt Ideal))).Forall fun op =>
    op.writes ⊆ (opsS1_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vS1_keep (V : Valuation τ sig (Elt Ideal)) (r : Ref sig .tc) (h : r ∉ opsS1_a_W) :
    vS1 V (no_index (Proc.devRef .tc r)) = V (Proc.devRef .tc r) :=
  after_of_writes_sub opsS1_a V opsS1_a_writes h

theorem opsW2_a_writes : (opsW2_a : List (HloOp τ sig (Elt Ideal))).Forall fun op =>
    op.writes ⊆ (opsW2_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vW2_keep (V : Valuation τ sig (Elt Ideal)) (r : Ref sig .tc) (h : r ∉ opsW2_a_W) :
    vW2 V (no_index (Proc.devRef .tc r)) = V (Proc.devRef .tc r) :=
  after_of_writes_sub opsW2_a V opsW2_a_writes h

theorem opsS2_a_writes : (opsS2_a : List (HloOp τ sig (Elt Ideal))).Forall fun op =>
    op.writes ⊆ (opsS2_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vS2A_keep (V : Valuation τ sig (Elt Ideal)) (r : Ref sig .tc) (h : r ∉ opsS2_a_W) :
    vS2A V (no_index (Proc.devRef .tc r)) = V (Proc.devRef .tc r) :=
  after_of_writes_sub opsS2_a V opsS2_a_writes h

theorem opsS2_b_writes : (opsS2_b : List (HloOp τ sig (Elt Ideal))).Forall fun op =>
    op.writes ⊆ (opsS2_b_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vS2B_keep (V : Valuation τ sig (Elt Ideal)) (r : Ref sig .tc) (h : r ∉ opsS2_b_W) :
    vS2B V (no_index (Proc.devRef .tc r)) = V (Proc.devRef .tc r) :=
  after_of_writes_sub opsS2_b V opsS2_b_writes h

theorem opsW3_a_writes : (opsW3_a : List (HloOp τ sig (Elt Ideal))).Forall fun op =>
    op.writes ⊆ (opsW3_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vW3_keep (V : Valuation τ sig (Elt Ideal)) (r : Ref sig .tc) (h : r ∉ opsW3_a_W) :
    vW3 V (no_index (Proc.devRef .tc r)) = V (Proc.devRef .tc r) :=
  after_of_writes_sub opsW3_a V opsW3_a_writes h

theorem opsS3_a_writes : (opsS3_a : List (HloOp τ sig (Elt Ideal))).Forall fun op =>
    op.writes ⊆ (opsS3_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vS3_keep (V : Valuation τ sig (Elt Ideal)) (r : Ref sig .tc) (h : r ∉ opsS3_a_W) :
    vS3 V (no_index (Proc.devRef .tc r)) = V (Proc.devRef .tc r) :=
  after_of_writes_sub opsS3_a V opsS3_a_writes h

theorem opsDec_a_writes : (opsDec_a : List (HloOp τ sig (Elt Ideal))).Forall fun op =>
    op.writes ⊆ (opsDec_a_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vDecA_keep (V : Valuation τ sig (Elt Ideal)) (r : Ref sig .tc) (h : r ∉ opsDec_a_W) :
    vDecA V (no_index (Proc.devRef .tc r)) = V (Proc.devRef .tc r) :=
  after_of_writes_sub opsDec_a V opsDec_a_writes h

theorem opsDec_b_writes : (opsDec_b : List (HloOp τ sig (Elt Ideal))).Forall fun op =>
    op.writes ⊆ (opsDec_b_W.map (Proc.devRef (τ := τ) .tc)).toFinset := by
  simp only [List.Forall, nullary_writes, unary_writes, binary_writes, ternary_writes, reshape_writes,
    Finset.singleton_subset_iff, List.mem_toFinset]
  split_ands <;> exact List.mem_map_of_mem (by decide)
theorem vDecB_keep (V : Valuation τ sig (Elt Ideal)) (r : Ref sig .tc) (h : r ∉ opsDec_b_W) :
    vDecB V (no_index (Proc.devRef .tc r)) = V (Proc.devRef .tc r) :=
  after_of_writes_sub opsDec_b V opsDec_b_writes h

/-! ## What each stretch computes

A stretch's operations, folded over any contents, leave the buffer the stretch is there to compute at the whole-array
term of RefTerms applied to the contents of the buffers the stretch reads: unfolding the fold operation by operation
gives the operations' functions composed, which is the term's definition. -/

/-- The coefficient from the two endpoint lists and the inverse square-root counts. -/
def coefOf (s d : IVec S1600000 32) (dv : FVec Ideal S100000 .f32) : FVec Ideal S100000 .f32 :=
  Host.scatterAdd (F := Ideal) scatter_S100000_S1600000x1_S1600000_n_0_0_1 zeros (wrap d)
    (mulf (F := Ideal) (Host.gather gather_S100000_S1600000x1_S1600000_n_0_n_n_0_1_1 dv (wrap s))
      (Host.gather gather_S100000_S1600000x1_S1600000_n_0_n_n_0_1_1 dv (wrap d)))

theorem coefOf_eq (E : IVec S2x1600000 32) : coefOf (src E) (dst E) (dinv E) = coef E := rfl

set_option maxHeartbeats 2000000 in
set_option maxRecDepth 8192 in
/-- The first endpoints. -/
theorem src_eq (V : Valuation τ sig (Elt Ideal)) :
    vCoefA V (no_index (Proc.devRef .tc main_v1)) =
      src (V (Proc.devRef .tc main_arg1)) := by
  unfold vCoefA
  apply Eq.trans
  · after_results_simp
    rfl
  · rfl

set_option maxHeartbeats 2000000 in
set_option maxRecDepth 8192 in
/-- The second endpoints. -/
theorem dst_eq (V : Valuation τ sig (Elt Ideal)) :
    vCoefA V (no_index (Proc.devRef .tc main_v3)) =
      dst (V (Proc.devRef .tc main_arg1)) := by
  unfold vCoefA
  apply Eq.trans
  · after_results_simp
    rfl
  · rfl

set_option maxHeartbeats 2000000 in
set_option maxRecDepth 8192 in
/-- The counts. -/
theorem deg_eq (V : Valuation τ sig (Elt Ideal)) :
    vCoefA V (no_index (Proc.devRef .tc main_v12)) =
      deg (V (Proc.devRef .tc main_arg1)) := by
  unfold vCoefA
  apply Eq.trans
  · after_results_simp
    rfl
  · rfl

set_option maxHeartbeats 2000000 in
set_option maxRecDepth 8192 in
/-- Where the counts are positive (the comparison the outer selection reads). -/
theorem pos14_eq (V : Valuation τ sig (Elt Ideal)) :
    vCoefA V (no_index (Proc.devRef .tc main_v14)) =
      cmpf .ogt (deg (V (Proc.devRef .tc main_arg1))) zeros := by
  unfold vCoefA
  apply Eq.trans
  · after_results_simp
    rfl
  · rfl

set_option maxHeartbeats 2000000 in
set_option maxRecDepth 8192 in
/-- Where the counts are positive (the comparison the inner selection reads). -/
theorem pos16_eq (V : Valuation τ sig (Elt Ideal)) :
    vCoefA V (no_index (Proc.devRef .tc main_v16)) =
      cmpf .ogt (deg (V (Proc.devRef .tc main_arg1))) zeros := by
  unfold vCoefA
  apply Eq.trans
  · after_results_simp
    rfl
  · rfl

set_option maxHeartbeats 2000000 in
set_option maxRecDepth 8192 in
/-- The power -1/2 of the counts, 1 put where the inner comparison fails: read over the contents of the comparison's
    and the counts' buffers. -/
theorem pow_eq (V : Valuation τ sig (Elt Ideal)) :
    vCoefA2 V (no_index (Proc.devRef .tc main_v19)) =
      Host.powf (F := Ideal)
        (select (V (Proc.devRef .tc main_v16)) (V (Proc.devRef .tc main_v12))
          (broadcastInDim S100000 ![] bcast_S_S100000 (constant (F := Ideal) S_ .f32 0x3F800000#32)))
        (broadcastInDim S100000 ![] bcast_S_S100000 (constant (F := Ideal) S_ .f32 0xBF000000#32)) := by
  unfold vCoefA2
  apply Eq.trans
  · after_results_simp
    rfl
  · rfl

set_option maxHeartbeats 2000000 in
set_option maxRecDepth 8192 in
/-- The outer selection: the power where the outer comparison holds, 0 elsewhere, read over the contents of the
    comparison's and the power's buffers. -/
theorem sel_eq (V : Valuation τ sig (Elt Ideal)) :
    vCoefA3 V (no_index (Proc.devRef .tc main_v20)) =
      select (V (Proc.devRef .tc main_v14)) (V (Proc.devRef .tc main_v19))
        (broadcastInDim S100000 ![] bcast_S_S100000 (constant (F := Ideal) S_ .f32 0x00000000#32)) := by
  unfold vCoefA3
  apply Eq.trans
  · after_results_simp
    rfl
  · rfl

set_option maxHeartbeats 2000000 in
set_option maxRecDepth 8192 in
/-- The inverse square-root counts: the three stretches chained. -/
theorem dinv_eq (V : Valuation τ sig (Elt Ideal)) :
    vCoefA3 (vCoefA2 (vCoefA V)) (no_index (Proc.devRef .tc main_v20)) =
      dinv (V (Proc.devRef .tc main_arg1)) := by
  simp (disch := decide) only [sel_eq, pow_eq, pos14_eq, pos16_eq, deg_eq, vCoefA2_keep]
  rfl

set_option maxHeartbeats 2000000 in
set_option maxRecDepth 8192 in
/-- The coefficient from the endpoints and the inverse square-root counts. -/
theorem coefB_eq (V : Valuation τ sig (Elt Ideal)) :
    vCoefB V (no_index (Proc.devRef .tc main_v43)) =
      coefOf (V (Proc.devRef .tc main_v1)) (V (Proc.devRef .tc main_v3)) (V (Proc.devRef .tc main_v20)) := by
  unfold vCoefB
  apply Eq.trans
  · after_results_simp
    rfl
  · rfl

set_option maxHeartbeats 2000000 in
set_option maxRecDepth 8192 in
/-- The encoded rows. -/
theorem enc_eq (V : Valuation τ sig (Elt Ideal)) :
    vEnc V (no_index (Proc.devRef .tc main_v48)) =
      hEnc (V (Proc.devRef .tc main_arg0)) (V (Proc.devRef .tc main_arg2)) (V (Proc.devRef .tc main_arg3)) := by
  unfold vEnc
  apply Eq.trans
  · after_results_simp
    rfl
  · rfl

set_option maxHeartbeats 2000000 in
set_option maxRecDepth 8192 in
/-- Layer 0's matrix. -/
theorem w0_eq (V : Valuation τ sig (Elt Ideal)) :
    vW0 V (no_index (Proc.devRef .tc main_v64)) =
      weffT0 (V (Proc.devRef .tc main_arg4)) := by
  unfold vW0
  apply Eq.trans
  · after_results_simp
    rfl
  · rfl

set_option maxHeartbeats 2000000 in
set_option maxRecDepth 8192 in
/-- Layer 0's step. -/
theorem s0_eq (V : Valuation τ sig (Elt Ideal)) :
    vS0 V (no_index (Proc.devRef .tc main_v89)) =
      stepT0 (V (Proc.devRef .tc main_v48)) (V (Proc.devRef .tc main_v48)) (V (Proc.devRef .tc main_v43)) (V (Proc.devRef .tc main_v64)) (V (Proc.devRef .tc main_arg5)) (V (Proc.devRef .tc main_arg6)) (V (Proc.devRef .tc main_arg7)) := by
  unfold vS0
  apply Eq.trans
  · after_results_simp
    rfl
  · rfl

set_option maxHeartbeats 2000000 in
set_option maxRecDepth 8192 in
/-- Layer 1's matrix. -/
theorem w1_eq (V : Valuation τ sig (Elt Ideal)) :
    vW1B (vW1A V) (no_index (Proc.devRef .tc main_v105)) =
      weffT1 (V (Proc.devRef .tc main_arg4)) := by
  unfold vW1B vW1A
  apply Eq.trans
  · after_results_simp
    rfl
  · rfl

set_option maxHeartbeats 2000000 in
set_option maxRecDepth 8192 in
/-- Layer 1's step. -/
theorem s1_eq (V : Valuation τ sig (Elt Ideal)) :
    vS1 V (no_index (Proc.devRef .tc main_v130)) =
      stepT1 (V (Proc.devRef .tc main_v89)) (V (Proc.devRef .tc main_v48)) (V (Proc.devRef .tc main_v43)) (V (Proc.devRef .tc main_v105)) (V (Proc.devRef .tc main_arg5)) (V (Proc.devRef .tc main_arg6)) (V (Proc.devRef .tc main_arg7)) := by
  unfold vS1
  apply Eq.trans
  · after_results_simp
    rfl
  · rfl

set_option maxHeartbeats 2000000 in
set_option maxRecDepth 8192 in
/-- Layer 2's matrix. -/
theorem w2_eq (V : Valuation τ sig (Elt Ideal)) :
    vW2 V (no_index (Proc.devRef .tc main_v146)) =
      weffT2 (V (Proc.devRef .tc main_arg4)) := by
  unfold vW2
  apply Eq.trans
  · after_results_simp
    rfl
  · rfl

set_option maxHeartbeats 2000000 in
set_option maxRecDepth 8192 in
/-- Layer 2's step. -/
theorem s2_eq (V : Valuation τ sig (Elt Ideal)) :
    vS2B (vS2A V) (no_index (Proc.devRef .tc main_v171)) =
      stepT2 (V (Proc.devRef .tc main_v130)) (V (Proc.devRef .tc main_v48)) (V (Proc.devRef .tc main_v43)) (V (Proc.devRef .tc main_v146)) (V (Proc.devRef .tc main_arg5)) (V (Proc.devRef .tc main_arg6)) (V (Proc.devRef .tc main_arg7)) := by
  unfold vS2B vS2A
  apply Eq.trans
  · after_results_simp
    rfl
  · rfl

set_option maxHeartbeats 2000000 in
set_option maxRecDepth 8192 in
/-- Layer 3's matrix. -/
theorem w3_eq (V : Valuation τ sig (Elt Ideal)) :
    vW3 V (no_index (Proc.devRef .tc main_v187)) =
      weffT3 (V (Proc.devRef .tc main_arg4)) := by
  unfold vW3
  apply Eq.trans
  · after_results_simp
    rfl
  · rfl

set_option maxHeartbeats 2000000 in
set_option maxRecDepth 8192 in
/-- Layer 3's step. -/
theorem s3_eq (V : Valuation τ sig (Elt Ideal)) :
    vS3 V (no_index (Proc.devRef .tc main_v212)) =
      stepT3 (V (Proc.devRef .tc main_v171)) (V (Proc.devRef .tc main_v48)) (V (Proc.devRef .tc main_v43)) (V (Proc.devRef .tc main_v187)) (V (Proc.devRef .tc main_arg5)) (V (Proc.devRef .tc main_arg6)) (V (Proc.devRef .tc main_arg7)) := by
  unfold vS3
  apply Eq.trans
  · after_results_simp
    rfl
  · rfl

set_option maxHeartbeats 2000000 in
set_option maxRecDepth 8192 in
/-- The decoded rows. -/
theorem dec_eq (V : Valuation τ sig (Elt Ideal)) :
    vDecB (vDecA V) (no_index (Proc.devRef .tc main_v217)) =
      decT (V (Proc.devRef .tc main_v212)) (V (Proc.devRef .tc main_arg8)) (V (Proc.devRef .tc main_arg9)) := by
  unfold vDecB vDecA
  apply Eq.trans
  · after_results_simp
    rfl
  · rfl

/-! ## The whole list -/

set_option maxHeartbeats 4000000 in
set_option maxRecDepth 8192 in
/-- The result buffer after the whole list: refOut of the ten arguments' contents. -/
theorem out_eq (V : Valuation τ sig (Elt Ideal)) :
    after ops V (Proc.devRef .tc main_v217) =
      refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops]
  simp (disch := decide) only [dec_eq, s3_eq, w3_eq, s2_eq, w2_eq, s1_eq, w1_eq, s0_eq, w0_eq, enc_eq, coefB_eq, src_eq, dst_eq, dinv_eq, coefOf_eq,
    vCoefA_keep, vCoefA2_keep, vCoefA3_keep, vCoefB_keep, vEnc_keep, vW0_keep, vS0_keep, vW1A_keep, vW1B_keep, vS1_keep, vW2_keep, vS2A_keep, vS2B_keep, vW3_keep, vS3_keep, vDecA_keep, vDecB_keep]
  rfl

set_option maxHeartbeats 4000000 in
set_option maxRecDepth 8192 in
/-- No operation writes an argument's buffer. -/
theorem args_eq (V : Valuation τ sig (Elt Ideal)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9) := by
  rw [after_ops]
  simp (disch := decide) only [vCoefA_keep, vCoefA2_keep, vCoefA3_keep, vCoefB_keep, vEnc_keep, vW0_keep, vS0_keep, vW1A_keep, vW1B_keep, vS1_keep, vW2_keep, vS2A_keep, vS2B_keep, vW3_keep, vS3_keep, vDecA_keep, vDecB_keep, and_self]

/-- On every device, from any memory with zero counters: every weakly fair execution of the reference program terminates
    with its result buffer at refOut of the arguments' contents at launch, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread nD τ).loc main_v217) = Cert.Gnn.RefTerms.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      have ha := args_eq (launchContents m c)
      ⟨(h c main_v217).trans (out_eq (launchContents m c)),
        (h c main_arg0).trans ha.1, (h c main_arg1).trans ha.2.1, (h c main_arg2).trans ha.2.2.1,
        (h c main_arg3).trans ha.2.2.2.1, (h c main_arg4).trans ha.2.2.2.2.1, (h c main_arg5).trans ha.2.2.2.2.2.1,
        (h c main_arg6).trans ha.2.2.2.2.2.2.1, (h c main_arg7).trans ha.2.2.2.2.2.2.2.1,
        (h c main_arg8).trans ha.2.2.2.2.2.2.2.2.1, (h c main_arg9).trans ha.2.2.2.2.2.2.2.2.2⟩)
    (run_ops m ρ)

end Cert.Gnn.RefRun

end
-- ==== Proof.LibHostStep.lean ====
/-
  A host dense layer and the network's update step, read at one entry, over arrays with any number of rows; and the
  cut of one row out of a short stack of rows, or of one entry out of a short vector, read at an entry.

  A dense layer is spelled as the product of the rows by the transposed weight matrix plus the bias vector laid as a
  single row and repeated down the rows. At row `R`, column `j` it is the sum over `k` of `h (R, k) * W (j, k)` plus
  `b j`: the row of `h` through `Spec.dense`. The update step is spelled entrywise over whole arrays, with the
  per-row coefficient stood up as a column and repeated along the columns, the two per-column vectors laid as a row and
  repeated down the rows, and the three scalars repeated everywhere; at `(R, j)` it is `Spec.step` of row `R`.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«110196_j66305705116250_1_alg».proof.Proof.Spec
import proofs.«110196_j66305705116250_1_alg».proof.Proof.LibPlainProduct
import proofs.«110196_j66305705116250_1_alg».proof.Proof.LibHostLayout

noncomputable section

namespace HostStep

open Idealize.ShloMosaic Idealize.ShloMosaic.ValueIdx Idealize.ShloMosaic.HostLayout

/-- A host dense layer at `(R, j)`: the rows `h` (`n × K`) times the transpose of the weights `W` (`N × K`), plus the
    bias `b` laid as a row and repeated down the `n` rows, is `Spec.dense` of row `R` of `h` at `j`. -/
theorem hostDense_at {n K N : ℕ} (d : DotDims ⟨2, ![n, K]⟩ ⟨2, ![K, N]⟩ ⟨2, ![n, N]⟩) (hd : d = DotDims.plain n K N)
    (prec : Option ContractPrecision)
    (ht : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![n, N]⟩ (![0, 1] : Fin 2 → Fin 2))
    (h : FVec Ideal ⟨2, ![n, K]⟩ .f32) (W : FVec Ideal ⟨2, ![N, K]⟩ .f32) (b : FVec Ideal ⟨1, ![N]⟩ .f32)
    (R : Fin n) (j : Fin N) :
    addf (Host.dotGeneral d prec h (transpose ⟨2, ![K, N]⟩ [1, 0] W ht))
        (broadcastInDim ⟨2, ![n, N]⟩ ![0, 1] h2 (broadcastInDim ⟨2, ![1, N]⟩ ![1] h1 b)) (ix2 R j)
      = Cert.Gnn.Spec.dense (fun k => h (ix2 R k)) (fun a k => W (ix2 a k)) (fun a => b (ix1 a)) j := by
  rw [addf_apply, PlainProduct.dotGeneral_at d hd, bcast_1b_ab_apply, bcast_b_1b_apply]
  unfold Cert.Gnn.Spec.dense
  refine congrArg (· + b (ix1 j)) ?_
  exact Finset.sum_congr rfl fun c _ => by rw [transpose_ix2_apply]

/-- The host update step at `(R, j)`: with `h` the current rows, `h0` the encoded rows, `C` the per-row coefficients,
    `W` the step matrix, `wb` and `ext` the layer's two vectors and `β` its scalar, the array
    `h + 0.1 · max (C · (h·Wᵀ + wb) − (h ∘ ext + β · h0), 0)` is `Spec.step` of row `R` at `j`. -/
theorem hostStep_at {n : ℕ} (d : DotDims ⟨2, ![n, 128]⟩ ⟨2, ![128, 128]⟩ ⟨2, ![n, 128]⟩)
    (hd : d = DotDims.plain n 128 128) (prec : Option ContractPrecision)
    (ht : (⟨2, ![128, 128]⟩ : Shape).Transposes [1, 0] ⟨2, ![128, 128]⟩)
    (h1 : (⟨1, ![128]⟩ : Shape).BroadcastsInDim ⟨2, ![1, 128]⟩ (![1] : Fin 1 → Fin 2))
    (h2 : (⟨2, ![1, 128]⟩ : Shape).BroadcastsInDim ⟨2, ![n, 128]⟩ (![0, 1] : Fin 2 → Fin 2))
    (hc1 : (⟨1, ![n]⟩ : Shape).BroadcastsInDim ⟨2, ![n, 1]⟩ (![0] : Fin 1 → Fin 2))
    (hc2 : (⟨2, ![n, 1]⟩ : Shape).BroadcastsInDim ⟨2, ![n, 128]⟩ (![0, 1] : Fin 2 → Fin 2))
    (hs : (⟨0, ![]⟩ : Shape).BroadcastsInDim ⟨2, ![n, 128]⟩ ![])
    (h h0 : FVec Ideal ⟨2, ![n, 128]⟩ .f32) (C : FVec Ideal ⟨1, ![n]⟩ .f32) (W : FVec Ideal ⟨2, ![128, 128]⟩ .f32)
    (wb ext : FVec Ideal ⟨1, ![128]⟩ .f32) (β : FVec Ideal ⟨0, ![]⟩ .f32) (R : Fin n) (j : Fin 128) :
    addf h (mulf (broadcastInDim ⟨2, ![n, 128]⟩ ![] hs (constant (F := Ideal) ⟨0, ![]⟩ .f32 0x3DCCCCCD#32))
      (maximumf
        (subf
          (mulf (broadcastInDim ⟨2, ![n, 128]⟩ ![0, 1] hc2 (broadcastInDim ⟨2, ![n, 1]⟩ ![0] hc1 C))
            (addf (Host.dotGeneral d prec h (transpose ⟨2, ![128, 128]⟩ [1, 0] W ht))
              (broadcastInDim ⟨2, ![n, 128]⟩ ![0, 1] h2 (broadcastInDim ⟨2, ![1, 128]⟩ ![1] h1 wb))))
          (addf (mulf h (broadcastInDim ⟨2, ![n, 128]⟩ ![0, 1] h2 (broadcastInDim ⟨2, ![1, 128]⟩ ![1] h1 ext)))
            (mulf (broadcastInDim ⟨2, ![n, 128]⟩ ![] hs β) h0)))
        (broadcastInDim ⟨2, ![n, 128]⟩ ![] hs (constant (F := Ideal) ⟨0, ![]⟩ .f32 0x00000000#32)))) (ix2 R j)
      = Cert.Gnn.Spec.step (C (ix1 R)) (β ix0) (fun a k => W (ix2 a k)) (fun a => wb (ix1 a)) (fun a => ext (ix1 a))
          (fun k => h0 (ix2 R k)) (fun k => h (ix2 R k)) j := by
  rw [addf_apply, mulf_apply, maximumf_apply, subf_apply, mulf_apply, addf_apply (mulf _ _), mulf_apply, mulf_apply,
    hostDense_at d hd prec ht h1 h2 h W wb R j,
    broadcastInDim_scalar_apply, broadcastInDim_scalar_apply, broadcastInDim_scalar_apply,
    constant_apply, constant_apply, Ideal.ofBits_zero_f32,
    bcast_a1_ab_apply, bcast_a_a1_apply, bcast_1b_ab_apply, bcast_b_1b_apply]
  rfl

/-- Row `l` cut out of a stack of `m` rows of width `b` (the slice `[l : l+1, 0 : b]`, then the unit axis dropped)
    reads, at `a`, the stack at `(l, a)`. -/
theorem rowCut_apply {α : Type} {m b : ℕ} (l : ℕ) (X : (⟨2, ![m, b]⟩ : Shape).Idx → α)
    (hs : (⟨2, ![m, b]⟩ : Shape).Slices ![l, 0] ⟨2, ![1, b]⟩)
    (hc : (⟨2, ![1, b]⟩ : Shape).ShapeCasts ⟨1, ![b]⟩) (k : Fin m) (hk : k.val = l) (a : Fin b) :
    shapeCast ⟨1, ![b]⟩ (extractStridedSlice ⟨2, ![1, b]⟩ ![l, 0] X hs) hc (ix1 a) = X (ix2 k a) := by
  rw [shapeCast_1a_a_apply]
  exact slice2_axis0_apply l X hs (0 : Fin 1) a k (by rw [hk]; rfl)

/-- Entry `l` cut out of a vector of `m` entries (the slice `[l : l+1]`, then reshaped to a scalar) is the vector's
    entry `l`. -/
theorem entryCut_apply {α : Type} {m : ℕ} (l : ℕ) (X : (⟨1, ![m]⟩ : Shape).Idx → α)
    (hs : (⟨1, ![m]⟩ : Shape).Slices ![l] ⟨1, ![1]⟩)
    (hc : (⟨1, ![1]⟩ : Shape).ShapeCasts ⟨0, ![]⟩) (k : Fin m) (hk : k.val = l) :
    shapeCast ⟨0, ![]⟩ (extractStridedSlice ⟨1, ![1]⟩ ![l] X hs) hc ix0 = X (ix1 k) := by
  have e : shapeCast ⟨0, ![]⟩ (extractStridedSlice ⟨1, ![1]⟩ ![l] X hs) hc ix0
      = extractStridedSlice ⟨1, ![1]⟩ ![l] X hs (ix1 (0 : Fin 1)) :=
    shapeCast_apply _ hc ix0 (ix1 (0 : Fin 1)) (by
      rw [Shape.rowMajor_val_one]
      have := ((⟨0, ![]⟩ : Shape).rowMajor ix0).isLt
      show 0 = _
      simp [Shape.numel] at this
      omega)
  rw [e]
  exact extractStridedSlice_apply _ _ hs (ix1 (0 : Fin 1)) (ix1 k) (fun ax => by
    match ax with
    | ⟨0, _⟩ =>
      show k.val = l + (0 : Fin 1).val
      rw [hk]; rfl)

end HostStep

end
-- ==== Proof.RefWeff.lean ====
/-
  The reference's four step matrices, read entry by entry over the extended reals.

  The reference builds each layer's matrix from that layer's raw `128 × 130` block: the strict upper triangle of the
  first 128 columns (entries whose column does not exceed the row replaced by zero), plus its transpose, plus a matrix
  that holds, on the diagonal, column 128 times the row sum of absolute values plus column 129, and zero elsewhere.
  Entry `(a, b)` of the result is the specification's step matrix at `(a, b)`. One lemma covers a block however it was
  obtained; the four layers are its instances at the four members of the stack of raw blocks.
-/
import proofs.«110196_j66305705116250_1_alg».proof.Proof.RefTerms
import proofs.«110196_j66305705116250_1_alg».proof.Proof.Spec
import proofs.«110196_j66305705116250_1_alg».proof.Proof.LibTriangle
import proofs.«110196_j66305705116250_1_alg».proof.Proof.LibHostLayout
import Idealize.ShloMosaic.Lib.ValueLayout

noncomputable section

namespace Cert.Gnn.RefWeff

open Cert.ReferenceIdeal Cert.ReferenceIdeal.Gen Idealize.ShloMosaic Idealize.ShloMosaic.ValueIdx
open Idealize.ShloMosaic.Triangle Idealize.ShloMosaic.HostLayout
open Cert.Gnn

/-- The strict upper triangle at `(a, b)`: zero where the column does not exceed the row. -/
theorem triu_apply (x : FVec Ideal S128x128 .f32) (a b : Fin 128) :
    RefTerms.triu x (ix2 a b) = if b.val ≤ a.val then 0 else x (ix2 a b) := by
  unfold RefTerms.triu
  rw [select_apply, geMask_ix2 (by norm_num), broadcastInDim_scalar_apply, constant_apply, Ideal.ofBits_zero_f32]
  exact select_ofBool_decide _ _ _

/-- The matrix with a vector on its diagonal at `(a, b)`. -/
theorem diagT_apply (d : FVec Ideal S128 .f32) (a b : Fin 128) :
    RefTerms.diagT d (ix2 a b) = if a = b then d (ix1 a) else 0 := by
  unfold RefTerms.diagT
  rw [select_apply, eqMask_ix2 (by norm_num), bcast_a1_ab_apply, bcast_a_a1_apply, pad_none_apply,
    broadcastInDim_scalar_apply, constant_apply, Ideal.ofBits_zero_f32, select_ofBool_decide]
  by_cases h : a = b
  · rw [if_pos h, if_pos (congrArg Fin.val h)]
  · rw [if_neg h, if_neg (fun hv => h (Fin.ext hv))]

section Block

variable (blk : FVec Ideal S128x130 .f32) (W : Fin 4 → Fin 128 → Fin 130 → EReal) (l : Fin 4)
variable (hW : ∀ (a : Fin 128) (b : Fin 130), blk (ix2 a b) = W l a b)

include hW

theorem up_apply (a b : Fin 128) :
    RefTerms.triu (extractStridedSlice S128x128 ![0, 0] blk slices_S128x130_S128x128_0_0) (ix2 a b) = Spec.up W l a b := by
  rw [triu_apply]
  unfold Spec.up
  refine congrArg (fun z => if b.val ≤ a.val then (0 : EReal) else z) ?_
  exact (leadingColumns2_apply blk _ a b ⟨b.val, by have := b.isLt; omega⟩ rfl).trans (hW a _)

theorem symT_apply (a b : Fin 128) : RefTerms.symT blk (ix2 a b) = Spec.sym W l a b := by
  unfold RefTerms.symT Spec.sym
  rw [addf_apply, transpose_ix2_apply, up_apply blk W l hW, up_apply blk W l hW]

theorem dvec_apply (a : Fin 128) : RefTerms.dvec blk (ix1 a) = Spec.diagv W l a := by
  unfold RefTerms.dvec Spec.diagv
  rw [addf_apply, mulf_apply, column2_apply 128 blk _ _ a ⟨128, by norm_num⟩ rfl,
    column2_apply 129 blk _ _ a ⟨129, by norm_num⟩ rfl,
    hostRowSum_apply _ _ _ _ (by rw [constant_apply]; exact Ideal.ofBits_zero_f32), hW, hW]
  refine congrArg (fun z => W l a ⟨128, by norm_num⟩ * z + W l a ⟨129, by norm_num⟩) ?_
  exact Finset.sum_congr rfl fun q _ => by rw [hostAbsf_apply, symT_apply blk W l hW]

/-- A block's step matrix at `(a, b)` is the specification's, for the layer whose raw block it is. -/
theorem weffOf_apply (a b : Fin 128) : RefTerms.weffOf blk (ix2 a b) = Spec.weff W l a b := by
  unfold RefTerms.weffOf Spec.weff
  rw [addf_apply, symT_apply blk W l hW, diagT_apply, dvec_apply blk W l hW]

end Block

/-- Member `o` of the stack of raw blocks, as a matrix, at `(a, b)`. -/
theorem block_apply (WR : FVec Ideal S4x128x130 .f32) (o : ℕ) (h : S4x128x130.Slices ![o, 0, 0] S1x128x130)
    (l : Fin 4) (hl : l.val = o) (a : Fin 128) (b : Fin 130) :
    shapeCast S128x130 (extractStridedSlice S1x128x130 ![o, 0, 0] WR h) shapeCasts_S1x128x130_S128x130 (ix2 a b)
      = WR (ix3 l a b) :=
  (shapeCast_1ab_ab_apply _ _ a b).trans (slice3_axis0_apply o WR h 0 a b l hl)

theorem weffT0_apply (WR : FVec Ideal S4x128x130 .f32) (a b : Fin 128) :
    RefTerms.weffT0 WR (ix2 a b) = Spec.weff (fun l a b => WR (ix3 l a b)) 0 a b :=
  weffOf_apply _ _ 0 (fun a b => block_apply WR 0 _ 0 rfl a b) a b

theorem weffT1_apply (WR : FVec Ideal S4x128x130 .f32) (a b : Fin 128) :
    RefTerms.weffT1 WR (ix2 a b) = Spec.weff (fun l a b => WR (ix3 l a b)) 1 a b :=
  weffOf_apply _ _ 1 (fun a b => block_apply WR 1 _ 1 rfl a b) a b

theorem weffT2_apply (WR : FVec Ideal S4x128x130 .f32) (a b : Fin 128) :
    RefTerms.weffT2 WR (ix2 a b) = Spec.weff (fun l a b => WR (ix3 l a b)) 2 a b :=
  weffOf_apply _ _ 2 (fun a b => block_apply WR 2 _ 2 rfl a b) a b

theorem weffT3_apply (WR : FVec Ideal S4x128x130 .f32) (a b : Fin 128) :
    RefTerms.weffT3 WR (ix2 a b) = Spec.weff (fun l a b => WR (ix3 l a b)) 3 a b :=
  weffOf_apply _ _ 3 (fun a b => block_apply WR 3 _ 3 rfl a b) a b

end Cert.Gnn.RefWeff

end
-- ==== Proof.RefRead.lean ====
/-
  The reference's main chain read at one entry of its result.

  The chain is an encoding dense layer, four update steps and a decoding dense layer, each a whole-array term over
  all 100000 rows. Read at row `R`, each stage depends only on row `R` of the stage before (and on the weights and on the
  row's coefficient), so the result's entry `(R, j)` is the specification's `Grow` at `(R, j)`: the encoded row is
  `Spec.h0` of the feature row, step `l` is `Spec.lay` at layer `l`, and the decoding is the last `Spec.dense`.
  The step matrices enter only through their entries, which are the specification's `weff`; the coefficient stays the
  array it is, read at `R`.
-/
import proofs.«110196_j66305705116250_1_alg».proof.Proof.Spec
import proofs.«110196_j66305705116250_1_alg».proof.Proof.LibHostStep
import proofs.«110196_j66305705116250_1_alg».proof.Proof.RefTerms
import proofs.«110196_j66305705116250_1_alg».proof.Proof.RefWeff

noncomputable section

namespace Cert.Gnn.RefRead

open Idealize.ShloMosaic Idealize.ShloMosaic.ValueIdx Cert.ReferenceIdeal Cert.Gnn

/-- The encoded array at row `R` is `Spec.h0` of row `R` of the features. -/
theorem hEnc_row (X : FVec Ideal S100000x256 .f32) (EW : FVec Ideal S128x256 .f32) (EB : FVec Ideal S128 .f32)
    (WR : FVec Ideal S4x128x130 .f32) (WB EXT : FVec Ideal S4x128 .f32) (BETA : FVec Ideal S4 .f32)
    (DW : FVec Ideal S40x128 .f32) (DB : FVec Ideal S40 .f32) (R : Fin 100000) :
    (fun k : Fin 128 => Cert.Gnn.RefTerms.hEnc X EW EB (ix2 R k))
      = Spec.h0 (Spec.wts EW EB WR WB EXT BETA DW DB) (fun k => X (ix2 R k)) := by
  funext j
  unfold Cert.Gnn.RefTerms.hEnc
  exact HostStep.hostDense_at _ rfl _ _ _ _ X EW EB R j

/-- Step 0 of the chain at row `R`: the row of the new hidden array is `Spec.lay` at layer 0 of the rows of the encoded
    array and of the current hidden array, once the step matrix passed in is the specification's matrix of layer 0. -/
theorem stepT0_row (h h0 : FVec Ideal S100000x128 .f32) (C : FVec Ideal S100000 .f32) (W : FVec Ideal S128x128 .f32)
    (EW : FVec Ideal S128x256 .f32) (EB : FVec Ideal S128 .f32) (WR : FVec Ideal S4x128x130 .f32)
    (WB EXT : FVec Ideal S4x128 .f32) (BETA : FVec Ideal S4 .f32) (DW : FVec Ideal S40x128 .f32) (DB : FVec Ideal S40 .f32)
    (hW : ∀ a b : Fin 128, W (ix2 a b) = Spec.weff (fun l a b => WR (ix3 l a b)) 0 a b) (R : Fin 100000) :
    (fun k : Fin 128 => Cert.Gnn.RefTerms.stepT0 h h0 C W WB EXT BETA (ix2 R k))
      = Spec.lay (Spec.wts EW EB WR WB EXT BETA DW DB) (C (ix1 R)) 0 (fun k => h0 (ix2 R k)) (fun k => h (ix2 R k)) := by
  funext j
  unfold Cert.Gnn.RefTerms.stepT0 Cert.Gnn.RefTerms.stepOf Cert.Gnn.RefTerms.rowB Cert.Gnn.RefTerms.entB
  refine (HostStep.hostStep_at _ rfl _ _ _ _ _ _ _ h h0 C W _ _ _ R j).trans ?_
  rw [HostStep.entryCut_apply 0 BETA _ _ (0 : Fin 4) rfl]
  simp only [HostStep.rowCut_apply 0 _ _ _ (0 : Fin 4) rfl, hW]
  rfl

/-- Step 1 of the chain at row `R`: the row of the new hidden array is `Spec.lay` at layer 1 of the rows of the encoded
    array and of the current hidden array, once the step matrix passed in is the specification's matrix of layer 1. -/
theorem stepT1_row (h h0 : FVec Ideal S100000x128 .f32) (C : FVec Ideal S100000 .f32) (W : FVec Ideal S128x128 .f32)
    (EW : FVec Ideal S128x256 .f32) (EB : FVec Ideal S128 .f32) (WR : FVec Ideal S4x128x130 .f32)
    (WB EXT : FVec Ideal S4x128 .f32) (BETA : FVec Ideal S4 .f32) (DW : FVec Ideal S40x128 .f32) (DB : FVec Ideal S40 .f32)
    (hW : ∀ a b : Fin 128, W (ix2 a b) = Spec.weff (fun l a b => WR (ix3 l a b)) 1 a b) (R : Fin 100000) :
    (fun k : Fin 128 => Cert.Gnn.RefTerms.stepT1 h h0 C W WB EXT BETA (ix2 R k))
      = Spec.lay (Spec.wts EW EB WR WB EXT BETA DW DB) (C (ix1 R)) 1 (fun k => h0 (ix2 R k)) (fun k => h (ix2 R k)) := by
  funext j
  unfold Cert.Gnn.RefTerms.stepT1 Cert.Gnn.RefTerms.stepOf Cert.Gnn.RefTerms.rowB Cert.Gnn.RefTerms.entB
  refine (HostStep.hostStep_at _ rfl _ _ _ _ _ _ _ h h0 C W _ _ _ R j).trans ?_
  rw [HostStep.entryCut_apply 1 BETA _ _ (1 : Fin 4) rfl]
  simp only [HostStep.rowCut_apply 1 _ _ _ (1 : Fin 4) rfl, hW]
  rfl

/-- Step 2 of the chain at row `R`: the row of the new hidden array is `Spec.lay` at layer 2 of the rows of the encoded
    array and of the current hidden array, once the step matrix passed in is the specification's matrix of layer 2. -/
theorem stepT2_row (h h0 : FVec Ideal S100000x128 .f32) (C : FVec Ideal S100000 .f32) (W : FVec Ideal S128x128 .f32)
    (EW : FVec Ideal S128x256 .f32) (EB : FVec Ideal S128 .f32) (WR : FVec Ideal S4x128x130 .f32)
    (WB EXT : FVec Ideal S4x128 .f32) (BETA : FVec Ideal S4 .f32) (DW : FVec Ideal S40x128 .f32) (DB : FVec Ideal S40 .f32)
    (hW : ∀ a b : Fin 128, W (ix2 a b) = Spec.weff (fun l a b => WR (ix3 l a b)) 2 a b) (R : Fin 100000) :
    (fun k : Fin 128 => Cert.Gnn.RefTerms.stepT2 h h0 C W WB EXT BETA (ix2 R k))
      = Spec.lay (Spec.wts EW EB WR WB EXT BETA DW DB) (C (ix1 R)) 2 (fun k => h0 (ix2 R k)) (fun k => h (ix2 R k)) := by
  funext j
  unfold Cert.Gnn.RefTerms.stepT2 Cert.Gnn.RefTerms.stepOf Cert.Gnn.RefTerms.rowB Cert.Gnn.RefTerms.entB
  refine (HostStep.hostStep_at _ rfl _ _ _ _ _ _ _ h h0 C W _ _ _ R j).trans ?_
  rw [HostStep.entryCut_apply 2 BETA _ _ (2 : Fin 4) rfl]
  simp only [HostStep.rowCut_apply 2 _ _ _ (2 : Fin 4) rfl, hW]
  rfl

/-- Step 3 of the chain at row `R`: the row of the new hidden array is `Spec.lay` at layer 3 of the rows of the encoded
    array and of the current hidden array, once the step matrix passed in is the specification's matrix of layer 3. -/
theorem stepT3_row (h h0 : FVec Ideal S100000x128 .f32) (C : FVec Ideal S100000 .f32) (W : FVec Ideal S128x128 .f32)
    (EW : FVec Ideal S128x256 .f32) (EB : FVec Ideal S128 .f32) (WR : FVec Ideal S4x128x130 .f32)
    (WB EXT : FVec Ideal S4x128 .f32) (BETA : FVec Ideal S4 .f32) (DW : FVec Ideal S40x128 .f32) (DB : FVec Ideal S40 .f32)
    (hW : ∀ a b : Fin 128, W (ix2 a b) = Spec.weff (fun l a b => WR (ix3 l a b)) 3 a b) (R : Fin 100000) :
    (fun k : Fin 128 => Cert.Gnn.RefTerms.stepT3 h h0 C W WB EXT BETA (ix2 R k))
      = Spec.lay (Spec.wts EW EB WR WB EXT BETA DW DB) (C (ix1 R)) 3 (fun k => h0 (ix2 R k)) (fun k => h (ix2 R k)) := by
  funext j
  unfold Cert.Gnn.RefTerms.stepT3 Cert.Gnn.RefTerms.stepOf Cert.Gnn.RefTerms.rowB Cert.Gnn.RefTerms.entB
  refine (HostStep.hostStep_at _ rfl _ _ _ _ _ _ _ h h0 C W _ _ _ R j).trans ?_
  rw [HostStep.entryCut_apply 3 BETA _ _ (3 : Fin 4) rfl]
  simp only [HostStep.rowCut_apply 3 _ _ _ (3 : Fin 4) rfl, hW]
  rfl

/-- The decoded array at `(R, j)` is the decoding dense layer of row `R` of the last hidden array. -/
theorem decT_apply (h : FVec Ideal S100000x128 .f32) (EW : FVec Ideal S128x256 .f32) (EB : FVec Ideal S128 .f32)
    (WR : FVec Ideal S4x128x130 .f32) (WB EXT : FVec Ideal S4x128 .f32) (BETA : FVec Ideal S4 .f32)
    (DW : FVec Ideal S40x128 .f32) (DB : FVec Ideal S40 .f32) (R : Fin 100000) (j : Fin 40) :
    Cert.Gnn.RefTerms.decT h DW DB (ix2 R j)
      = Spec.dense (fun k => h (ix2 R k)) (Spec.wts EW EB WR WB EXT BETA DW DB).decW
          (Spec.wts EW EB WR WB EXT BETA DW DB).decb j := by
  unfold Cert.Gnn.RefTerms.decT
  exact HostStep.hostDense_at _ rfl _ _ _ _ h DW DB R j

/-- The reference's result at `(R, j)` is the specification's `Grow` at `(R, j)`, with the coefficient array the reference
    computes. -/
theorem refOut_apply (X : FVec Ideal S100000x256 .f32) (E : IVec S2x1600000 32) (EW : FVec Ideal S128x256 .f32)
    (EB : FVec Ideal S128 .f32) (WR : FVec Ideal S4x128x130 .f32) (WB EXT : FVec Ideal S4x128 .f32)
    (BETA : FVec Ideal S4 .f32) (DW : FVec Ideal S40x128 .f32) (DB : FVec Ideal S40 .f32)
    (R : Fin 100000) (j : Fin 40) :
    Cert.Gnn.RefTerms.refOut X E EW EB WR WB EXT BETA DW DB (ix2 R j)
      = Spec.Grow (Spec.wts EW EB WR WB EXT BETA DW DB) X (Cert.Gnn.RefTerms.coef E) R j := by
  unfold Cert.Gnn.RefTerms.refOut Spec.Grow Spec.rowOut
  rw [decT_apply _ EW EB WR WB EXT BETA DW DB R j,
    stepT3_row _ _ _ _ EW EB WR WB EXT BETA DW DB (RefWeff.weffT3_apply WR) R,
    stepT2_row _ _ _ _ EW EB WR WB EXT BETA DW DB (RefWeff.weffT2_apply WR) R,
    stepT1_row _ _ _ _ EW EB WR WB EXT BETA DW DB (RefWeff.weffT1_apply WR) R,
    stepT0_row _ _ _ _ EW EB WR WB EXT BETA DW DB (RefWeff.weffT0_apply WR) R,
    hEnc_row X EW EB WR WB EXT BETA DW DB R]

end Cert.Gnn.RefRead

end
-- ==== Proof.lean ====
/-
  The kernel and its reference compute one array.

  Both programs take node features `x`, an edge list, and the weights of a four-layer network. Each first computes, on the
  host, one aggregation coefficient per node from the edge list (two scatter-adds and a power of the degree), in the same
  operations; and each builds the four symmetric step matrices from the raw blocks — the kernel's program for all four
  layers at once with the diagonal laid in by a product with the identity matrix, the reference layer by layer with the
  diagonal selected in: over the extended reals `d · 1 = d` and `d · 0 = 0` for every `d`, so the two agree entry by entry.
  The network itself (a dense encoding, four steps `h ↦ h + 0.1 · max (c · (h·Wᵀ + b) − (h ∘ e + β · h0), 0)`, a dense
  decoding) acts on each node's row separately; the kernel runs it on tiles of 2000 rows with its products narrowed to a
  shorter float format (the identity here) and the reference on the whole arrays, operation for operation the same
  arithmetic. So both results are the array `Spec.G` of Spec.lean: the kernel's by its tiles (KerPay, KerBlocks, KerHost,
  KerFinal), the reference's by its operations read at an index (RefTerms, RefOps, RefRun, RefRead, RefWeff). No law used
  needs the inputs finite. The frames are the generated ones for the two kernel programs and the reference's run for the
  reference; the idealization rewrote nothing, so `preserves` is trivial.
-/
import proofs.«110196_j66305705116250_1_alg».proof.Defs
import proofs.«110196_j66305705116250_1_alg».proof.Proof.Gen.Kernel
import proofs.«110196_j66305705116250_1_alg».proof.Proof.Gen.Kernel.Skeleton
import proofs.«110196_j66305705116250_1_alg».proof.Proof.Gen.Kernel.Launch
import proofs.«110196_j66305705116250_1_alg».proof.Proof.Gen.Kernel.Points
import proofs.«110196_j66305705116250_1_alg».proof.Proof.Gen.Kernel.Frame
import proofs.«110196_j66305705116250_1_alg».proof.Proof.Gen.KernelIdeal
import proofs.«110196_j66305705116250_1_alg».proof.Proof.Gen.KernelIdeal.Skeleton
import proofs.«110196_j66305705116250_1_alg».proof.Proof.Gen.KernelIdeal.Launch
import proofs.«110196_j66305705116250_1_alg».proof.Proof.Gen.KernelIdeal.Points
import proofs.«110196_j66305705116250_1_alg».proof.Proof.Gen.KernelIdeal.Frame
import proofs.«110196_j66305705116250_1_alg».proof.Proof.Gen.KernelIdeal.Value
import proofs.«110196_j66305705116250_1_alg».proof.Proof.Gen.ReferenceIdeal
import proofs.«110196_j66305705116250_1_alg».proof.Proof.Gen.Pre_finite_inputs
import proofs.«110196_j66305705116250_1_alg».proof.Proof.KerFinal
import proofs.«110196_j66305705116250_1_alg».proof.Proof.RefRun
import proofs.«110196_j66305705116250_1_alg».proof.Proof.RefRead
import Idealize.ShloMosaic.Adequacy
import Idealize.ShloMosaic.Init

noncomputable section

namespace Cert.Proof

open Idealize.ShloMosaic Idealize.SL.Sem Idealize.ShloMosaic.ValueIdx Cert.Gnn

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Gnn.RefRun.run m ρ)

/-- The reference's result term is the specification's array: entry `(R, j)` of both is node `R`'s row through the
    network. -/
theorem refOut_eq (X : FVec Ideal Cert.ReferenceIdeal.S100000x256 .f32) (E : IVec Cert.ReferenceIdeal.S2x1600000 32)
    (EW : FVec Ideal Cert.ReferenceIdeal.S128x256 .f32) (EB : FVec Ideal Cert.ReferenceIdeal.S128 .f32)
    (WR : FVec Ideal Cert.ReferenceIdeal.S4x128x130 .f32) (WB EXT : FVec Ideal Cert.ReferenceIdeal.S4x128 .f32)
    (BETA : FVec Ideal Cert.ReferenceIdeal.S4 .f32) (DW : FVec Ideal Cert.ReferenceIdeal.S40x128 .f32)
    (DB : FVec Ideal Cert.ReferenceIdeal.S40 .f32) :
    RefTerms.refOut X E EW EB WR WB EXT BETA DW DB = Spec.G (Spec.wts EW EB WR WB EXT BETA DW DB) X (RefTerms.coef E) := by
  funext i
  obtain ⟨R, j, rfl⟩ : ∃ (R : Fin 100000) (j : Fin 40), i = ix2 R j := ⟨i 0, i 1, eq_ix2 i⟩
  rw [RefRead.refOut_apply, Spec.G_ix2]

/-- From memories that agree on the arguments, both programs end with the specification's array of those arguments. -/
theorem algebraic : Cert.algebraic_KernelIdeal_ReferenceIdeal := by
  intro m ρ m' ρ' _ hagree
  refine ⟨fun c => KerFinal.result m c, KerFinal.run m ρ, ?_⟩
  refine (θ_run Cert.ReferenceIdeal.defs _ _).mono (fun _ h c => ⟨(h c).1.trans ?_, (h c).2⟩) (RefRun.run m' ρ')
  obtain ⟨e0, e1, e2, e3, e4, e5, e6, e7, e8, e9⟩ := hagree c
  rw [e0, e1, e2, e3, e4, e5, e6, e7, e8, e9]
  exact refOut_eq _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
